-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S3072 : Shape := ⟨1, ![3072]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S2x16x2048x2048 : Shape := ⟨4, ![2, 16, 2048, 2048]⟩
abbrev S1x1024 : Shape := ⟨2, ![1, 1024]⟩

abbrev nBuf : Space → Nat
  | .hbm => 39
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S3072, .f32⟩
  | .hbm, ⟨15, _⟩ => ⟨S1x3072, .f32⟩
  | .hbm, ⟨16, _⟩ => ⟨S4096x3072, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S2x2048x16x64, .bf16⟩
  | .hbm, ⟨21, _⟩ => ⟨S2x16x2048x64, .bf16⟩
  | .hbm, ⟨22, _⟩ => ⟨S32x2048x64, .bf16⟩
  | .hbm, ⟨23, _⟩ => ⟨S2x2048x16x64, .bf16⟩
  | .hbm, ⟨24, _⟩ => ⟨S2x16x2048x64, .bf16⟩
  | .hbm, ⟨25, _⟩ => ⟨S32x2048x64, .bf16⟩
  | .hbm, ⟨26, _⟩ => ⟨S2x2048x16x64, .bf16⟩
  | .hbm, ⟨27, _⟩ => ⟨S2x16x2048x64, .bf16⟩
  | .hbm, ⟨28, _⟩ => ⟨S32x2048x64, .bf16⟩
  | .hbm, ⟨29, _⟩ => ⟨S32x2048x2048, .f32⟩
  | .hbm, ⟨30, _⟩ => ⟨S32x2048x64, .bf16⟩
  | .hbm, ⟨31, _⟩ => ⟨S2x16x2048x2048, .f32⟩
  | .hbm, ⟨32, _⟩ => ⟨S2x16x2048x64, .bf16⟩
  | .hbm, ⟨33, _⟩ => ⟨S2x2048x16x64, .bf16⟩
  | .hbm, ⟨34, _⟩ => ⟨S4096x1024, .bf16⟩
  | .hbm, ⟨35, _⟩ => ⟨S1024x1024, .f32⟩
  | .hbm, ⟨36, _⟩ => ⟨S1x1024, .f32⟩
  | .hbm, ⟨37, _⟩ => ⟨S4096x1024, .f32⟩
  | .hbm, ⟨38, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .f32⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x256x64, .bf16⟩
  | .local _ .vmem, ⟨7, _⟩ => ⟨S1x256x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x256x2048, .f32⟩
  | .local _ .vmem, ⟨13, _⟩ => ⟨S1x256x2048, .f32⟩
  | .local _ .vmem, ⟨14, _⟩ => ⟨S1x256x64, .bf16⟩
  | .local _ .vmem, ⟨15, _⟩ => ⟨S1x256x64, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  packedbf16_S1x256x64_S1x256x64_0_0_0 : (Rect.unit (s := S1x256x64) ![0, 0, 0] S1x256x64.size inb_S1x256x64_S1x256x64_0_0_0).PackedRows (EltTy.packing .bf16)
  shapeCasts_S32x2048x2048_S2x16x2048x2048 : S32x2048x2048.ShapeCasts S2x16x2048x2048
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S32x2048x64.size a
  hwx1_0 : ∀ i : grid1.Coords, EltTy.bits .bf16 = 32 ∨ (Rect.block (s := S32x2048x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S32x2048x2048.size a
  hwx1_3 : ∀ i : grid1.Coords, EltTy.bits .f32 = 32 ∨ (Rect.block (s := S32x2048x2048) S1x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64.size a ≤ S32x2048x64.size a
  hwx1_4 : ∀ i : grid1.Coords, EltTy.bits .bf16 = 32 ∨ (Rect.block (s := S32x2048x64) S1x256x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20_0) S1x256x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20_1) S1x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S_, .i1⟩
  | .hbm, ⟨32, _⟩ => ⟨S2048x2048, .i1⟩
  | .hbm, ⟨33, _⟩ => ⟨S2048x2048, .i32⟩
  | .hbm, ⟨34, _⟩ => ⟨S_, .i32⟩
  | .hbm, ⟨35, _⟩ => ⟨S2048x2048, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .i1⟩
  | .hbm, ⟨40, _⟩ => ⟨S2048x2048, .i1⟩
  | .hbm, ⟨41, _⟩ => ⟨S2048x2048, .i1⟩
  | .hbm, ⟨42, _⟩ => ⟨S1x1x2048x2048, .i1⟩
  | .hbm, ⟨43, _⟩ => ⟨S_, .f32⟩
  | .hbm, ⟨44, _⟩ => ⟨S_, .f32⟩
  | .hbm, ⟨45, _⟩ => ⟨S2x16x2048x2048, .i1⟩
  | .hbm, ⟨46, _⟩ => ⟨S2x16x2048x2048, .f32⟩
  | .hbm, ⟨47, _⟩ => ⟨S2x16x2048x2048, .f32⟩
  | .hbm, ⟨48, _⟩ => ⟨S_, .f32⟩
  | .hbm, ⟨49, _⟩ => ⟨S2x16x2048, .f32⟩
  | .hbm, ⟨50, _⟩ => ⟨S_, .f32⟩
  | .hbm, ⟨51, _⟩ => ⟨S2x16x2048, .f32⟩
  | .hbm, ⟨52, _⟩ => ⟨S2x16x2048, .f32⟩
  | .hbm, ⟨53, _⟩ => ⟨S2x16x2048x1, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S_, .f32⟩
  | .hbm, ⟨58, _⟩ => ⟨S2x16x2048, .f32⟩
  | .hbm, ⟨59, _⟩ => ⟨S2x16x2048x1, .f32⟩
  | .hbm, ⟨60, _⟩ => ⟨S2x16x2048x2048, .f32⟩
  | .hbm, ⟨61, _⟩ => ⟨S2x16x2048x2048, .f32⟩
  | .hbm, ⟨62, _⟩ => ⟨S2x16x2048x64, .f32⟩
  | .hbm, ⟨63, _⟩ => ⟨S2x2048x16x64, .f32⟩
  | .hbm, ⟨64, _⟩ => ⟨S2x2048x1024, .f32⟩
  | .hbm, ⟨65, _⟩ => ⟨S2x2048x1024, .f32⟩
  | .hbm, ⟨66, _⟩ => ⟨S1x1x1024, .f32⟩
  | .hbm, ⟨67, _⟩ => ⟨S2x2048x1024, .f32⟩
  | .hbm, ⟨68, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_0 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BitsRegion0.lean ====
import proofs.«145827_j85126251807436_2_alg».proof.Proof.Gen.Kernel.Launch
import proofs.«145827_j85126251807436_2_alg».proof.Proof.Gen.Kernel.Skeleton
import proofs.«145827_j85126251807436_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 0 of the program (the fused query/key/value projection: a row block of x times the concatenated transposed weights, plus the bias row), at any float instance and at a PARAMETER `V`, the contents of the
  TensorCore's buffers when the region is entered. Each window's block at a grid point is read off its array
  in `V`; the body, run on whole staging buffers holding the input blocks, leaves every input block in place
  and in each output buffer the value it stores, a pure function of the input blocks; these are the
  pipeline's data, and the body's triple at every point is the pipeline's obligation.
-/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: every load and store is of a whole buffer. -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- Output window 3's staging buffer after the body: its one store, of the body's value of the input blocks. -/
def out0_3 (x0 : Vec F S512x1024 .f32) (x1 : Vec F S1024x3072 .f32) (x2 : Vec F S1x3072 .f32) : Vec F S512x3072 .bf16 :=
  View.canon [⟨r0_3, k0_pay1 (View.ld x0 r0_0) (View.ld x1 r0_1) (View.ld x2 r0_2)⟩]

/-- The one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 4000000 in
/-- The body on whole staging buffers, the inputs' at contents `x` and the outputs' at anything, runs to the end
    holding the inputs' as they were and each output's at `out` of the inputs'. -/
theorem sound_kernel0 (c : Dev nD) (E : Set ℕ) (i : grid0.Coords) (a0 : Memref sig .tc .vmem S512x1024 .f32) (ha0 : a0.IsWhole) (a1 : Memref sig .tc .vmem S1024x3072 .f32) (ha1 : a1.IsWhole) (a2 : Memref sig .tc .vmem S1x3072 .f32) (ha2 : a2.IsWhole) (a3 : Memref sig .tc .vmem S512x3072 .bf16) (ha3 : a3.IsWhole)
    (x0 : Vec F S512x1024 .f32) (x1 : Vec F S1024x3072 .f32) (x2 : Vec F S1x3072 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2)) -∗ K ⟨⟩))
      ⊢ wp frame (wpE (defs₀ (F := F)) Variants.none c none) E (cc0__linear_kernel i a0 ha0 a1 ha1 a2 ha2 a3 ha3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's data on core `c`: the arrays as the region finds them; after the body at point `t` each input's buffer
    at its block and each output's at the body's value of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.BitsRegion1.lean ====
import proofs.«145827_j85126251807436_2_alg».proof.Proof.Gen.Kernel.Launch
import proofs.«145827_j85126251807436_2_alg».proof.Proof.Gen.Kernel.Skeleton
import proofs.«145827_j85126251807436_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 1 of the program (causal attention for one head and one tile of query rows: the softmax weights and their product with the values), at any float instance and at a PARAMETER `V`, the contents of the
  TensorCore's buffers when the region is entered. Each window's block at a grid point is read off its array
  in `V`; the body, run on whole staging buffers holding the input blocks, leaves every input block in place
  and in each output buffer the value it stores, a pure function of the input blocks and of the grid point; these are the
  pipeline's data, and the body's triple at every point is the pipeline's obligation.
-/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved), for any data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    window's block index has not moved), for any data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched
    window's block index has not moved), for any data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: every load and store is of a whole buffer. -/

abbrev r1_0 : Rect S1x256x64 := Rect.unit (s := S1x256x64) ![0, 0, 0] S1x256x64.size inb_S1x256x64_S1x256x64_0_0_0
abbrev r1_1 : Rect S1x2048x64 := Rect.unit (s := S1x2048x64) ![0, 0, 0] S1x2048x64.size inb_S1x2048x64_S1x2048x64_0_0_0
abbrev r1_2 : Rect S1x2048x64 := Rect.unit (s := S1x2048x64) ![0, 0, 0] S1x2048x64.size inb_S1x2048x64_S1x2048x64_0_0_0
abbrev r1_3 : Rect S1x256x2048 := Rect.unit (s := S1x256x2048) ![0, 0, 0] S1x256x2048.size inb_S1x256x2048_S1x256x2048_0_0_0
abbrev r1_4 : Rect S1x256x64 := Rect.unit (s := S1x256x64) ![0, 0, 0] S1x256x64.size inb_S1x256x64_S1x256x64_0_0_0

/-- Output window 3's staging buffer after the body: its one store, of the body's value of the input blocks. -/
def out1_3 (i : grid1.Coords) (x0 : Vec F S1x256x64 .bf16) (x1 : Vec F S1x2048x64 .bf16) (x2 : Vec F S1x2048x64 .bf16) : Vec F S1x256x2048 .f32 :=
  View.canon [⟨r1_3, k1_pay2 i (View.ld x0 r1_0) (View.ld x1 r1_1)⟩]

/-- The one store covers the buffer. -/
theorem cover1_3 (p0 : Vec F S1x256x2048 .f32) (y : S1x256x2048.Idx) :
    ∃ pc ∈ ([⟨r1_3, p0⟩] : List (View.Piece (Elt F) S1x256x2048 .f32)), y ∈ pc.1.set :=
  View.cover_of_tiled [⟨r1_3, p0⟩] S1x256x2048.size (by rfl) y

/-- Output window 4's staging buffer after the body: its one store, of the body's value of the input blocks. -/
def out1_4 (i : grid1.Coords) (x0 : Vec F S1x256x64 .bf16) (x1 : Vec F S1x2048x64 .bf16) (x2 : Vec F S1x2048x64 .bf16) : Vec F S1x256x64 .bf16 :=
  View.canon [⟨r1_4, k1_pay3 i (View.ld x0 r1_0) (View.ld x1 r1_1) (View.ld x2 r1_2)⟩]

/-- The one store covers the buffer. -/
theorem cover1_4 (p0 : Vec F S1x256x64 .bf16) (y : S1x256x64.Idx) :
    ∃ pc ∈ ([⟨r1_4, p0⟩] : List (View.Piece (Elt F) S1x256x64 .bf16)), y ∈ pc.1.set :=
  View.cover_of_tiled [⟨r1_4, p0⟩] S1x256x64.size (by rfl) y

set_option maxHeartbeats 4000000 in
/-- The body on whole staging buffers, the inputs' at contents `x` and the outputs' at anything, runs to the end
    holding the inputs' as they were and each output's at `out` of the inputs'. -/
theorem sound_kernel1 (c : Dev nD) (E : Set ℕ) (i : grid1.Coords) (a0 : Memref sig .tc .vmem S1x256x64 .bf16) (ha0 : a0.IsWhole) (a1 : Memref sig .tc .vmem S1x2048x64 .bf16) (ha1 : a1.IsWhole) (a2 : Memref sig .tc .vmem S1x2048x64 .bf16) (ha2 : a2.IsWhole) (a3 : Memref sig .tc .vmem S1x256x2048 .f32) (ha3 : a3.IsWhole) (a4 : Memref sig .tc .vmem S1x256x64 .bf16) (ha4 : a4.IsWhole)
    (x0 : Vec F S1x256x64 .bf16) (x1 : Vec F S1x2048x64 .bf16) (x2 : Vec F S1x2048x64 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 i x0 x1 x2) ∗ owns (c : Thread nD τ) a4 fullShare (out1_4 i x0 x1 x2)) -∗ K ⟨⟩))
      ⊢ wp frame (wpE (defs₀ (F := F)) Variants.none c none) E (cc1__attn_kernel i a0 ha0 a1 ha1 a2 ha2 a3 ha3 a4 ha4) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The pipeline's data on core `c`: the arrays as the region finds them; after the body at point `t` each input's buffer
    at its block and each output's at the body's value of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
    | ⟨4, _⟩ => out1_4 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (grid1.coords t) (iblk1 V c 0 t) (iblk1 V c 1 t) (iblk1 V c 2 t) := by dsimp only [dat1]
theorem after1_4 (c : Dev nD) (t : Fin cfg1.N) : (dat1 V c).after 4 t = out1_4 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.BitsRegion2.lean ====
import proofs.«145827_j85126251807436_2_alg».proof.Proof.Gen.Kernel.Launch
import proofs.«145827_j85126251807436_2_alg».proof.Proof.Gen.Kernel.Skeleton
import proofs.«145827_j85126251807436_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 2 of the program (the output projection: a row block of the attention output times the transposed weight, plus the bias row), at any float instance and at a PARAMETER `V`, the contents of the
  TensorCore's buffers when the region is entered. Each window's block at a grid point is read off its array
  in `V`; the body, run on whole staging buffers holding the input blocks, leaves every input block in place
  and in each output buffer the value it stores, a pure function of the input blocks; these are the
  pipeline's data, and the body's triple at every point is the pipeline's obligation.
-/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    window's block index has not moved), for any data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    window's block index has not moved), for any data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    window's block index has not moved), for any data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: every load and store is of a whole buffer. -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-- Output window 3's staging buffer after the body: its one store, of the body's value of the input blocks. -/
def out2_3 (x0 : Vec F S512x1024 .bf16) (x1 : Vec F S1024x1024 .f32) (x2 : Vec F S1x1024 .f32) : Vec F S512x1024 .f32 :=
  View.canon [⟨r2_3, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 4000000 in
/-- The body on whole staging buffers, the inputs' at contents `x` and the outputs' at anything, runs to the end
    holding the inputs' as they were and each output's at `out` of the inputs'. -/
theorem sound_kernel2 (c : Dev nD) (E : Set ℕ) (i : grid2.Coords) (a0 : Memref sig .tc .vmem S512x1024 .bf16) (ha0 : a0.IsWhole) (a1 : Memref sig .tc .vmem S1024x1024 .f32) (ha1 : a1.IsWhole) (a2 : Memref sig .tc .vmem S1x1024 .f32) (ha2 : a2.IsWhole) (a3 : Memref sig .tc .vmem S512x1024 .f32) (ha3 : a3.IsWhole)
    (x0 : Vec F S512x1024 .bf16) (x1 : Vec F S1024x1024 .f32) (x2 : Vec F S1x1024 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__linear_kernel i a0 ha0 a1 ha1 a2 ha2 a3 ha3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's data on core `c`: the arrays as the region finds them; after the body at point `t` each input's buffer
    at its block and each output's at the body's value of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Run

end
-- ==== Proof.BitsRun.lean ====
import proofs.«145827_j85126251807436_2_alg».proof.Proof.BitsRegion0
import proofs.«145827_j85126251807436_2_alg».proof.Proof.BitsRegion1
import proofs.«145827_j85126251807436_2_alg».proof.Proof.BitsRegion2
import proofs.«145827_j85126251807436_2_alg».proof.Proof.Gen.Kernel.Regions

/-!
  The whole run of the program at any float instance: four stretches of host operations around three kernel regions.
  The contents of the TensorCore's unscoped buffers are followed from the launch memory through every stretch and
  every region — a host stretch applies its operations; a region changes only its output arrays, each to what its
  pipeline's write-backs leave (`arrAt` at the grid's last point) — and every weakly fair execution terminates, without a
  fault, in a memory that holds every unscoped buffer at the last contents `W7`. The frame (the argument arrays end as
  launched) and the values of the two results are both read off that.
-/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items of @main -/

/-- After the first host stretch: region 0's entry contents. -/
abbrev W1 (c : Dev nD) : Valuation τ sig (Elt F) := Gen.V1 m c
abbrev E1 : (c : Dev nD) → (b : Ref sig .tc) → Buf (Elt F) ((c : Thread nD τ).loc b) := fun c b => W1 m c b
/-- What region 0's write-backs leave in its output array. -/
def o2 (c : Dev nD) : Buf (Elt F) ((c : Thread nD τ).loc main_v7) := (dat0 (E1 m) c).arrAt 3 cfg0.N
/-- After region 0: its output array at what its pipeline leaves, every other buffer as entered. -/
def W2 (c : Dev nD) : Valuation τ sig (Elt F) := Function.update (W1 m c) main_v7 (o2 m c)
/-- After the second host stretch: region 1's entry contents. -/
def W3 (c : Dev nD) : Valuation τ sig (Elt F) := StableHlo.after hostOps1 (W2 m c)
abbrev E3 : (c : Dev nD) → (b : Ref sig .tc) → Buf (Elt F) ((c : Thread nD τ).loc b) := fun c b => W3 m c b
def o4a (c : Dev nD) : Buf (Elt F) ((c : Thread nD τ).loc main_v20_0) := (dat1 (E3 m) c).arrAt 3 cfg1.N
def o4b (c : Dev nD) : Buf (Elt F) ((c : Thread nD τ).loc main_v20_1) := (dat1 (E3 m) c).arrAt 4 cfg1.N
/-- After region 1: its two output arrays at what its pipeline leaves. -/
def W4 (c : Dev nD) : Valuation τ sig (Elt F) := Function.update (Function.update (W3 m c) main_v20_0 (o4a m c)) main_v20_1 (o4b m c)
/-- After the third host stretch: region 2's entry contents. -/
def W5 (c : Dev nD) : Valuation τ sig (Elt F) := StableHlo.after hostOps2 (W4 m c)
abbrev E5 : (c : Dev nD) → (b : Ref sig .tc) → Buf (Elt F) ((c : Thread nD τ).loc b) := fun c b => W5 m c b
def o6 (c : Dev nD) : Buf (Elt F) ((c : Thread nD τ).loc main_v27) := (dat2 (E5 m) c).arrAt 3 cfg2.N
/-- After region 2. -/
def W6 (c : Dev nD) : Valuation τ sig (Elt F) := Function.update (W5 m c) main_v27 (o6 m c)
/-- After the last host stretch: what the program ends with. -/
def W7 (c : Dev nD) : Valuation τ sig (Elt F) := StableHlo.after hostOps3 (W6 m c)

theorem W2_self (c : Dev nD) : W2 m c main_v7 = o2 m c := by unfold W2; exact Function.update_self _ _ _
theorem W2_of_ne (c : Dev nD) (b : Ref sig .tc) (h : b ≠ main_v7) : W2 m c b = W1 m c b := by
  unfold W2; exact Function.update_of_ne (StableHlo.devRef_ne_of_ne h) _ _
theorem W4_self0 (c : Dev nD) : W4 m c main_v20_0 = o4a m c := by
  unfold W4; rw [Function.update_of_ne (StableHlo.devRef_ne_of_ne (by decide))]; exact Function.update_self _ _ _
theorem W4_self1 (c : Dev nD) : W4 m c main_v20_1 = o4b m c := by unfold W4; exact Function.update_self _ _ _
theorem W4_of_ne (c : Dev nD) (b : Ref sig .tc) (h0 : b ≠ main_v20_0) (h1 : b ≠ main_v20_1) : W4 m c b = W3 m c b := by
  unfold W4; rw [Function.update_of_ne (StableHlo.devRef_ne_of_ne h1), Function.update_of_ne (StableHlo.devRef_ne_of_ne h0)]
theorem W6_self (c : Dev nD) : W6 m c main_v27 = o6 m c := by unfold W6; exact Function.update_self _ _ _
theorem W6_of_ne (c : Dev nD) (b : Ref sig .tc) (h : b ≠ main_v27) : W6 m c b = W5 m c b := by
  unfold W6; exact Function.update_of_ne (StableHlo.devRef_ne_of_ne h) _ _

/-- The regions' exit contents as the unknowns of the generated host-side valuations. -/
def outs : Gen.Outs (F := F) := fun J r c => match J with
  | 2 => W2 m c r
  | 4 => W4 m c r
  | 6 => W6 m c r
  | _ => W1 m c r

theorem V2_eq (c : Dev nD) : Gen.V2 m (outs m) c = W2 m c := by
  show Function.update (Gen.V1 m c) main_v7 (W2 m c main_v7) = W2 m c
  rw [W2_self]; rfl
theorem V3_eq (c : Dev nD) : Gen.V3 m (outs m) c = W3 m c := by
  show StableHlo.after hostOps1 (Gen.V2 m (outs m) c) = W3 m c
  rw [V2_eq]; rfl
theorem V4_eq (c : Dev nD) : Gen.V4 m (outs m) c = W4 m c := by
  show Function.update (Function.update (Gen.V3 m (outs m) c) main_v20_0 (W4 m c main_v20_0)) main_v20_1 (W4 m c main_v20_1) = W4 m c
  rw [V3_eq, W4_self0, W4_self1]; rfl
theorem V5_eq (c : Dev nD) : Gen.V5 m (outs m) c = W5 m c := by
  show StableHlo.after hostOps2 (Gen.V4 m (outs m) c) = W5 m c
  rw [V4_eq]; rfl
theorem V6_eq (c : Dev nD) : Gen.V6 m (outs m) c = W6 m c := by
  show Function.update (Gen.V5 m (outs m) c) main_v27 (W6 m c main_v27) = W6 m c
  rw [V5_eq, W6_self]; rfl
theorem V7_eq (c : Dev nD) : Gen.V7 m (outs m) c = W7 m c := by
  show StableHlo.after hostOps3 (Gen.V6 m (outs m) c) = W7 m c
  rw [V6_eq]; rfl

/-! ## Each region's arrays at its exit -/

theorem hF0 (c : Dev nD) : ∀ w : Fin 4, (dat0 (E1 m) c).arrAt w cfg0.N = W2 m c (Pipeline.arrRef spec0 w)
  | ⟨0, _⟩ => ((dat0 (E1 m) c).arrAt_in 0 rfl _).trans ((A_eq0 (E1 m) c 0).trans (W2_of_ne m c main_v0 (by decide)).symm)
  | ⟨1, _⟩ => ((dat0 (E1 m) c).arrAt_in 1 rfl _).trans ((A_eq0 (E1 m) c 1).trans (W2_of_ne m c main_v4 (by decide)).symm)
  | ⟨2, _⟩ => ((dat0 (E1 m) c).arrAt_in 2 rfl _).trans ((A_eq0 (E1 m) c 2).trans (W2_of_ne m c main_v6 (by decide)).symm)
  | ⟨3, _⟩ => (W2_self m c).symm
  | ⟨_ + 4, h⟩ => absurd h (Nat.not_lt.2 (Nat.le_add_left _ _))
theorem hrest0 (c : Dev nD) : ∀ b, b ∉ Finset.univ.image (Pipeline.arrRef spec0) → W2 m c b = E1 m c b :=
  fun b hb => W2_of_ne m c b fun e => hb (Finset.mem_image.mpr ⟨3, Finset.mem_univ _, e.symm⟩)

theorem hF1 (c : Dev nD) : ∀ w : Fin 5, (dat1 (E3 m) c).arrAt w cfg1.N = W4 m c (Pipeline.arrRef spec1 w)
  | ⟨0, _⟩ => ((dat1 (E3 m) c).arrAt_in 0 rfl _).trans ((A_eq1 (E3 m) c 0).trans (W4_of_ne m c main_v13 (by decide) (by decide)).symm)
  | ⟨1, _⟩ => ((dat1 (E3 m) c).arrAt_in 1 rfl _).trans ((A_eq1 (E3 m) c 1).trans (W4_of_ne m c main_v16 (by decide) (by decide)).symm)
  | ⟨2, _⟩ => ((dat1 (E3 m) c).arrAt_in 2 rfl _).trans ((A_eq1 (E3 m) c 2).trans (W4_of_ne m c main_v19 (by decide) (by decide)).symm)
  | ⟨3, _⟩ => (W4_self0 m c).symm
  | ⟨4, _⟩ => (W4_self1 m c).symm
  | ⟨_ + 5, h⟩ => absurd h (Nat.not_lt.2 (Nat.le_add_left _ _))
theorem hrest1 (c : Dev nD) : ∀ b, b ∉ Finset.univ.image (Pipeline.arrRef spec1) → W4 m c b = E3 m c b :=
  fun b hb => W4_of_ne m c b (fun e => hb (Finset.mem_image.mpr ⟨3, Finset.mem_univ _, e.symm⟩))
    (fun e => hb (Finset.mem_image.mpr ⟨4, Finset.mem_univ _, e.symm⟩))

theorem hF2 (c : Dev nD) : ∀ w : Fin 4, (dat2 (E5 m) c).arrAt w cfg2.N = W6 m c (Pipeline.arrRef spec2 w)
  | ⟨0, _⟩ => ((dat2 (E5 m) c).arrAt_in 0 rfl _).trans ((A_eq2 (E5 m) c 0).trans (W6_of_ne m c main_v24 (by decide)).symm)
  | ⟨1, _⟩ => ((dat2 (E5 m) c).arrAt_in 1 rfl _).trans ((A_eq2 (E5 m) c 1).trans (W6_of_ne m c main_v25 (by decide)).symm)
  | ⟨2, _⟩ => ((dat2 (E5 m) c).arrAt_in 2 rfl _).trans ((A_eq2 (E5 m) c 2).trans (W6_of_ne m c main_v26 (by decide)).symm)
  | ⟨3, _⟩ => (W6_self m c).symm
  | ⟨_ + 4, h⟩ => absurd h (Nat.not_lt.2 (Nat.le_add_left _ _))
theorem hrest2 (c : Dev nD) : ∀ b, b ∉ Finset.univ.image (Pipeline.arrRef spec2) → W6 m c b = E5 m c b :=
  fun b hb => W6_of_ne m c b fun e => hb (Finset.mem_image.mpr ⟨3, Finset.mem_univ _, e.symm⟩)

/-! ## The pipelines' data and the thread state -/

/-- Every pipeline's data, each at its region's entry contents. -/
def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W1`, left with them at `W2`. Its arrays are
    split out of the unscoped buffers on entry and put back at the exit contents; the generator register goes into the
    region's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are
    split out of the unscoped buffers on entry and put back at the exit contents; the generator register goes into the
    region's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays are
    split out of the unscoped buffers on entry and put back at the exit contents; the generator register goes into the
    region's invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters, every weakly fair execution of @main terminates, nothing faulting, in a memory
    holding every unscoped buffer at `W7`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W7 m c b) := by
  refine Pipeline.θ_run_regions_kit_dev (pcfgs (F := F)) Gen.adm (pdats m) () cellOf_inj emb₁ defs₀ 𝒱₀ L lv m ρ main
    (Gen.segs m (outs m) 𝒱₀ L lv (fun _ => R) () (pdats m) (reg0 m) (reg1 m) (reg2 m))
    (fun c Q => by
      rewrite [main_chain c, Seg.run_eq_chain,
        show (Gen.segs m (outs m) 𝒱₀ L lv (fun _ => R) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W7 m c))
    (hch := fun c => ⟨.rfl, .rfl,
      (by show iprop(StableHlo.held (c : Thread nD τ) (Pipeline.ucRefs τ sig) (W2 m c) ∗ R c) ⊢ iprop(StableHlo.held (c : Thread nD τ) (Pipeline.ucRefs τ sig) (Gen.V2 m (outs m) c) ∗ R c)
          rw [V2_eq]),
      (by show iprop(StableHlo.held (c : Thread nD τ) (Pipeline.ucRefs τ sig) (Gen.V3 m (outs m) c) ∗ R c) ⊢ iprop(StableHlo.held (c : Thread nD τ) (Pipeline.ucRefs τ sig) (W3 m c) ∗ R c)
          rw [V3_eq]),
      (by show iprop(StableHlo.held (c : Thread nD τ) (Pipeline.ucRefs τ sig) (W4 m c) ∗ R c) ⊢ iprop(StableHlo.held (c : Thread nD τ) (Pipeline.ucRefs τ sig) (Gen.V4 m (outs m) c) ∗ R c)
          rw [V4_eq]),
      (by show iprop(StableHlo.held (c : Thread nD τ) (Pipeline.ucRefs τ sig) (Gen.V5 m (outs m) c) ∗ R c) ⊢ iprop(StableHlo.held (c : Thread nD τ) (Pipeline.ucRefs τ sig) (W5 m c) ∗ R c)
          rw [V5_eq]),
      (by show iprop(StableHlo.held (c : Thread nD τ) (Pipeline.ucRefs τ sig) (W6 m c) ∗ R c) ⊢ iprop(StableHlo.held (c : Thread nD τ) (Pipeline.ucRefs τ sig) (Gen.V6 m (outs m) c) ∗ R c)
          rw [V6_eq]),
      (by show iprop(StableHlo.held (c : Thread nD τ) (Pipeline.ucRefs τ sig) (Gen.V7 m (outs m) c) ∗ R c) ⊢ iprop(StableHlo.held (c : Thread nD τ) (Pipeline.ucRefs τ sig) (W7 m c) ∗ ∃ W, owes (c : Thread nD τ) (0 : CellTallies nD τ sig Unit) W)
          rw [V7_eq]; exact sep_mono .rfl (by iintro ⟨-, H⟩; iexact H))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun _ h => h)

/-- Every argument array reaches the end as launched. -/
theorem W7_arg (c : Dev nD) :
    W7 m c main_arg0 = m ((c : Thread nD τ).loc main_arg0) ∧
    W7 m c main_arg1 = m ((c : Thread nD τ).loc main_arg1) ∧
    W7 m c main_arg2 = m ((c : Thread nD τ).loc main_arg2) ∧
    W7 m c main_arg3 = m ((c : Thread nD τ).loc main_arg3) ∧
    W7 m c main_arg4 = m ((c : Thread nD τ).loc main_arg4) ∧
    W7 m c main_arg5 = m ((c : Thread nD τ).loc main_arg5) ∧
    W7 m c main_arg6 = m ((c : Thread nD τ).loc main_arg6) ∧
    W7 m c main_arg7 = m ((c : Thread nD τ).loc main_arg7) ∧
    W7 m c main_arg8 = m ((c : Thread nD τ).loc main_arg8) := by
  rw [← V7_eq]
  exact ⟨Gen.V7_main_arg0 m (outs m) c, Gen.V7_main_arg1 m (outs m) c, Gen.V7_main_arg2 m (outs m) c, Gen.V7_main_arg3 m (outs m) c, Gen.V7_main_arg4 m (outs m) c, Gen.V7_main_arg5 m (outs m) c, Gen.V7_main_arg6 m (outs m) c, Gen.V7_main_arg7 m (outs m) c, Gen.V7_main_arg8 m (outs m) c⟩

/-- The frame: the program runs to the end, faults nowhere, and its argument arrays end unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => by
    obtain ⟨h0, h1, h2, h3, h4, h5, h6, h7, h8⟩ := W7_arg m c
    exact ⟨(h c _ (mem_uc main_arg0 (by decide))).trans h0, (h c _ (mem_uc main_arg1 (by decide))).trans h1, (h c _ (mem_uc main_arg2 (by decide))).trans h2, (h c _ (mem_uc main_arg3 (by decide))).trans h3, (h c _ (mem_uc main_arg4 (by decide))).trans h4, (h c _ (mem_uc main_arg5 (by decide))).trans h5, (h c _ (mem_uc main_arg6 (by decide))).trans h6, (h c _ (mem_uc main_arg7 (by decide))).trans h7, (h c _ (mem_uc main_arg8 (by decide))).trans h8⟩) (run_main m ρ)

end Cert.Kernel.Run

end
-- ==== Proof.IdealRegion0.lean ====
import proofs.«145827_j85126251807436_2_alg».proof.Proof.Gen.KernelIdeal.Launch
import proofs.«145827_j85126251807436_2_alg».proof.Proof.Gen.KernelIdeal.Skeleton
import proofs.«145827_j85126251807436_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 0 of the program (the fused query/key/value projection: a row block of x times the concatenated transposed weights, plus the bias row), at any float instance and at a PARAMETER `V`, the contents of the
  TensorCore's buffers when the region is entered. Each window's block at a grid point is read off its array
  in `V`; the body, run on whole staging buffers holding the input blocks, leaves every input block in place
  and in each output buffer the value it stores, a pure function of the input blocks; these are the
  pipeline's data, and the body's triple at every point is the pipeline's obligation.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: every load and store is of a whole buffer. -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- Output window 3's staging buffer after the body: its one store, of the body's value of the input blocks. -/
def out0_3 (x0 : Vec F S512x1024 .f32) (x1 : Vec F S1024x3072 .f32) (x2 : Vec F S1x3072 .f32) : Vec F S512x3072 .bf16 :=
  View.canon [⟨r0_3, k0_pay1 (View.ld x0 r0_0) (View.ld x1 r0_1) (View.ld x2 r0_2)⟩]

/-- The one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 4000000 in
/-- The body on whole staging buffers, the inputs' at contents `x` and the outputs' at anything, runs to the end
    holding the inputs' as they were and each output's at `out` of the inputs'. -/
theorem sound_kernel0 (c : Dev nD) (E : Set ℕ) (i : grid0.Coords) (a0 : Memref sig .tc .vmem S512x1024 .f32) (ha0 : a0.IsWhole) (a1 : Memref sig .tc .vmem S1024x3072 .f32) (ha1 : a1.IsWhole) (a2 : Memref sig .tc .vmem S1x3072 .f32) (ha2 : a2.IsWhole) (a3 : Memref sig .tc .vmem S512x3072 .bf16) (ha3 : a3.IsWhole)
    (x0 : Vec F S512x1024 .f32) (x1 : Vec F S1024x3072 .f32) (x2 : Vec F S1x3072 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2)) -∗ K ⟨⟩))
      ⊢ wp frame (wpE (defs₀ (F := F)) Variants.none c none) E (cc0__linear_kernel i a0 ha0 a1 ha1 a2 ha2 a3 ha3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's data on core `c`: the arrays as the region finds them; after the body at point `t` each input's buffer
    at its block and each output's at the body's value of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.IdealRegion1.lean ====
import proofs.«145827_j85126251807436_2_alg».proof.Proof.Gen.KernelIdeal.Launch
import proofs.«145827_j85126251807436_2_alg».proof.Proof.Gen.KernelIdeal.Skeleton
import proofs.«145827_j85126251807436_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 1 of the program (causal attention for one head and one tile of query rows: the softmax weights and their product with the values), at any float instance and at a PARAMETER `V`, the contents of the
  TensorCore's buffers when the region is entered. Each window's block at a grid point is read off its array
  in `V`; the body, run on whole staging buffers holding the input blocks, leaves every input block in place
  and in each output buffer the value it stores, a pure function of the input blocks and of the grid point; these are the
  pipeline's data, and the body's triple at every point is the pipeline's obligation.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved), for any data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    window's block index has not moved), for any data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched
    window's block index has not moved), for any data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: every load and store is of a whole buffer. -/

abbrev r1_0 : Rect S1x256x64 := Rect.unit (s := S1x256x64) ![0, 0, 0] S1x256x64.size inb_S1x256x64_S1x256x64_0_0_0
abbrev r1_1 : Rect S1x2048x64 := Rect.unit (s := S1x2048x64) ![0, 0, 0] S1x2048x64.size inb_S1x2048x64_S1x2048x64_0_0_0
abbrev r1_2 : Rect S1x2048x64 := Rect.unit (s := S1x2048x64) ![0, 0, 0] S1x2048x64.size inb_S1x2048x64_S1x2048x64_0_0_0
abbrev r1_3 : Rect S1x256x2048 := Rect.unit (s := S1x256x2048) ![0, 0, 0] S1x256x2048.size inb_S1x256x2048_S1x256x2048_0_0_0
abbrev r1_4 : Rect S1x256x64 := Rect.unit (s := S1x256x64) ![0, 0, 0] S1x256x64.size inb_S1x256x64_S1x256x64_0_0_0

/-- Output window 3's staging buffer after the body: its one store, of the body's value of the input blocks. -/
def out1_3 (i : grid1.Coords) (x0 : Vec F S1x256x64 .bf16) (x1 : Vec F S1x2048x64 .bf16) (x2 : Vec F S1x2048x64 .bf16) : Vec F S1x256x2048 .f32 :=
  View.canon [⟨r1_3, k1_pay2 i (View.ld x0 r1_0) (View.ld x1 r1_1)⟩]

/-- The one store covers the buffer. -/
theorem cover1_3 (p0 : Vec F S1x256x2048 .f32) (y : S1x256x2048.Idx) :
    ∃ pc ∈ ([⟨r1_3, p0⟩] : List (View.Piece (Elt F) S1x256x2048 .f32)), y ∈ pc.1.set :=
  View.cover_of_tiled [⟨r1_3, p0⟩] S1x256x2048.size (by rfl) y

/-- Output window 4's staging buffer after the body: its one store, of the body's value of the input blocks. -/
def out1_4 (i : grid1.Coords) (x0 : Vec F S1x256x64 .bf16) (x1 : Vec F S1x2048x64 .bf16) (x2 : Vec F S1x2048x64 .bf16) : Vec F S1x256x64 .bf16 :=
  View.canon [⟨r1_4, k1_pay3 i (View.ld x0 r1_0) (View.ld x1 r1_1) (View.ld x2 r1_2)⟩]

/-- The one store covers the buffer. -/
theorem cover1_4 (p0 : Vec F S1x256x64 .bf16) (y : S1x256x64.Idx) :
    ∃ pc ∈ ([⟨r1_4, p0⟩] : List (View.Piece (Elt F) S1x256x64 .bf16)), y ∈ pc.1.set :=
  View.cover_of_tiled [⟨r1_4, p0⟩] S1x256x64.size (by rfl) y

set_option maxHeartbeats 4000000 in
/-- The body on whole staging buffers, the inputs' at contents `x` and the outputs' at anything, runs to the end
    holding the inputs' as they were and each output's at `out` of the inputs'. -/
theorem sound_kernel1 (c : Dev nD) (E : Set ℕ) (i : grid1.Coords) (a0 : Memref sig .tc .vmem S1x256x64 .bf16) (ha0 : a0.IsWhole) (a1 : Memref sig .tc .vmem S1x2048x64 .bf16) (ha1 : a1.IsWhole) (a2 : Memref sig .tc .vmem S1x2048x64 .bf16) (ha2 : a2.IsWhole) (a3 : Memref sig .tc .vmem S1x256x2048 .f32) (ha3 : a3.IsWhole) (a4 : Memref sig .tc .vmem S1x256x64 .bf16) (ha4 : a4.IsWhole)
    (x0 : Vec F S1x256x64 .bf16) (x1 : Vec F S1x2048x64 .bf16) (x2 : Vec F S1x2048x64 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 i x0 x1 x2) ∗ owns (c : Thread nD τ) a4 fullShare (out1_4 i x0 x1 x2)) -∗ K ⟨⟩))
      ⊢ wp frame (wpE (defs₀ (F := F)) Variants.none c none) E (cc1__attn_kernel i a0 ha0 a1 ha1 a2 ha2 a3 ha3 a4 ha4) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The pipeline's data on core `c`: the arrays as the region finds them; after the body at point `t` each input's buffer
    at its block and each output's at the body's value of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
    | ⟨4, _⟩ => out1_4 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (grid1.coords t) (iblk1 V c 0 t) (iblk1 V c 1 t) (iblk1 V c 2 t) := by dsimp only [dat1]
theorem after1_4 (c : Dev nD) (t : Fin cfg1.N) : (dat1 V c).after 4 t = out1_4 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.IdealRegion2.lean ====
import proofs.«145827_j85126251807436_2_alg».proof.Proof.Gen.KernelIdeal.Launch
import proofs.«145827_j85126251807436_2_alg».proof.Proof.Gen.KernelIdeal.Skeleton
import proofs.«145827_j85126251807436_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 2 of the program (the output projection: a row block of the attention output times the transposed weight, plus the bias row), at any float instance and at a PARAMETER `V`, the contents of the
  TensorCore's buffers when the region is entered. Each window's block at a grid point is read off its array
  in `V`; the body, run on whole staging buffers holding the input blocks, leaves every input block in place
  and in each output buffer the value it stores, a pure function of the input blocks; these are the
  pipeline's data, and the body's triple at every point is the pipeline's obligation.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    window's block index has not moved), for any data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    window's block index has not moved), for any data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    window's block index has not moved), for any data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: every load and store is of a whole buffer. -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-- Output window 3's staging buffer after the body: its one store, of the body's value of the input blocks. -/
def out2_3 (x0 : Vec F S512x1024 .bf16) (x1 : Vec F S1024x1024 .f32) (x2 : Vec F S1x1024 .f32) : Vec F S512x1024 .f32 :=
  View.canon [⟨r2_3, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 4000000 in
/-- The body on whole staging buffers, the inputs' at contents `x` and the outputs' at anything, runs to the end
    holding the inputs' as they were and each output's at `out` of the inputs'. -/
theorem sound_kernel2 (c : Dev nD) (E : Set ℕ) (i : grid2.Coords) (a0 : Memref sig .tc .vmem S512x1024 .bf16) (ha0 : a0.IsWhole) (a1 : Memref sig .tc .vmem S1024x1024 .f32) (ha1 : a1.IsWhole) (a2 : Memref sig .tc .vmem S1x1024 .f32) (ha2 : a2.IsWhole) (a3 : Memref sig .tc .vmem S512x1024 .f32) (ha3 : a3.IsWhole)
    (x0 : Vec F S512x1024 .bf16) (x1 : Vec F S1024x1024 .f32) (x2 : Vec F S1x1024 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__linear_kernel i a0 ha0 a1 ha1 a2 ha2 a3 ha3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's data on core `c`: the arrays as the region finds them; after the body at point `t` each input's buffer
    at its block and each output's at the body's value of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.IdealRun.lean ====
import proofs.«145827_j85126251807436_2_alg».proof.Proof.IdealRegion0
import proofs.«145827_j85126251807436_2_alg».proof.Proof.IdealRegion1
import proofs.«145827_j85126251807436_2_alg».proof.Proof.IdealRegion2
import proofs.«145827_j85126251807436_2_alg».proof.Proof.Gen.KernelIdeal.Regions

/-!
  The whole run of the program at any float instance: four stretches of host operations around three kernel regions.
  The contents of the TensorCore's unscoped buffers are followed from the launch memory through every stretch and
  every region — a host stretch applies its operations; a region changes only its output arrays, each to what its
  pipeline's write-backs leave (`arrAt` at the grid's last point) — and every weakly fair execution terminates, without a
  fault, in a memory that holds every unscoped buffer at the last contents `W7`. The frame (the argument arrays end as
  launched) and the values of the two results are both read off that.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## The buffers' contents between the items of @main -/

/-- After the first host stretch: region 0's entry contents. -/
abbrev W1 (c : Dev nD) : Valuation τ sig (Elt F) := Gen.V1 m c
abbrev E1 : (c : Dev nD) → (b : Ref sig .tc) → Buf (Elt F) ((c : Thread nD τ).loc b) := fun c b => W1 m c b
/-- What region 0's write-backs leave in its output array. -/
def o2 (c : Dev nD) : Buf (Elt F) ((c : Thread nD τ).loc main_v7) := (dat0 (E1 m) c).arrAt 3 cfg0.N
/-- After region 0: its output array at what its pipeline leaves, every other buffer as entered. -/
def W2 (c : Dev nD) : Valuation τ sig (Elt F) := Function.update (W1 m c) main_v7 (o2 m c)
/-- After the second host stretch: region 1's entry contents. -/
def W3 (c : Dev nD) : Valuation τ sig (Elt F) := StableHlo.after hostOps1 (W2 m c)
abbrev E3 : (c : Dev nD) → (b : Ref sig .tc) → Buf (Elt F) ((c : Thread nD τ).loc b) := fun c b => W3 m c b
def o4a (c : Dev nD) : Buf (Elt F) ((c : Thread nD τ).loc main_v20_0) := (dat1 (E3 m) c).arrAt 3 cfg1.N
def o4b (c : Dev nD) : Buf (Elt F) ((c : Thread nD τ).loc main_v20_1) := (dat1 (E3 m) c).arrAt 4 cfg1.N
/-- After region 1: its two output arrays at what its pipeline leaves. -/
def W4 (c : Dev nD) : Valuation τ sig (Elt F) := Function.update (Function.update (W3 m c) main_v20_0 (o4a m c)) main_v20_1 (o4b m c)
/-- After the third host stretch: region 2's entry contents. -/
def W5 (c : Dev nD) : Valuation τ sig (Elt F) := StableHlo.after hostOps2 (W4 m c)
abbrev E5 : (c : Dev nD) → (b : Ref sig .tc) → Buf (Elt F) ((c : Thread nD τ).loc b) := fun c b => W5 m c b
def o6 (c : Dev nD) : Buf (Elt F) ((c : Thread nD τ).loc main_v27) := (dat2 (E5 m) c).arrAt 3 cfg2.N
/-- After region 2. -/
def W6 (c : Dev nD) : Valuation τ sig (Elt F) := Function.update (W5 m c) main_v27 (o6 m c)
/-- After the last host stretch: what the program ends with. -/
def W7 (c : Dev nD) : Valuation τ sig (Elt F) := StableHlo.after hostOps3 (W6 m c)

theorem W2_self (c : Dev nD) : W2 m c main_v7 = o2 m c := by unfold W2; exact Function.update_self _ _ _
theorem W2_of_ne (c : Dev nD) (b : Ref sig .tc) (h : b ≠ main_v7) : W2 m c b = W1 m c b := by
  unfold W2; exact Function.update_of_ne (StableHlo.devRef_ne_of_ne h) _ _
theorem W4_self0 (c : Dev nD) : W4 m c main_v20_0 = o4a m c := by
  unfold W4; rw [Function.update_of_ne (StableHlo.devRef_ne_of_ne (by decide))]; exact Function.update_self _ _ _
theorem W4_self1 (c : Dev nD) : W4 m c main_v20_1 = o4b m c := by unfold W4; exact Function.update_self _ _ _
theorem W4_of_ne (c : Dev nD) (b : Ref sig .tc) (h0 : b ≠ main_v20_0) (h1 : b ≠ main_v20_1) : W4 m c b = W3 m c b := by
  unfold W4; rw [Function.update_of_ne (StableHlo.devRef_ne_of_ne h1), Function.update_of_ne (StableHlo.devRef_ne_of_ne h0)]
theorem W6_self (c : Dev nD) : W6 m c main_v27 = o6 m c := by unfold W6; exact Function.update_self _ _ _
theorem W6_of_ne (c : Dev nD) (b : Ref sig .tc) (h : b ≠ main_v27) : W6 m c b = W5 m c b := by
  unfold W6; exact Function.update_of_ne (StableHlo.devRef_ne_of_ne h) _ _

/-- The regions' exit contents as the unknowns of the generated host-side valuations. -/
def outs : Gen.Outs (F := F) := fun J r c => match J with
  | 2 => W2 m c r
  | 4 => W4 m c r
  | 6 => W6 m c r
  | _ => W1 m c r

theorem V2_eq (c : Dev nD) : Gen.V2 m (outs m) c = W2 m c := by
  show Function.update (Gen.V1 m c) main_v7 (W2 m c main_v7) = W2 m c
  rw [W2_self]; rfl
theorem V3_eq (c : Dev nD) : Gen.V3 m (outs m) c = W3 m c := by
  show StableHlo.after hostOps1 (Gen.V2 m (outs m) c) = W3 m c
  rw [V2_eq]; rfl
theorem V4_eq (c : Dev nD) : Gen.V4 m (outs m) c = W4 m c := by
  show Function.update (Function.update (Gen.V3 m (outs m) c) main_v20_0 (W4 m c main_v20_0)) main_v20_1 (W4 m c main_v20_1) = W4 m c
  rw [V3_eq, W4_self0, W4_self1]; rfl
theorem V5_eq (c : Dev nD) : Gen.V5 m (outs m) c = W5 m c := by
  show StableHlo.after hostOps2 (Gen.V4 m (outs m) c) = W5 m c
  rw [V4_eq]; rfl
theorem V6_eq (c : Dev nD) : Gen.V6 m (outs m) c = W6 m c := by
  show Function.update (Gen.V5 m (outs m) c) main_v27 (W6 m c main_v27) = W6 m c
  rw [V5_eq, W6_self]; rfl
theorem V7_eq (c : Dev nD) : Gen.V7 m (outs m) c = W7 m c := by
  show StableHlo.after hostOps3 (Gen.V6 m (outs m) c) = W7 m c
  rw [V6_eq]; rfl

/-! ## Each region's arrays at its exit -/

theorem hF0 (c : Dev nD) : ∀ w : Fin 4, (dat0 (E1 m) c).arrAt w cfg0.N = W2 m c (Pipeline.arrRef spec0 w)
  | ⟨0, _⟩ => ((dat0 (E1 m) c).arrAt_in 0 rfl _).trans ((A_eq0 (E1 m) c 0).trans (W2_of_ne m c main_v0 (by decide)).symm)
  | ⟨1, _⟩ => ((dat0 (E1 m) c).arrAt_in 1 rfl _).trans ((A_eq0 (E1 m) c 1).trans (W2_of_ne m c main_v4 (by decide)).symm)
  | ⟨2, _⟩ => ((dat0 (E1 m) c).arrAt_in 2 rfl _).trans ((A_eq0 (E1 m) c 2).trans (W2_of_ne m c main_v6 (by decide)).symm)
  | ⟨3, _⟩ => (W2_self m c).symm
  | ⟨_ + 4, h⟩ => absurd h (Nat.not_lt.2 (Nat.le_add_left _ _))
theorem hrest0 (c : Dev nD) : ∀ b, b ∉ Finset.univ.image (Pipeline.arrRef spec0) → W2 m c b = E1 m c b :=
  fun b hb => W2_of_ne m c b fun e => hb (Finset.mem_image.mpr ⟨3, Finset.mem_univ _, e.symm⟩)

theorem hF1 (c : Dev nD) : ∀ w : Fin 5, (dat1 (E3 m) c).arrAt w cfg1.N = W4 m c (Pipeline.arrRef spec1 w)
  | ⟨0, _⟩ => ((dat1 (E3 m) c).arrAt_in 0 rfl _).trans ((A_eq1 (E3 m) c 0).trans (W4_of_ne m c main_v13 (by decide) (by decide)).symm)
  | ⟨1, _⟩ => ((dat1 (E3 m) c).arrAt_in 1 rfl _).trans ((A_eq1 (E3 m) c 1).trans (W4_of_ne m c main_v16 (by decide) (by decide)).symm)
  | ⟨2, _⟩ => ((dat1 (E3 m) c).arrAt_in 2 rfl _).trans ((A_eq1 (E3 m) c 2).trans (W4_of_ne m c main_v19 (by decide) (by decide)).symm)
  | ⟨3, _⟩ => (W4_self0 m c).symm
  | ⟨4, _⟩ => (W4_self1 m c).symm
  | ⟨_ + 5, h⟩ => absurd h (Nat.not_lt.2 (Nat.le_add_left _ _))
theorem hrest1 (c : Dev nD) : ∀ b, b ∉ Finset.univ.image (Pipeline.arrRef spec1) → W4 m c b = E3 m c b :=
  fun b hb => W4_of_ne m c b (fun e => hb (Finset.mem_image.mpr ⟨3, Finset.mem_univ _, e.symm⟩))
    (fun e => hb (Finset.mem_image.mpr ⟨4, Finset.mem_univ _, e.symm⟩))

theorem hF2 (c : Dev nD) : ∀ w : Fin 4, (dat2 (E5 m) c).arrAt w cfg2.N = W6 m c (Pipeline.arrRef spec2 w)
  | ⟨0, _⟩ => ((dat2 (E5 m) c).arrAt_in 0 rfl _).trans ((A_eq2 (E5 m) c 0).trans (W6_of_ne m c main_v24 (by decide)).symm)
  | ⟨1, _⟩ => ((dat2 (E5 m) c).arrAt_in 1 rfl _).trans ((A_eq2 (E5 m) c 1).trans (W6_of_ne m c main_v25 (by decide)).symm)
  | ⟨2, _⟩ => ((dat2 (E5 m) c).arrAt_in 2 rfl _).trans ((A_eq2 (E5 m) c 2).trans (W6_of_ne m c main_v26 (by decide)).symm)
  | ⟨3, _⟩ => (W6_self m c).symm
  | ⟨_ + 4, h⟩ => absurd h (Nat.not_lt.2 (Nat.le_add_left _ _))
theorem hrest2 (c : Dev nD) : ∀ b, b ∉ Finset.univ.image (Pipeline.arrRef spec2) → W6 m c b = E5 m c b :=
  fun b hb => W6_of_ne m c b fun e => hb (Finset.mem_image.mpr ⟨3, Finset.mem_univ _, e.symm⟩)

/-! ## The pipelines' data and the thread state -/

/-- Every pipeline's data, each at its region's entry contents. -/
def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W1`, left with them at `W2`. Its arrays are
    split out of the unscoped buffers on entry and put back at the exit contents; the generator register goes into the
    region's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are
    split out of the unscoped buffers on entry and put back at the exit contents; the generator register goes into the
    region's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays are
    split out of the unscoped buffers on entry and put back at the exit contents; the generator register goes into the
    region's invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters, every weakly fair execution of @main terminates, nothing faulting, in a memory
    holding every unscoped buffer at `W7`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W7 m c b) := by
  refine Pipeline.θ_run_regions_kit_dev (pcfgs (F := F)) Gen.adm (pdats m) () cellOf_inj emb₁ defs₀ 𝒱₀ L lv m ρ main
    (Gen.segs m (outs m) 𝒱₀ L lv (fun _ => R) () (pdats m) (reg0 m) (reg1 m) (reg2 m))
    (fun c Q => by
      rewrite [main_chain c, Seg.run_eq_chain,
        show (Gen.segs m (outs m) 𝒱₀ L lv (fun _ => R) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W7 m c))
    (hch := fun c => ⟨.rfl, .rfl,
      (by show iprop(StableHlo.held (c : Thread nD τ) (Pipeline.ucRefs τ sig) (W2 m c) ∗ R c) ⊢ iprop(StableHlo.held (c : Thread nD τ) (Pipeline.ucRefs τ sig) (Gen.V2 m (outs m) c) ∗ R c)
          rw [V2_eq]),
      (by show iprop(StableHlo.held (c : Thread nD τ) (Pipeline.ucRefs τ sig) (Gen.V3 m (outs m) c) ∗ R c) ⊢ iprop(StableHlo.held (c : Thread nD τ) (Pipeline.ucRefs τ sig) (W3 m c) ∗ R c)
          rw [V3_eq]),
      (by show iprop(StableHlo.held (c : Thread nD τ) (Pipeline.ucRefs τ sig) (W4 m c) ∗ R c) ⊢ iprop(StableHlo.held (c : Thread nD τ) (Pipeline.ucRefs τ sig) (Gen.V4 m (outs m) c) ∗ R c)
          rw [V4_eq]),
      (by show iprop(StableHlo.held (c : Thread nD τ) (Pipeline.ucRefs τ sig) (Gen.V5 m (outs m) c) ∗ R c) ⊢ iprop(StableHlo.held (c : Thread nD τ) (Pipeline.ucRefs τ sig) (W5 m c) ∗ R c)
          rw [V5_eq]),
      (by show iprop(StableHlo.held (c : Thread nD τ) (Pipeline.ucRefs τ sig) (W6 m c) ∗ R c) ⊢ iprop(StableHlo.held (c : Thread nD τ) (Pipeline.ucRefs τ sig) (Gen.V6 m (outs m) c) ∗ R c)
          rw [V6_eq]),
      (by show iprop(StableHlo.held (c : Thread nD τ) (Pipeline.ucRefs τ sig) (Gen.V7 m (outs m) c) ∗ R c) ⊢ iprop(StableHlo.held (c : Thread nD τ) (Pipeline.ucRefs τ sig) (W7 m c) ∗ ∃ W, owes (c : Thread nD τ) (0 : CellTallies nD τ sig Unit) W)
          rw [V7_eq]; exact sep_mono .rfl (by iintro ⟨-, H⟩; iexact H))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun _ h => h)

/-- Every argument array reaches the end as launched. -/
theorem W7_arg (c : Dev nD) :
    W7 m c main_arg0 = m ((c : Thread nD τ).loc main_arg0) ∧
    W7 m c main_arg1 = m ((c : Thread nD τ).loc main_arg1) ∧
    W7 m c main_arg2 = m ((c : Thread nD τ).loc main_arg2) ∧
    W7 m c main_arg3 = m ((c : Thread nD τ).loc main_arg3) ∧
    W7 m c main_arg4 = m ((c : Thread nD τ).loc main_arg4) ∧
    W7 m c main_arg5 = m ((c : Thread nD τ).loc main_arg5) ∧
    W7 m c main_arg6 = m ((c : Thread nD τ).loc main_arg6) ∧
    W7 m c main_arg7 = m ((c : Thread nD τ).loc main_arg7) ∧
    W7 m c main_arg8 = m ((c : Thread nD τ).loc main_arg8) := by
  rw [← V7_eq]
  exact ⟨Gen.V7_main_arg0 m (outs m) c, Gen.V7_main_arg1 m (outs m) c, Gen.V7_main_arg2 m (outs m) c, Gen.V7_main_arg3 m (outs m) c, Gen.V7_main_arg4 m (outs m) c, Gen.V7_main_arg5 m (outs m) c, Gen.V7_main_arg6 m (outs m) c, Gen.V7_main_arg7 m (outs m) c, Gen.V7_main_arg8 m (outs m) c⟩

/-- The frame: the program runs to the end, faults nowhere, and its argument arrays end unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => by
    obtain ⟨h0, h1, h2, h3, h4, h5, h6, h7, h8⟩ := W7_arg m c
    exact ⟨(h c _ (mem_uc main_arg0 (by decide))).trans h0, (h c _ (mem_uc main_arg1 (by decide))).trans h1, (h c _ (mem_uc main_arg2 (by decide))).trans h2, (h c _ (mem_uc main_arg3 (by decide))).trans h3, (h c _ (mem_uc main_arg4 (by decide))).trans h4, (h c _ (mem_uc main_arg5 (by decide))).trans h5, (h c _ (mem_uc main_arg6 (by decide))).trans h6, (h c _ (mem_uc main_arg7 (by decide))).trans h7, (h c _ (mem_uc main_arg8 (by decide))).trans h8⟩) (run_main m ρ)

end Cert.KernelIdeal.Run

end
-- ==== Proof.LinPay.lean ====
import proofs.«145827_j85126251807436_2_alg».proof.Proof.Gen.KernelIdeal.Skeleton
import Idealize.ShloMosaic.Lib.Pipeline.Value
import Idealize.ShloMosaic.Lib.ValueIdx
import Idealize.ShloMosaic.PureOps.Ideal.Laws

/-! The two linear-layer payloads read at an index, at the ideal instance: each stored element is the whole-axis
    contraction of a row of the left block with a column of the weight block, plus the bias row's entry. No sum is
    re-associated and no rounding remains (the format changes are the identity on extended reals). -/

noncomputable section

namespace Cert.Val.Lin

open Cert.KernelIdeal Cert.KernelIdeal.Gen Idealize.ShloMosaic Idealize.ShloMosaic.ValueIdx

theorem mm_512x1024_1024x3072_l0 (i : S512x3072.Idx) (c : dot_S512x1024_S1024x3072_S512x3072_1_0_0_1_n_n.contr.Idx) :
    (dot_S512x1024_S1024x3072_S512x3072_1_0_0_1_n_n.lhsIdx i c 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem mm_512x1024_1024x3072_l1 (i : S512x3072.Idx) (c : dot_S512x1024_S1024x3072_S512x3072_1_0_0_1_n_n.contr.Idx) :
    (dot_S512x1024_S1024x3072_S512x3072_1_0_0_1_n_n.lhsIdx i c 1).val = (c ⟨0, by decide⟩).val :=
  dot_S512x1024_S1024x3072_S512x3072_1_0_0_1_n_n.lhsIdx_val_of_single rfl i c
theorem mm_512x1024_1024x3072_r0 (i : S512x3072.Idx) (c : dot_S512x1024_S1024x3072_S512x3072_1_0_0_1_n_n.contr.Idx) :
    (dot_S512x1024_S1024x3072_S512x3072_1_0_0_1_n_n.rhsIdx i c 0).val = (c ⟨0, by decide⟩).val :=
  dot_S512x1024_S1024x3072_S512x3072_1_0_0_1_n_n.rhsIdx_val_of_single rfl i c
theorem mm_512x1024_1024x3072_r1 (i : S512x3072.Idx) (c : dot_S512x1024_S1024x3072_S512x3072_1_0_0_1_n_n.contr.Idx) :
    (dot_S512x1024_S1024x3072_S512x3072_1_0_0_1_n_n.rhsIdx i c 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The [512,1024] × [1024,3072] product into the zero accumulator, at (p, q): the sum over the 1024 contracted
    coordinates of row p of the left factor times column q of the right factor. -/
theorem mm_512x1024_1024x3072_apply {φ₁ φ₂ : FTy} (a : FVec Ideal S512x1024 φ₁) (b : FVec Ideal S1024x3072 φ₂)
    (p : Fin 512) (q : Fin 3072) :
    FloatOps.matmul dot_S512x1024_S1024x3072_S512x3072_1_0_0_1_n_n none a b (constant (F := Ideal) S512x3072 .f32 0x00000000#32) (ix2 p q)
      = ∑ k : Fin 1024, a (ix2 p k) * b (ix2 k q) := by
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k :=
    funext fun d => Fin.ext (by
      match d with
      | ⟨0, _⟩ => exact mm_512x1024_1024x3072_l0 _ _
      | ⟨1, _⟩ => exact (mm_512x1024_1024x3072_l1 _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q :=
    funext fun d => Fin.ext (by
      match d with
      | ⟨0, _⟩ => exact (mm_512x1024_1024x3072_r0 _ _).trans hk
      | ⟨1, _⟩ => exact mm_512x1024_1024x3072_r1 _ _)
  rw [el, er]

theorem mm_512x1024_1024x1024_l0 (i : S512x1024.Idx) (c : dot_S512x1024_S1024x1024_S512x1024_1_0_0_1_n_n.contr.Idx) :
    (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_512x1024_1024x1024_l1 (i : S512x1024.Idx) (c : dot_S512x1024_S1024x1024_S512x1024_1_0_0_1_n_n.contr.Idx) :
    (dot_S512x1024_S1024x1024_S512x1024_1_0_0_1_n_n.lhsIdx i c 1).val = (c ⟨0, by decide⟩).val :=
  dot_S512x1024_S1024x1024_S512x1024_1_0_0_1_n_n.lhsIdx_val_of_single rfl i c
theorem mm_512x1024_1024x1024_r0 (i : S512x1024.Idx) (c : dot_S512x1024_S1024x1024_S512x1024_1_0_0_1_n_n.contr.Idx) :
    (dot_S512x1024_S1024x1024_S512x1024_1_0_0_1_n_n.rhsIdx i c 0).val = (c ⟨0, by decide⟩).val :=
  dot_S512x1024_S1024x1024_S512x1024_1_0_0_1_n_n.rhsIdx_val_of_single rfl i c
theorem mm_512x1024_1024x1024_r1 (i : S512x1024.Idx) (c : dot_S512x1024_S1024x1024_S512x1024_1_0_0_1_n_n.contr.Idx) :
    (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The [512,1024] × [1024,1024] product into the zero accumulator, at (p, q): the sum over the 1024 contracted
    coordinates of row p of the left factor times column q of the right factor. -/
theorem mm_512x1024_1024x1024_apply {φ₁ φ₂ : FTy} (a : FVec Ideal S512x1024 φ₁) (b : FVec Ideal S1024x1024 φ₂)
    (p : Fin 512) (q : Fin 1024) :
    FloatOps.matmul dot_S512x1024_S1024x1024_S512x1024_1_0_0_1_n_n none a b (constant (F := Ideal) S512x1024 .f32 0x00000000#32) (ix2 p q)
      = ∑ k : Fin 1024, a (ix2 p k) * b (ix2 k q) := by
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k :=
    funext fun d => Fin.ext (by
      match d with
      | ⟨0, _⟩ => exact mm_512x1024_1024x1024_l0 _ _
      | ⟨1, _⟩ => exact (mm_512x1024_1024x1024_l1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q :=
    funext fun d => Fin.ext (by
      match d with
      | ⟨0, _⟩ => exact (mm_512x1024_1024x1024_r0 _ _).trans hk
      | ⟨1, _⟩ => exact mm_512x1024_1024x1024_r1 _ _)
  rw [el, er]

/-- The bias row [1,3072] broadcast down 512 rows, at (p, q): the row's entry q. -/
theorem bias_1x3072_apply (v : FVec Ideal S1x3072 .f32) (p : Fin 512) (q : Fin 3072) :
    broadcastTo S512x3072 v broadcasts_S1x3072_S512x3072 (ix2 p q) = v (ix2 (0 : Fin 1) q) :=
  broadcastTo_apply v broadcasts_S1x3072_S512x3072 (ix2 p q) (ix2 (0 : Fin 1) q) (fun a => match a with
    | ⟨0, _⟩ => rfl
    | ⟨1, _⟩ => rfl)

/-- The bias row [1,1024] broadcast down 512 rows, at (p, q): the row's entry q. -/
theorem bias_1x1024_apply (v : FVec Ideal S1x1024 .f32) (p : Fin 512) (q : Fin 1024) :
    broadcastTo S512x1024 v broadcasts_S1x1024_S512x1024 (ix2 p q) = v (ix2 (0 : Fin 1) q) :=
  broadcastTo_apply v broadcasts_S1x1024_S512x1024 (ix2 p q) (ix2 (0 : Fin 1) q) (fun a => match a with
    | ⟨0, _⟩ => rfl
    | ⟨1, _⟩ => rfl)

/-- The fused projection kernel's stored block at (p, q): row p of the input block contracted over all 1024 features
    with column q of the concatenated transposed weights, plus the concatenated bias at q. -/
theorem k0_pay1_apply (v0 : Vec Ideal S512x1024 .f32) (v3 : Vec Ideal S1024x3072 .f32) (v7 : Vec Ideal S1x3072 .f32)
    (p : Fin 512) (q : Fin 3072) :
    k0_pay1 (F := Ideal) v0 v3 v7 (ix2 p q)
      = (∑ k : Fin 1024, v0 (ix2 p k) * v3 (ix2 k q)) + v7 (ix2 (0 : Fin 1) q) := by
  unfold k0_pay1
  simp only [shapeCast_self]
  rw [truncf_apply, addf_apply]
  simp only [matmul]
  rw [mm_512x1024_1024x3072_apply, bias_1x3072_apply]
  rfl

/-- The output projection kernel's stored block at (p, q): row p of the attention-output block contracted over all
    1024 features with column q of the transposed output weights, plus the output bias at q. -/
theorem k2_pay1_apply (v0 : Vec Ideal S512x1024 .bf16) (v2 : Vec Ideal S1024x1024 .f32) (v6 : Vec Ideal S1x1024 .f32)
    (p : Fin 512) (q : Fin 1024) :
    k2_pay1 (F := Ideal) v0 v2 v6 (ix2 p q)
      = (∑ k : Fin 1024, v0 (ix2 p k) * v2 (ix2 k q)) + v6 (ix2 (0 : Fin 1) q) := by
  unfold k2_pay1
  simp only [shapeCast_self]
  rw [addf_apply]
  simp only [matmul]
  rw [mm_512x1024_1024x1024_apply, bias_1x1024_apply]
  rfl

end Cert.Val.Lin

end
-- ==== Proof.IdealFinal0.lean ====
import proofs.«145827_j85126251807436_2_alg».proof.Proof.IdealRegion0
import proofs.«145827_j85126251807436_2_alg».proof.Proof.LinPay
import Idealize.ShloMosaic.Lib.Pipeline.Value
import Idealize.ShloMosaic.Lib.ValueIdx

/-!
  Region 0 read as values at the extended reals. The query/key/value projection's output array [4096, 3072] ends, at
  row `r` and column `j`, at the sum over `k` of `X[r, k] * Wc[k, j]` plus the bias `bc[0, j]`, where `X`, `Wc`, `bc` are the
  three input arrays as the region finds them: the grid's point `t` writes back rows `512 t … 512 t + 511` whole, each
  block row contracting its whole axis at once, and the eight row blocks cover the array.
-/

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- A linear layer on the extended reals, entry by entry: row `r` of `X` against column `j` of `Wc`, plus the bias row. -/
def linC {M K N : Nat} (X : (⟨2, ![M, K]⟩ : Shape).Idx → EReal) (Wc : (⟨2, ![K, N]⟩ : Shape).Idx → EReal)
    (bc : (⟨2, ![1, N]⟩ : Shape).Idx → EReal) (r : Fin M) (j : Fin N) : EReal :=
  (∑ k : Fin K, X (ix2 r k) * Wc (ix2 k j)) + bc (ix2 (0 : Fin 1) j)

/-- The same as a whole array. -/
def lin {M K N : Nat} (X : (⟨2, ![M, K]⟩ : Shape).Idx → EReal) (Wc : (⟨2, ![K, N]⟩ : Shape).Idx → EReal)
    (bc : (⟨2, ![1, N]⟩ : Shape).Idx → EReal) : (⟨2, ![M, N]⟩ : Shape).Idx → EReal :=
  fun i => linC X Wc bc ⟨(i 0).val, idx2_lt0 i⟩ ⟨(i 1).val, idx2_lt1 i⟩

theorem lin_ix2 {M K N : Nat} (X : (⟨2, ![M, K]⟩ : Shape).Idx → EReal) (Wc : (⟨2, ![K, N]⟩ : Shape).Idx → EReal)
    (bc : (⟨2, ![1, N]⟩ : Shape).Idx → EReal) (r : Fin M) (j : Fin N) : lin X Wc bc (ix2 r j) = linC X Wc bc r j := rfl

theorem lt8_0 (t : Fin cfg0.N) : t.val < 8 := lt_of_lt_of_eq t.isLt N_0

/-- The row of the array that row `p` of point `t`'s block is. -/
def row0 (t : Fin cfg0.N) (p : Fin 512) : Fin 4096 := ⟨t.val * 512 + p.val, by have := lt8_0 t; omega⟩

/-- The block index maps over the grid: the row-blocked windows move with the point, the others stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem blk0_0 (c : Dev nD) (t : Fin cfg0.N) (p : Fin 512) (k : Fin 1024) :
    iblk0 V c 0 t (ix2 p k) = V c main_v0 (ix2 (row0 t p) k) := by
  show V c main_v0 (((cfg0.win 0).blk t).view.emb (ix2 p k)) = _
  refine congrArg (V c main_v0) ?_
  obtain ⟨e0, e1, -⟩ := idx0 t
  funext a; apply Fin.ext
  match a with
  | ⟨0, _⟩ => show win0_0.index t (0 : Fin 2) * 512 + 1 * p.val = t.val * 512 + p.val; omega
  | ⟨1, _⟩ => show win0_0.index t (1 : Fin 2) * 1024 + 1 * k.val = k.val; omega

theorem blk0_1 (c : Dev nD) (t : Fin cfg0.N) (k : Fin 1024) (q : Fin 3072) :
    iblk0 V c 1 t (ix2 k q) = V c main_v4 (ix2 k q) := by
  show V c main_v4 (((cfg0.win 1).blk t).view.emb (ix2 k q)) = _
  refine congrArg (V c main_v4) ?_
  obtain ⟨-, -, e2, e3, -⟩ := idx0 t
  funext a; apply Fin.ext
  match a with
  | ⟨0, _⟩ => show win0_1.index t (0 : Fin 2) * 1024 + 1 * k.val = k.val; omega
  | ⟨1, _⟩ => show win0_1.index t (1 : Fin 2) * 3072 + 1 * q.val = q.val; omega

theorem blk0_2 (c : Dev nD) (t : Fin cfg0.N) (q : Fin 3072) :
    iblk0 V c 2 t (ix2 (0 : Fin 1) q) = V c main_v6 (ix2 (0 : Fin 1) q) := by
  show V c main_v6 (((cfg0.win 2).blk t).view.emb (ix2 (0 : Fin 1) q)) = _
  refine congrArg (V c main_v6) ?_
  obtain ⟨-, -, -, -, e4, e5, -⟩ := idx0 t
  funext a; apply Fin.ext
  match a with
  | ⟨0, _⟩ => show win0_2.index t (0 : Fin 2) * 1 + 1 * 0 = 0; omega
  | ⟨1, _⟩ => show win0_2.index t (1 : Fin 2) * 3072 + 1 * q.val = q.val; omega

theorem emb0_3 (t : Fin cfg0.N) (p : Fin 512) (q : Fin 3072) :
    ((cfg0.win 3).blk t).view.emb (ix2 p q) = ix2 (row0 t p) q := by
  obtain ⟨-, -, -, -, -, -, e6, e7⟩ := idx0 t
  funext a; apply Fin.ext
  match a with
  | ⟨0, _⟩ => show win0_3.index t (0 : Fin 2) * 512 + 1 * p.val = t.val * 512 + p.val; omega
  | ⟨1, _⟩ => show win0_3.index t (1 : Fin 2) * 3072 + 1 * q.val = q.val; omega

/-- What point `t` writes back is block `t` of the linear layer of the region's input arrays. -/
theorem flushed0_eq (c : Dev nD) (t : Fin cfg0.N) :
    (dat0 V c).flushed 3 t = ((cfg0.win 3).blk t).view.read (Elt Ideal) (lin (V c main_v0) (V c main_v4) (V c main_v6)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x3072) hz2, View.ld_unit_zero (S := S1x3072) hz2]
  funext j
  obtain ⟨p, q, rfl⟩ : ∃ (p : Fin 512) (q : Fin 3072), j = ix2 p q := ⟨j 0, j 1, eq_ix2 j⟩
  show k0_pay1 (F := Ideal) (iblk0 V c 0 t) (iblk0 V c 1 t) (iblk0 V c 2 t) (ix2 p q)
    = lin (V c main_v0) (V c main_v4) (V c main_v6) (((cfg0.win 3).blk t).view.emb (ix2 p q))
  rw [emb0_3 t p q, lin_ix2]
  refine (Cert.Val.Lin.k0_pay1_apply (iblk0 V c 0 t) (iblk0 V c 1 t) (iblk0 V c 2 t) p q).trans ?_
  unfold linC
  refine congrArg₂ (· + ·) (Finset.sum_congr rfl fun k _ => congrArg₂ (· * ·) (blk0_0 V c t p k) (blk0_1 V c t k q)) (blk0_2 V c t q)

theorem mem_blk0 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v7).slice (win0_3.rect t)).set ↔ _
  rw [View.set_slice_whole, Rect.mem_set_unit]
  exact Iff.rfl

/-- Every entry of the array is in the block of the point its row block names. -/
theorem cover0 (i : S4096x3072.Idx) : ∃ t : Fin cfg0.N, (cfg0.win 3).flush t = true ∧ i ∈ ((cfg0.win 3).blk t).view.set := by
  have hi0 : (i 0).val < 4096 := idx2_lt0 i
  have hi1 : (i 1).val < 3072 := idx2_lt1 i
  have ht : (i 0).val / 512 < cfg0.N := by show _ < grid0.N; rw [N_0]; omega
  refine ⟨⟨(i 0).val / 512, ht⟩, flush0_3 _, ?_⟩
  rw [mem_blk0]
  obtain ⟨-, -, -, -, -, -, e6, e7⟩ := idx0 ⟨(i 0).val / 512, ht⟩
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, ht⟩ (1 : Fin 2) * 3072 ≤ (i 1).val ∧ (i 1).val < win0_3.index ⟨(i 0).val / 512, ht⟩ (1 : Fin 2) * 3072 + 3072
    rw [e7]; omega

/-- The output array after the region: the linear layer of the input arrays. -/
theorem final0 (c : Dev nD) : (dat0 V c).arrAt 3 cfg0.N = lin (V c main_v0) (V c main_v4) (V c main_v6) :=
  (dat0 V c).arrAt_eq_of_cover 3 _ (fun t _ => flushed0_eq V c t) (cover0)

end Cert.KernelIdeal.Run

end
-- ==== Proof.IdealFinal2.lean ====
import proofs.«145827_j85126251807436_2_alg».proof.Proof.IdealRegion2
import proofs.«145827_j85126251807436_2_alg».proof.Proof.IdealFinal0
import proofs.«145827_j85126251807436_2_alg».proof.Proof.LinPay
import Idealize.ShloMosaic.Lib.Pipeline.Value
import Idealize.ShloMosaic.Lib.ValueIdx

/-!
  Region 2 read as values at the extended reals. The output projection's array [4096, 1024] ends, at row `r` and column
  `j`, at the sum over `k` of `X[r, k] * Wc[k, j]` plus the bias `bc[0, j]` of the three input arrays as the region finds them:
  point `t` writes back rows `512 t … 512 t + 511` whole, and the eight row blocks cover the array.
-/

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

theorem lt8_2 (t : Fin cfg2.N) : t.val < 8 := lt_of_lt_of_eq t.isLt N_2

/-- The row of the array that row `p` of point `t`'s block is. -/
def row2 (t : Fin cfg2.N) (p : Fin 512) : Fin 4096 := ⟨t.val * 512 + p.val, by have := lt8_2 t; omega⟩

/-- The block index maps over the grid: the row-blocked windows move with the point, the others stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem blk2_0 (c : Dev nD) (t : Fin cfg2.N) (p : Fin 512) (k : Fin 1024) :
    iblk2 V c 0 t (ix2 p k) = V c main_v24 (ix2 (row2 t p) k) := by
  show V c main_v24 (((cfg2.win 0).blk t).view.emb (ix2 p k)) = _
  refine congrArg (V c main_v24) ?_
  obtain ⟨e0, e1, -⟩ := idx2 t
  funext a; apply Fin.ext
  match a with
  | ⟨0, _⟩ => show win2_0.index t (0 : Fin 2) * 512 + 1 * p.val = t.val * 512 + p.val; omega
  | ⟨1, _⟩ => show win2_0.index t (1 : Fin 2) * 1024 + 1 * k.val = k.val; omega

theorem blk2_1 (c : Dev nD) (t : Fin cfg2.N) (k : Fin 1024) (q : Fin 1024) :
    iblk2 V c 1 t (ix2 k q) = V c main_v25 (ix2 k q) := by
  show V c main_v25 (((cfg2.win 1).blk t).view.emb (ix2 k q)) = _
  refine congrArg (V c main_v25) ?_
  obtain ⟨-, -, e2, e3, -⟩ := idx2 t
  funext a; apply Fin.ext
  match a with
  | ⟨0, _⟩ => show win2_1.index t (0 : Fin 2) * 1024 + 1 * k.val = k.val; omega
  | ⟨1, _⟩ => show win2_1.index t (1 : Fin 2) * 1024 + 1 * q.val = q.val; omega

theorem blk2_2 (c : Dev nD) (t : Fin cfg2.N) (q : Fin 1024) :
    iblk2 V c 2 t (ix2 (0 : Fin 1) q) = V c main_v26 (ix2 (0 : Fin 1) q) := by
  show V c main_v26 (((cfg2.win 2).blk t).view.emb (ix2 (0 : Fin 1) q)) = _
  refine congrArg (V c main_v26) ?_
  obtain ⟨-, -, -, -, e4, e5, -⟩ := idx2 t
  funext a; apply Fin.ext
  match a with
  | ⟨0, _⟩ => show win2_2.index t (0 : Fin 2) * 1 + 1 * 0 = 0; omega
  | ⟨1, _⟩ => show win2_2.index t (1 : Fin 2) * 1024 + 1 * q.val = q.val; omega

theorem emb2_3 (t : Fin cfg2.N) (p : Fin 512) (q : Fin 1024) :
    ((cfg2.win 3).blk t).view.emb (ix2 p q) = ix2 (row2 t p) q := by
  obtain ⟨-, -, -, -, -, -, e6, e7⟩ := idx2 t
  funext a; apply Fin.ext
  match a with
  | ⟨0, _⟩ => show win2_3.index t (0 : Fin 2) * 512 + 1 * p.val = t.val * 512 + p.val; omega
  | ⟨1, _⟩ => show win2_3.index t (1 : Fin 2) * 1024 + 1 * q.val = q.val; omega

/-- What point `t` writes back is block `t` of the linear layer of the region's input arrays. -/
theorem flushed2_eq (c : Dev nD) (t : Fin cfg2.N) :
    (dat2 V c).flushed 3 t = ((cfg2.win 3).blk t).view.read (Elt Ideal) (lin (V c main_v24) (V c main_v25) (V c main_v26)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (iblk2 V c 2 t) (ix2 p q)
    = lin (V c main_v24) (V c main_v25) (V c main_v26) (((cfg2.win 3).blk t).view.emb (ix2 p q))
  rw [emb2_3 t p q, lin_ix2]
  refine (Cert.Val.Lin.k2_pay1_apply (iblk2 V c 0 t) (iblk2 V c 1 t) (iblk2 V c 2 t) p q).trans ?_
  unfold linC
  refine congrArg₂ (· + ·) (Finset.sum_congr rfl fun k _ => congrArg₂ (· * ·) (blk2_0 V c t p k) (blk2_1 V c t k q)) (blk2_2 V c t q)

theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v27).slice (win2_3.rect t)).set ↔ _
  rw [View.set_slice_whole, Rect.mem_set_unit]
  exact Iff.rfl

/-- Every entry of the array is in the block of the point its row block names. -/
theorem cover2 (i : S4096x1024.Idx) : ∃ t : Fin cfg2.N, (cfg2.win 3).flush t = true ∧ i ∈ ((cfg2.win 3).blk t).view.set := by
  have hi0 : (i 0).val < 4096 := idx2_lt0 i
  have hi1 : (i 1).val < 1024 := idx2_lt1 i
  have ht : (i 0).val / 512 < cfg2.N := by show _ < grid2.N; rw [N_2]; omega
  refine ⟨⟨(i 0).val / 512, ht⟩, flush2_3 _, ?_⟩
  rw [mem_blk2]
  obtain ⟨-, -, -, -, -, -, e6, e7⟩ := idx2 ⟨(i 0).val / 512, ht⟩
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win2_3.index ⟨(i 0).val / 512, ht⟩ (1 : Fin 2) * 1024 ≤ (i 1).val ∧ (i 1).val < win2_3.index ⟨(i 0).val / 512, ht⟩ (1 : Fin 2) * 1024 + 1024
    rw [e7]; omega

/-- The output array after the region: the linear layer of the input arrays. -/
theorem final2 (c : Dev nD) : (dat2 V c).arrAt 3 cfg2.N = lin (V c main_v24) (V c main_v25) (V c main_v26) :=
  (dat2 V c).arrAt_eq_of_cover 3 _ (fun t _ => flushed2_eq V c t) (cover2)

end Cert.KernelIdeal.Run

end
-- ==== Proof.LinIdx.lean ====
import Idealize.ShloMosaic.Lib.ValueIdx

/-! Merged axes written by their fine coordinates: the coarse coordinate of an axis that a reshape merges is the
    row-major combination of the fine ones. Shared by the modules that read the re-layouts at an index. -/

namespace Cert.Val.Lin

/-- Row n·2048 + s of a 4096-row array (batch n, position s). -/
abbrev rowNS (n : Fin 2) (s : Fin 2048) : Fin 4096 := ⟨n.val * 2048 + s.val, by omega⟩
/-- Column h·64 + d of a 1024-column array (head h, head feature d). -/
abbrev colHD (h : Fin 16) (d : Fin 64) : Fin 1024 := ⟨h.val * 64 + d.val, by omega⟩
/-- Batch-head n·16 + h of 32. -/
abbrev bhNH (n : Fin 2) (h : Fin 16) : Fin 32 := ⟨n.val * 16 + h.val, by omega⟩
/-- Column c·1024 + e of the 3072 fused columns (c = 0, 1, 2: query, key, value). -/
abbrev colCE (c : Fin 3) (e : Fin 1024) : Fin 3072 := ⟨c.val * 1024 + e.val, by omega⟩

end Cert.Val.Lin
-- ==== Proof.LinHost.lean ====
import proofs.«145827_j85126251807436_2_alg».proof.Proof.Gen.KernelIdeal.Launch
import Idealize.ShloMosaic.Lib.StableHlo.Run
import Idealize.ShloMosaic.Lib.Pipeline.Value
import Idealize.ShloMosaic.Lib.ValueIdx
import proofs.«145827_j85126251807436_2_alg».proof.Proof.LinIdx

/-! The kernel program's host stretches between the three regions are pure re-layouts (reshape, transpose, slice,
    concatenate): each array they write is read here at an index as ONE element of an array that was there before the
    stretch. Indices are given by their fine coordinates (batch n, head h, position s, head feature d, …); the coarse
    coordinate of a merged axis is written out as the row-major combination, e.g. row n·2048 + s of a [4096, ·] array. -/

noncomputable section

namespace Cert.Val.Lin

open Cert.KernelIdeal Cert.KernelIdeal.Gen Idealize.ShloMosaic Idealize.ShloMosaic.TcCoe Idealize.ShloMosaic.ValueIdx
open Idealize.ShloMosaic.StableHlo

/-! ## The pure re-layouts at an index (any element type) -/

section Pure
variable {α : Type}

/-- [4096,1024] → [2,2048,16,64] → heads in front [2,16,2048,64] → [32,2048,64]: entry (n·16+h, s, d) is entry
    (n·2048+s, h·64+d) of the flat array. -/
theorem toHeads_apply (x : S4096x1024.Idx → α) (n : Fin 2) (h : Fin 16) (s : Fin 2048) (d : Fin 64) :
    shapeCast S32x2048x64
        (transpose S2x16x2048x64 [0, 2, 1, 3] (shapeCast S2x2048x16x64 x shapeCasts_S4096x1024_S2x2048x16x64)
          transposes_S2x2048x16x64_S2x16x2048x64_0_2_1_3)
        shapeCasts_S2x16x2048x64_S32x2048x64 (ix3 (bhNH n h) s d)
      = x (ix2 (rowNS n s) (colHD h d)) := by
  refine (shapeCast_apply _ shapeCasts_S2x16x2048x64_S32x2048x64 (ix3 (bhNH n h) s d) (ix4 n h s d)
    (by rw [Shape.rowMajor_val_four, Shape.rowMajor_val_three]; rfl)).trans ?_
  refine (transpose_apply _ _ transposes_S2x2048x16x64_S2x16x2048x64_0_2_1_3 (ix4 n h s d) (ix4 n s h d)
    (fun b => match b with | ⟨0, _⟩ => rfl | ⟨1, _⟩ => rfl | ⟨2, _⟩ => rfl | ⟨3, _⟩ => rfl)).trans ?_
  exact shapeCast_apply x shapeCasts_S4096x1024_S2x2048x16x64 (ix4 n s h d) (ix2 (rowNS n s) (colHD h d))
    (by rw [Shape.rowMajor_val_two, Shape.rowMajor_val_four]
        show (n.val * 2048 + s.val) * 1024 + (h.val * 64 + d.val) = ((n.val * 2048 + s.val) * 16 + h.val) * 64 + d.val
        omega)

/-- The inverse re-layout [32,2048,64] → [2,16,2048,64] → positions in front [2,2048,16,64] → [4096,1024]: entry
    (n·2048+s, h·64+d) is entry (n·16+h, s, d). -/
theorem fromHeads_apply (x : S32x2048x64.Idx → α) (n : Fin 2) (h : Fin 16) (s : Fin 2048) (d : Fin 64) :
    shapeCast S4096x1024
        (transpose S2x2048x16x64 [0, 2, 1, 3] (shapeCast S2x16x2048x64 x shapeCasts_S32x2048x64_S2x16x2048x64)
          transposes_S2x16x2048x64_S2x2048x16x64_0_2_1_3)
        shapeCasts_S2x2048x16x64_S4096x1024 (ix2 (rowNS n s) (colHD h d))
      = x (ix3 (bhNH n h) s d) := by
  refine (shapeCast_apply _ shapeCasts_S2x2048x16x64_S4096x1024 (ix2 (rowNS n s) (colHD h d)) (ix4 n s h d)
    (by rw [Shape.rowMajor_val_two, Shape.rowMajor_val_four]
        show ((n.val * 2048 + s.val) * 16 + h.val) * 64 + d.val = (n.val * 2048 + s.val) * 1024 + (h.val * 64 + d.val)
        omega)).trans ?_
  refine (transpose_apply _ _ transposes_S2x16x2048x64_S2x2048x16x64_0_2_1_3 (ix4 n s h d) (ix4 n h s d)
    (fun b => match b with | ⟨0, _⟩ => rfl | ⟨1, _⟩ => rfl | ⟨2, _⟩ => rfl | ⟨3, _⟩ => rfl)).trans ?_
  exact shapeCast_apply x shapeCasts_S32x2048x64_S2x16x2048x64 (ix4 n h s d) (ix3 (bhNH n h) s d)
    (by rw [Shape.rowMajor_val_three, Shape.rowMajor_val_four]; rfl)

/-- Columns [0, 1024) of the fused [4096,3072] array. -/
theorem slice0_apply (y : S4096x3072.Idx → α) (r : Fin 4096) (e : Fin 1024) :
    extractStridedSlice S4096x1024 ![0, 0] y slices_S4096x3072_S4096x1024_0_0 (ix2 r e) = y (ix2 r (colCE 0 e)) :=
  extractStridedSlice_apply _ y slices_S4096x3072_S4096x1024_0_0 (ix2 r e) (ix2 r (colCE 0 e))
    (fun a => match a with
      | ⟨0, _⟩ => by show r.val = 0 + r.val; omega
      | ⟨1, _⟩ => by show 0 * 1024 + e.val = 0 + e.val; omega)
/-- Columns [1024, 2048) of the fused [4096,3072] array. -/
theorem slice1_apply (y : S4096x3072.Idx → α) (r : Fin 4096) (e : Fin 1024) :
    extractStridedSlice S4096x1024 ![0, 1024] y slices_S4096x3072_S4096x1024_0_1024 (ix2 r e) = y (ix2 r (colCE 1 e)) :=
  extractStridedSlice_apply _ y slices_S4096x3072_S4096x1024_0_1024 (ix2 r e) (ix2 r (colCE 1 e))
    (fun a => match a with
      | ⟨0, _⟩ => by show r.val = 0 + r.val; omega
      | ⟨1, _⟩ => by show 1 * 1024 + e.val = 1024 + e.val; omega)
/-- Columns [2048, 3072) of the fused [4096,3072] array. -/
theorem slice2_apply (y : S4096x3072.Idx → α) (r : Fin 4096) (e : Fin 1024) :
    extractStridedSlice S4096x1024 ![0, 2048] y slices_S4096x3072_S4096x1024_0_2048 (ix2 r e) = y (ix2 r (colCE 2 e)) :=
  extractStridedSlice_apply _ y slices_S4096x3072_S4096x1024_0_2048 (ix2 r e) (ix2 r (colCE 2 e))
    (fun a => match a with
      | ⟨0, _⟩ => by show r.val = 0 + r.val; omega
      | ⟨1, _⟩ => by show 2 * 1024 + e.val = 2048 + e.val; omega)

/-- Three [1024,1024] pieces side by side along the columns: column c·1024 + e of the result is column e of piece c. -/
theorem concatCols_apply0 (x0 x1 x2 : S1024x1024.Idx → α) (k e : Fin 1024) :
    concatenate S1024x3072 1 [⟨S1024x1024, x0⟩, ⟨S1024x1024, x1⟩, ⟨S1024x1024, x2⟩]
        concatenates_S1024x1024_S1024x1024_S1024x1024_S1024x3072_d1 (ix2 k (colCE 0 e)) = x0 (ix2 k e) :=
  concatenate_apply_piece (t := S1024x3072) 1 [⟨S1024x1024, x0⟩, ⟨S1024x1024, x1⟩, ⟨S1024x1024, x2⟩] concatenates_S1024x1024_S1024x1024_S1024x1024_S1024x3072_d1 (ix2 k (colCE 0 e))
    0 (by show (0 : Nat) < 3; omega) S1024x1024 x0 rfl rfl 0 rfl (ix2 k e)
    (fun b hb => match b, hb with
      | ⟨0, _⟩, _ => rfl
      | ⟨1, _⟩, hb => absurd (Fin.ext rfl) hb)
    (by show 0 + e.val = 0 * 1024 + e.val; omega)
theorem concatCols_apply1 (x0 x1 x2 : S1024x1024.Idx → α) (k e : Fin 1024) :
    concatenate S1024x3072 1 [⟨S1024x1024, x0⟩, ⟨S1024x1024, x1⟩, ⟨S1024x1024, x2⟩]
        concatenates_S1024x1024_S1024x1024_S1024x1024_S1024x3072_d1 (ix2 k (colCE 1 e)) = x1 (ix2 k e) :=
  concatenate_apply_piece (t := S1024x3072) 1 [⟨S1024x1024, x0⟩, ⟨S1024x1024, x1⟩, ⟨S1024x1024, x2⟩] concatenates_S1024x1024_S1024x1024_S1024x1024_S1024x3072_d1 (ix2 k (colCE 1 e))
    1 (by show (1 : Nat) < 3; omega) S1024x1024 x1 rfl rfl 1024 rfl (ix2 k e)
    (fun b hb => match b, hb with
      | ⟨0, _⟩, _ => rfl
      | ⟨1, _⟩, hb => absurd (Fin.ext rfl) hb)
    (by show 1024 + e.val = 1 * 1024 + e.val; omega)
theorem concatCols_apply2 (x0 x1 x2 : S1024x1024.Idx → α) (k e : Fin 1024) :
    concatenate S1024x3072 1 [⟨S1024x1024, x0⟩, ⟨S1024x1024, x1⟩, ⟨S1024x1024, x2⟩]
        concatenates_S1024x1024_S1024x1024_S1024x1024_S1024x3072_d1 (ix2 k (colCE 2 e)) = x2 (ix2 k e) :=
  concatenate_apply_piece (t := S1024x3072) 1 [⟨S1024x1024, x0⟩, ⟨S1024x1024, x1⟩, ⟨S1024x1024, x2⟩] concatenates_S1024x1024_S1024x1024_S1024x1024_S1024x3072_d1 (ix2 k (colCE 2 e))
    2 (by show (2 : Nat) < 3; omega) S1024x1024 x2 rfl rfl 2048 rfl (ix2 k e)
    (fun b hb => match b, hb with
      | ⟨0, _⟩, _ => rfl
      | ⟨1, _⟩, hb => absurd (Fin.ext rfl) hb)
    (by show 2048 + e.val = 2 * 1024 + e.val; omega)

/-- Three [1024] vectors end to end: entry c·1024 + e of the result is entry e of piece c. -/
theorem concatVec_apply0 (x0 x1 x2 : S1024.Idx → α) (e : Fin 1024) :
    concatenate S3072 0 [⟨S1024, x0⟩, ⟨S1024, x1⟩, ⟨S1024, x2⟩] concatenates_S1024_S1024_S1024_S3072_d0 (ix1 (colCE 0 e))
      = x0 (ix1 e) :=
  concatenate_apply_piece (t := S3072) 0 [⟨S1024, x0⟩, ⟨S1024, x1⟩, ⟨S1024, x2⟩] concatenates_S1024_S1024_S1024_S3072_d0 (ix1 (colCE 0 e))
    0 (by show (0 : Nat) < 3; omega) S1024 x0 rfl rfl 0 rfl (ix1 e)
    (fun b hb => match b, hb with
      | ⟨0, _⟩, hb => absurd (Fin.ext rfl) hb)
    (by show 0 + e.val = 0 * 1024 + e.val; omega)
theorem concatVec_apply1 (x0 x1 x2 : S1024.Idx → α) (e : Fin 1024) :
    concatenate S3072 0 [⟨S1024, x0⟩, ⟨S1024, x1⟩, ⟨S1024, x2⟩] concatenates_S1024_S1024_S1024_S3072_d0 (ix1 (colCE 1 e))
      = x1 (ix1 e) :=
  concatenate_apply_piece (t := S3072) 0 [⟨S1024, x0⟩, ⟨S1024, x1⟩, ⟨S1024, x2⟩] concatenates_S1024_S1024_S1024_S3072_d0 (ix1 (colCE 1 e))
    1 (by show (1 : Nat) < 3; omega) S1024 x1 rfl rfl 1024 rfl (ix1 e)
    (fun b hb => match b, hb with
      | ⟨0, _⟩, hb => absurd (Fin.ext rfl) hb)
    (by show 1024 + e.val = 1 * 1024 + e.val; omega)
theorem concatVec_apply2 (x0 x1 x2 : S1024.Idx → α) (e : Fin 1024) :
    concatenate S3072 0 [⟨S1024, x0⟩, ⟨S1024, x1⟩, ⟨S1024, x2⟩] concatenates_S1024_S1024_S1024_S3072_d0 (ix1 (colCE 2 e))
      = x2 (ix1 e) :=
  concatenate_apply_piece (t := S3072) 0 [⟨S1024, x0⟩, ⟨S1024, x1⟩, ⟨S1024, x2⟩] concatenates_S1024_S1024_S1024_S3072_d0 (ix1 (colCE 2 e))
    2 (by show (2 : Nat) < 3; omega) S1024 x2 rfl rfl 2048 rfl (ix1 e)
    (fun b hb => match b, hb with
      | ⟨0, _⟩, hb => absurd (Fin.ext rfl) hb)
    (by show 2048 + e.val = 2 * 1024 + e.val; omega)

/-- A [1024,1024] matrix transposed, at (k, e): the matrix at (e, k). -/
theorem transpose1024_apply (x : S1024x1024.Idx → α) (k e : Fin 1024) :
    transpose S1024x1024 [1, 0] x transposes_S1024x1024_S1024x1024_1_0 (ix2 k e) = x (ix2 e k) :=
  transpose_apply _ _ transposes_S1024x1024_S1024x1024_1_0 (ix2 k e) (ix2 e k)
    (fun b => match b with | ⟨0, _⟩ => rfl | ⟨1, _⟩ => rfl)

end Pure

/-! ## The stretch before the projection region -/

/-- The input as rows [4096,1024] at (n·2048+s, k): the input at (n, s, k). -/
theorem hostOps0_v0_apply (V : Valuation τ sig (Elt Ideal)) (n : Fin 2) (s : Fin 2048) (k : Fin 1024) :
    (after (hostOps0 (F := Ideal)) V (main_v0 : DevRef τ sig) : S4096x1024.Idx → EReal) (ix2 (rowNS n s) k)
      = (V (main_arg0 : DevRef τ sig) : S2x2048x1024.Idx → EReal) (ix3 n s k) := by
  have e : (after (hostOps0 (F := Ideal)) V (main_v0 : DevRef τ sig) : S4096x1024.Idx → EReal)
      = shapeCast S4096x1024 (V (main_arg0 : DevRef τ sig) : S2x2048x1024.Idx → EReal) shapeCasts_S2x2048x1024_S4096x1024 := by
    after_results
    rfl
  rw [e]
  exact shapeCast_apply _ shapeCasts_S2x2048x1024_S4096x1024 (ix2 (rowNS n s) k) (ix3 n s k)
    (by rw [Shape.rowMajor_val_three, Shape.rowMajor_val_two]; rfl)

/-- The fused weight array [1024,3072] is the three weight matrices transposed, side by side. -/
theorem hostOps0_v4_eq (V : Valuation τ sig (Elt Ideal)) :
    (after (hostOps0 (F := Ideal)) V (main_v4 : DevRef τ sig) : S1024x3072.Idx → EReal)
      = concatenate S1024x3072 1
          [⟨S1024x1024, transpose S1024x1024 [1, 0] (V (main_arg1 : DevRef τ sig) : S1024x1024.Idx → EReal) transposes_S1024x1024_S1024x1024_1_0⟩,
           ⟨S1024x1024, transpose S1024x1024 [1, 0] (V (main_arg3 : DevRef τ sig) : S1024x1024.Idx → EReal) transposes_S1024x1024_S1024x1024_1_0⟩,
           ⟨S1024x1024, transpose S1024x1024 [1, 0] (V (main_arg5 : DevRef τ sig) : S1024x1024.Idx → EReal) transposes_S1024x1024_S1024x1024_1_0⟩]
          concatenates_S1024x1024_S1024x1024_S1024x1024_S1024x3072_d1 := by
  after_results
  dsimp only [Matrix.cons_val_zero, Matrix.cons_val_one, Matrix.cons_val]
  repeat (first
    | rw [unary_result] | rw [reshape_result]
    | (rw [unary_result_ne]; rotate_left; decide)
    | (rw [reshape_result_ne]; rotate_left; decide)
    | (rw [nary_result_ne]; rotate_left; decide))

/-- The fused weights at (k, 0·1024 + e): the query weights at (e, k). -/
theorem hostOps0_v4_q_apply (V : Valuation τ sig (Elt Ideal)) (k e : Fin 1024) :
    (after (hostOps0 (F := Ideal)) V (main_v4 : DevRef τ sig) : S1024x3072.Idx → EReal) (ix2 k (colCE 0 e))
      = (V (main_arg1 : DevRef τ sig) : S1024x1024.Idx → EReal) (ix2 e k) := by
  rw [hostOps0_v4_eq, concatCols_apply0, transpose1024_apply]
/-- The fused weights at (k, 1·1024 + e): the key weights at (e, k). -/
theorem hostOps0_v4_k_apply (V : Valuation τ sig (Elt Ideal)) (k e : Fin 1024) :
    (after (hostOps0 (F := Ideal)) V (main_v4 : DevRef τ sig) : S1024x3072.Idx → EReal) (ix2 k (colCE 1 e))
      = (V (main_arg3 : DevRef τ sig) : S1024x1024.Idx → EReal) (ix2 e k) := by
  rw [hostOps0_v4_eq, concatCols_apply1, transpose1024_apply]
/-- The fused weights at (k, 2·1024 + e): the value weights at (e, k). -/
theorem hostOps0_v4_v_apply (V : Valuation τ sig (Elt Ideal)) (k e : Fin 1024) :
    (after (hostOps0 (F := Ideal)) V (main_v4 : DevRef τ sig) : S1024x3072.Idx → EReal) (ix2 k (colCE 2 e))
      = (V (main_arg5 : DevRef τ sig) : S1024x1024.Idx → EReal) (ix2 e k) := by
  rw [hostOps0_v4_eq, concatCols_apply2, transpose1024_apply]

/-- The fused bias row [1,3072] is the three biases end to end, as one row. -/
theorem hostOps0_v6_eq (V : Valuation τ sig (Elt Ideal)) :
    (after (hostOps0 (F := Ideal)) V (main_v6 : DevRef τ sig) : S1x3072.Idx → EReal)
      = shapeCast S1x3072 (concatenate S3072 0
          [⟨S1024, (V (main_arg2 : DevRef τ sig) : S1024.Idx → EReal)⟩,
           ⟨S1024, (V (main_arg4 : DevRef τ sig) : S1024.Idx → EReal)⟩,
           ⟨S1024, (V (main_arg6 : DevRef τ sig) : S1024.Idx → EReal)⟩]
          concatenates_S1024_S1024_S1024_S3072_d0) shapeCasts_S3072_S1x3072 := by
  after_results
  dsimp only [Matrix.cons_val_zero, Matrix.cons_val_one, Matrix.cons_val]
  repeat (first
    | rw [unary_result] | rw [reshape_result]
    | (rw [unary_result_ne]; rotate_left; decide)
    | (rw [reshape_result_ne]; rotate_left; decide)
    | (rw [nary_result_ne]; rotate_left; decide))
  rfl

/-- A [3072] vector as one row, at (0, j): the vector at j. -/
theorem row3072_apply {α : Type} (x : S3072.Idx → α) (j : Fin 3072) :
    shapeCast S1x3072 x shapeCasts_S3072_S1x3072 (ix2 (0 : Fin 1) j) = x (ix1 j) :=
  shapeCast_apply x shapeCasts_S3072_S1x3072 (ix2 (0 : Fin 1) j) (ix1 j)
    (by rw [Shape.rowMajor_val_one, Shape.rowMajor_val_two]; show j.val = 0 * 3072 + j.val; omega)

/-- The fused bias at (0, 0·1024 + e): the query bias at e. -/
theorem hostOps0_v6_q_apply (V : Valuation τ sig (Elt Ideal)) (e : Fin 1024) :
    (after (hostOps0 (F := Ideal)) V (main_v6 : DevRef τ sig) : S1x3072.Idx → EReal) (ix2 (0 : Fin 1) (colCE 0 e))
      = (V (main_arg2 : DevRef τ sig) : S1024.Idx → EReal) (ix1 e) := by
  rw [hostOps0_v6_eq, row3072_apply, concatVec_apply0]
/-- The fused bias at (0, 1·1024 + e): the key bias at e. -/
theorem hostOps0_v6_k_apply (V : Valuation τ sig (Elt Ideal)) (e : Fin 1024) :
    (after (hostOps0 (F := Ideal)) V (main_v6 : DevRef τ sig) : S1x3072.Idx → EReal) (ix2 (0 : Fin 1) (colCE 1 e))
      = (V (main_arg4 : DevRef τ sig) : S1024.Idx → EReal) (ix1 e) := by
  rw [hostOps0_v6_eq, row3072_apply, concatVec_apply1]
/-- The fused bias at (0, 2·1024 + e): the value bias at e. -/
theorem hostOps0_v6_v_apply (V : Valuation τ sig (Elt Ideal)) (e : Fin 1024) :
    (after (hostOps0 (F := Ideal)) V (main_v6 : DevRef τ sig) : S1x3072.Idx → EReal) (ix2 (0 : Fin 1) (colCE 2 e))
      = (V (main_arg6 : DevRef τ sig) : S1024.Idx → EReal) (ix1 e) := by
  rw [hostOps0_v6_eq, row3072_apply, concatVec_apply2]

/-! ## The stretch between the projection region and the attention region -/

/-- After the stretch, the query array [32,2048,64] at (n·16+h, s, d) is the fused projection output at row n·2048+s,
    column 0·1024 + (h·64+d). -/
theorem hostOps1_v13_apply (V : Valuation τ sig (Elt Ideal)) (n : Fin 2) (h : Fin 16) (s : Fin 2048) (d : Fin 64) :
    (after (hostOps1 (F := Ideal)) V (main_v13 : DevRef τ sig) : S32x2048x64.Idx → EReal) (ix3 (bhNH n h) s d)
      = (V (main_v7 : DevRef τ sig) : S4096x3072.Idx → EReal) (ix2 (rowNS n s) (colCE 0 (colHD h d))) := by
  have e : (after (hostOps1 (F := Ideal)) V (main_v13 : DevRef τ sig) : S32x2048x64.Idx → EReal)
      = shapeCast S32x2048x64
        (transpose S2x16x2048x64 [0, 2, 1, 3] (shapeCast S2x2048x16x64
            (extractStridedSlice S4096x1024 ![0, 0] (V (main_v7 : DevRef τ sig) : S4096x3072.Idx → EReal) slices_S4096x3072_S4096x1024_0_0)
            shapeCasts_S4096x1024_S2x2048x16x64)
          transposes_S2x2048x16x64_S2x16x2048x64_0_2_1_3)
        shapeCasts_S2x16x2048x64_S32x2048x64 := by
    after_results
    rfl
  rw [e, toHeads_apply, slice0_apply]

/-- The key array [32,2048,64] at (n·16+h, s, d) is the fused projection output at row n·2048+s, column
    1·1024 + (h·64+d). -/
theorem hostOps1_v16_apply (V : Valuation τ sig (Elt Ideal)) (n : Fin 2) (h : Fin 16) (s : Fin 2048) (d : Fin 64) :
    (after (hostOps1 (F := Ideal)) V (main_v16 : DevRef τ sig) : S32x2048x64.Idx → EReal) (ix3 (bhNH n h) s d)
      = (V (main_v7 : DevRef τ sig) : S4096x3072.Idx → EReal) (ix2 (rowNS n s) (colCE 1 (colHD h d))) := by
  have e : (after (hostOps1 (F := Ideal)) V (main_v16 : DevRef τ sig) : S32x2048x64.Idx → EReal)
      = shapeCast S32x2048x64
        (transpose S2x16x2048x64 [0, 2, 1, 3] (shapeCast S2x2048x16x64
            (extractStridedSlice S4096x1024 ![0, 1024] (V (main_v7 : DevRef τ sig) : S4096x3072.Idx → EReal) slices_S4096x3072_S4096x1024_0_1024)
            shapeCasts_S4096x1024_S2x2048x16x64)
          transposes_S2x2048x16x64_S2x16x2048x64_0_2_1_3)
        shapeCasts_S2x16x2048x64_S32x2048x64 := by
    after_results
    rfl
  rw [e, toHeads_apply, slice1_apply]

/-- The value array [32,2048,64] at (n·16+h, s, d) is the fused projection output at row n·2048+s, column
    2·1024 + (h·64+d). -/
theorem hostOps1_v19_apply (V : Valuation τ sig (Elt Ideal)) (n : Fin 2) (h : Fin 16) (s : Fin 2048) (d : Fin 64) :
    (after (hostOps1 (F := Ideal)) V (main_v19 : DevRef τ sig) : S32x2048x64.Idx → EReal) (ix3 (bhNH n h) s d)
      = (V (main_v7 : DevRef τ sig) : S4096x3072.Idx → EReal) (ix2 (rowNS n s) (colCE 2 (colHD h d))) := by
  have e : (after (hostOps1 (F := Ideal)) V (main_v19 : DevRef τ sig) : S32x2048x64.Idx → EReal)
      = shapeCast S32x2048x64
        (transpose S2x16x2048x64 [0, 2, 1, 3] (shapeCast S2x2048x16x64
            (extractStridedSlice S4096x1024 ![0, 2048] (V (main_v7 : DevRef τ sig) : S4096x3072.Idx → EReal) slices_S4096x3072_S4096x1024_0_2048)
            shapeCasts_S4096x1024_S2x2048x16x64)
          transposes_S2x2048x16x64_S2x16x2048x64_0_2_1_3)
        shapeCasts_S2x16x2048x64_S32x2048x64 := by
    after_results
    rfl
  rw [e, toHeads_apply, slice2_apply]

/-! ## The stretch between the attention region and the output projection region -/

/-- The attention weights as returned, [2,16,2048,2048], at (n, h, i, j): the attention region's weights output at
    (n·16+h, i, j). -/
theorem hostOps2_v21_apply (V : Valuation τ sig (Elt Ideal)) (n : Fin 2) (h : Fin 16) (i j : Fin 2048) :
    (after (hostOps2 (F := Ideal)) V (main_v21 : DevRef τ sig) : S2x16x2048x2048.Idx → EReal) (ix4 n h i j)
      = (V (main_v20_0 : DevRef τ sig) : S32x2048x2048.Idx → EReal) (ix3 (bhNH n h) i j) := by
  have e : (after (hostOps2 (F := Ideal)) V (main_v21 : DevRef τ sig) : S2x16x2048x2048.Idx → EReal)
      = shapeCast S2x16x2048x2048 (V (main_v20_0 : DevRef τ sig) : S32x2048x2048.Idx → EReal) shapeCasts_S32x2048x2048_S2x16x2048x2048 := by
    after_results
    rfl
  rw [e]
  exact shapeCast_apply _ shapeCasts_S32x2048x2048_S2x16x2048x2048 (ix4 n h i j) (ix3 (bhNH n h) i j)
    (by rw [Shape.rowMajor_val_three, Shape.rowMajor_val_four]; rfl)

/-- The output projection's left operand [4096,1024] at (n·2048+s, h·64+d): the attention region's second output at
    (n·16+h, s, d). -/
theorem hostOps2_v24_apply (V : Valuation τ sig (Elt Ideal)) (n : Fin 2) (h : Fin 16) (s : Fin 2048) (d : Fin 64) :
    (after (hostOps2 (F := Ideal)) V (main_v24 : DevRef τ sig) : S4096x1024.Idx → EReal) (ix2 (rowNS n s) (colHD h d))
      = (V (main_v20_1 : DevRef τ sig) : S32x2048x64.Idx → EReal) (ix3 (bhNH n h) s d) := by
  have e : (after (hostOps2 (F := Ideal)) V (main_v24 : DevRef τ sig) : S4096x1024.Idx → EReal)
      = shapeCast S4096x1024
        (transpose S2x2048x16x64 [0, 2, 1, 3] (shapeCast S2x16x2048x64 (V (main_v20_1 : DevRef τ sig) : S32x2048x64.Idx → EReal) shapeCasts_S32x2048x64_S2x16x2048x64)
          transposes_S2x16x2048x64_S2x2048x16x64_0_2_1_3)
        shapeCasts_S2x2048x16x64_S4096x1024 := by
    after_results
    rfl
  rw [e, fromHeads_apply]

/-- The transposed output weights at (k, j): the output weights at (j, k). -/
theorem hostOps2_v25_apply (V : Valuation τ sig (Elt Ideal)) (k j : Fin 1024) :
    (after (hostOps2 (F := Ideal)) V (main_v25 : DevRef τ sig) : S1024x1024.Idx → EReal) (ix2 k j)
      = (V (main_arg7 : DevRef τ sig) : S1024x1024.Idx → EReal) (ix2 j k) := by
  have e : (after (hostOps2 (F := Ideal)) V (main_v25 : DevRef τ sig) : S1024x1024.Idx → EReal)
      = transpose S1024x1024 [1, 0] (V (main_arg7 : DevRef τ sig) : S1024x1024.Idx → EReal) transposes_S1024x1024_S1024x1024_1_0 := by
    after_results
  rw [e]
  exact transpose_apply _ _ transposes_S1024x1024_S1024x1024_1_0 (ix2 k j) (ix2 j k)
    (fun b => match b with | ⟨0, _⟩ => rfl | ⟨1, _⟩ => rfl)

/-- The output bias as a row [1,1024] at (0, j): the output bias at j. -/
theorem hostOps2_v26_apply (V : Valuation τ sig (Elt Ideal)) (j : Fin 1024) :
    (after (hostOps2 (F := Ideal)) V (main_v26 : DevRef τ sig) : S1x1024.Idx → EReal) (ix2 (0 : Fin 1) j)
      = (V (main_arg8 : DevRef τ sig) : S1024.Idx → EReal) (ix1 j) := by
  have e : (after (hostOps2 (F := Ideal)) V (main_v26 : DevRef τ sig) : S1x1024.Idx → EReal)
      = shapeCast S1x1024 (V (main_arg8 : DevRef τ sig) : S1024.Idx → EReal) shapeCasts_S1024_S1x1024 := by
    after_results
    rfl
  rw [e]
  exact shapeCast_apply _ shapeCasts_S1024_S1x1024 (ix2 (0 : Fin 1) j) (ix1 j)
    (by rw [Shape.rowMajor_val_one, Shape.rowMajor_val_two]; show j.val = 0 * 1024 + j.val; omega)

/-! ## The stretch after the output projection region -/

/-- The returned output [2,2048,1024] at (n, s, e): the output projection region's result at (n·2048+s, e). -/
theorem hostOps3_v28_apply (V : Valuation τ sig (Elt Ideal)) (n : Fin 2) (s : Fin 2048) (e : Fin 1024) :
    (after (hostOps3 (F := Ideal)) V (main_v28 : DevRef τ sig) : S2x2048x1024.Idx → EReal) (ix3 n s e)
      = (V (main_v27 : DevRef τ sig) : S4096x1024.Idx → EReal) (ix2 (rowNS n s) e) := by
  have e' : (after (hostOps3 (F := Ideal)) V (main_v28 : DevRef τ sig) : S2x2048x1024.Idx → EReal)
      = shapeCast S2x2048x1024 (V (main_v27 : DevRef τ sig) : S4096x1024.Idx → EReal) shapeCasts_S4096x1024_S2x2048x1024 := by
    after_results
    rfl
  rw [e']
  exact shapeCast_apply _ shapeCasts_S4096x1024_S2x2048x1024 (ix3 n s e) (ix2 (rowNS n s) e)
    (by rw [Shape.rowMajor_val_two, Shape.rowMajor_val_three]; rfl)

end Cert.Val.Lin

end
-- ==== Proof.LinRef.lean ====
import proofs.«145827_j85126251807436_2_alg».proof.Proof.Gen.ReferenceIdeal.Read
import proofs.«145827_j85126251807436_2_alg».proof.Proof.LinIdx

/-! The reference's linear stages read at an index, at the ideal instance: each of the three input projections and the
    output projection is, entry by entry, a row of the left operand contracted over all 1024 features with a row of
    the weight matrix, plus the bias; the head split and the head merge are re-layouts that move one entry to one
    entry. Indices are given by their fine coordinates (batch n, head h, position s, head feature d). -/

noncomputable section

namespace Cert.Val.Lin

open Cert.ReferenceIdeal Cert.ReferenceIdeal.Gen Cert.ReferenceIdeal.Read Idealize.ShloMosaic Idealize.ShloMosaic.ValueIdx

/-- The query projection stage [2,2048,1024] at (n, s, e): row (n, s) of the input contracted over all 1024
    features with row e of the weight matrix, plus the bias at e. -/
theorem ref_v3_apply (x0 : (⟨S2x2048x1024, .f32⟩ : BufTy).Contents (Elt Ideal)) (x1 : (⟨S1024x1024, .f32⟩ : BufTy).Contents (Elt Ideal)) (x2 : (⟨S1024, .f32⟩ : BufTy).Contents (Elt Ideal))
    (n : Fin 2) (s : Fin 2048) (e : Fin 1024) :
    val_main_v3 (F := Ideal) x0 x1 x2 (ix3 n s e)
      = (∑ d : Fin 1024, x0 (ix3 n s d) * x1 (ix2 e d)) + x2 (ix1 e) := by
  rw [val_main_v3_apply, val_main_v0_apply, val_main_v2_apply, val_main_v1_apply]
  have hl : ∀ k : Fin 1024, lidx_main_v0 (ix3 n s e) k = ix3 n s k := fun k => funext fun a => Fin.ext (by
    match a with | ⟨0, _⟩ => rfl | ⟨1, _⟩ => rfl | ⟨2, _⟩ => rfl)
  have hr : ∀ k : Fin 1024, ridx_main_v0 (ix3 n s e) k = ix2 e k := fun k => funext fun a => Fin.ext (by
    match a with | ⟨0, _⟩ => rfl | ⟨1, _⟩ => rfl)
  have hb : idx_main_v1 (idx_main_v2 (ix3 n s e)) = ix1 e := funext fun a => Fin.ext (by
    match a with | ⟨0, _⟩ => rfl)
  simp only [hl, hr, hb]
  rfl

/-- The key projection stage [2,2048,1024] at (n, s, e): row (n, s) of the input contracted over all 1024
    features with row e of the weight matrix, plus the bias at e. -/
theorem ref_v9_apply (x0 : (⟨S2x2048x1024, .f32⟩ : BufTy).Contents (Elt Ideal)) (x3 : (⟨S1024x1024, .f32⟩ : BufTy).Contents (Elt Ideal)) (x4 : (⟨S1024, .f32⟩ : BufTy).Contents (Elt Ideal))
    (n : Fin 2) (s : Fin 2048) (e : Fin 1024) :
    val_main_v9 (F := Ideal) x0 x3 x4 (ix3 n s e)
      = (∑ d : Fin 1024, x0 (ix3 n s d) * x3 (ix2 e d)) + x4 (ix1 e) := by
  rw [val_main_v9_apply, val_main_v6_apply, val_main_v8_apply, val_main_v7_apply]
  have hl : ∀ k : Fin 1024, lidx_main_v6 (ix3 n s e) k = ix3 n s k := fun k => funext fun a => Fin.ext (by
    match a with | ⟨0, _⟩ => rfl | ⟨1, _⟩ => rfl | ⟨2, _⟩ => rfl)
  have hr : ∀ k : Fin 1024, ridx_main_v6 (ix3 n s e) k = ix2 e k := fun k => funext fun a => Fin.ext (by
    match a with | ⟨0, _⟩ => rfl | ⟨1, _⟩ => rfl)
  have hb : idx_main_v7 (idx_main_v8 (ix3 n s e)) = ix1 e := funext fun a => Fin.ext (by
    match a with | ⟨0, _⟩ => rfl)
  simp only [hl, hr, hb]
  rfl

/-- The value projection stage [2,2048,1024] at (n, s, e): row (n, s) of the input contracted over all 1024
    features with row e of the weight matrix, plus the bias at e. -/
theorem ref_v15_apply (x0 : (⟨S2x2048x1024, .f32⟩ : BufTy).Contents (Elt Ideal)) (x5 : (⟨S1024x1024, .f32⟩ : BufTy).Contents (Elt Ideal)) (x6 : (⟨S1024, .f32⟩ : BufTy).Contents (Elt Ideal))
    (n : Fin 2) (s : Fin 2048) (e : Fin 1024) :
    val_main_v15 (F := Ideal) x0 x5 x6 (ix3 n s e)
      = (∑ d : Fin 1024, x0 (ix3 n s d) * x5 (ix2 e d)) + x6 (ix1 e) := by
  rw [val_main_v15_apply, val_main_v12_apply, val_main_v14_apply, val_main_v13_apply]
  have hl : ∀ k : Fin 1024, lidx_main_v12 (ix3 n s e) k = ix3 n s k := fun k => funext fun a => Fin.ext (by
    match a with | ⟨0, _⟩ => rfl | ⟨1, _⟩ => rfl | ⟨2, _⟩ => rfl)
  have hr : ∀ k : Fin 1024, ridx_main_v12 (ix3 n s e) k = ix2 e k := fun k => funext fun a => Fin.ext (by
    match a with | ⟨0, _⟩ => rfl | ⟨1, _⟩ => rfl)
  have hb : idx_main_v13 (idx_main_v14 (ix3 n s e)) = ix1 e := funext fun a => Fin.ext (by
    match a with | ⟨0, _⟩ => rfl)
  simp only [hl, hr, hb]
  rfl

/-- The query projection split into heads [2,16,2048,64] at (n, h, s, d): the projection stage at (n, s, h·64+d). -/
theorem ref_v5_apply (x0 : (⟨S2x2048x1024, .f32⟩ : BufTy).Contents (Elt Ideal)) (x1 : (⟨S1024x1024, .f32⟩ : BufTy).Contents (Elt Ideal)) (x2 : (⟨S1024, .f32⟩ : BufTy).Contents (Elt Ideal))
    (n : Fin 2) (h : Fin 16) (s : Fin 2048) (d : Fin 64) :
    val_main_v5 (F := Ideal) x0 x1 x2 (ix4 n h s d)
      = val_main_v3 (F := Ideal) x0 x1 x2 (ix3 n s (colHD h d)) := by
  rw [val_main_v5_apply, val_main_v4_apply]
  have hi : idx_main_v4 (idx_main_v5 (ix4 n h s d)) = ix3 n s (colHD h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [hi]

/-- The key projection split into heads [2,16,2048,64] at (n, h, s, d): the projection stage at (n, s, h·64+d). -/
theorem ref_v11_apply (x0 : (⟨S2x2048x1024, .f32⟩ : BufTy).Contents (Elt Ideal)) (x3 : (⟨S1024x1024, .f32⟩ : BufTy).Contents (Elt Ideal)) (x4 : (⟨S1024, .f32⟩ : BufTy).Contents (Elt Ideal))
    (n : Fin 2) (h : Fin 16) (s : Fin 2048) (d : Fin 64) :
    val_main_v11 (F := Ideal) x0 x3 x4 (ix4 n h s d)
      = val_main_v9 (F := Ideal) x0 x3 x4 (ix3 n s (colHD h d)) := by
  rw [val_main_v11_apply, val_main_v10_apply]
  have hi : idx_main_v10 (idx_main_v11 (ix4 n h s d)) = ix3 n s (colHD h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [hi]

/-- The value projection split into heads [2,16,2048,64] at (n, h, s, d): the projection stage at (n, s, h·64+d). -/
theorem ref_v17_apply (x0 : (⟨S2x2048x1024, .f32⟩ : BufTy).Contents (Elt Ideal)) (x5 : (⟨S1024x1024, .f32⟩ : BufTy).Contents (Elt Ideal)) (x6 : (⟨S1024, .f32⟩ : BufTy).Contents (Elt Ideal))
    (n : Fin 2) (h : Fin 16) (s : Fin 2048) (d : Fin 64) :
    val_main_v17 (F := Ideal) x0 x5 x6 (ix4 n h s d)
      = val_main_v15 (F := Ideal) x0 x5 x6 (ix3 n s (colHD h d)) := by
  rw [val_main_v17_apply, val_main_v16_apply]
  have hi : idx_main_v16 (idx_main_v17 (ix4 n h s d)) = ix3 n s (colHD h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [hi]

/-- The heads merged back [2,2048,1024] at (n, s, h·64+d): the per-head attention output at (n, h, s, d). -/
theorem ref_v38_apply (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (n : Fin 2) (h : Fin 16) (s : Fin 2048) (d : Fin 64) :
    val_main_v38 (F := Ideal) x0 x1 x2 x3 x4 x5 x6 (ix3 n s (colHD h d))
      = val_main_v36 (F := Ideal) x0 x1 x2 x3 x4 x5 x6 (ix4 n h s d) := by
  rw [val_main_v38_apply, val_main_v37_apply]
  have hi : idx_main_v37 (idx_main_v38 (ix3 n s (colHD h d))) = ix4 n h s d := funext fun a => Fin.ext (by
    have hn := n.isLt; have hh := h.isLt; have hs := s.isLt; have hd := d.isLt
    match a with
    | ⟨0, _⟩ => show ((n.val * 2048 + s.val) * 1024 + (h.val * 64 + d.val)) / 2097152 = n.val; omega
    | ⟨1, _⟩ => show ((n.val * 2048 + s.val) * 1024 + (h.val * 64 + d.val)) / 64 % 16 = h.val; omega
    | ⟨2, _⟩ => show ((n.val * 2048 + s.val) * 1024 + (h.val * 64 + d.val)) / 1024 % 2048 = s.val; omega
    | ⟨3, _⟩ => show ((n.val * 2048 + s.val) * 1024 + (h.val * 64 + d.val)) % 64 = d.val; omega)
  rw [hi]

/-- The output projection [2,2048,1024] at (n, s, e): row (n, s) of the merged attention output contracted over all
    1024 features with row e of the output weights, plus the output bias at e. -/
theorem ref_v42_apply (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (n : Fin 2) (s : Fin 2048) (e : Fin 1024) :
    val_main_v42 (F := Ideal) x0 x1 x2 x3 x4 x5 x6 x7 x8 (ix3 n s e)
      = (∑ d : Fin 1024, val_main_v38 (F := Ideal) x0 x1 x2 x3 x4 x5 x6 (ix3 n s d) * x7 (ix2 e d)) + x8 (ix1 e) := by
  rw [val_main_v42_apply, val_main_v39_apply, val_main_v41_apply, val_main_v40_apply]
  have hl : ∀ k : Fin 1024, lidx_main_v39 (ix3 n s e) k = ix3 n s k := fun k => funext fun a => Fin.ext (by
    match a with | ⟨0, _⟩ => rfl | ⟨1, _⟩ => rfl | ⟨2, _⟩ => rfl)
  have hr : ∀ k : Fin 1024, ridx_main_v39 (ix3 n s e) k = ix2 e k := fun k => funext fun a => Fin.ext (by
    match a with | ⟨0, _⟩ => rfl | ⟨1, _⟩ => rfl)
  have hb : idx_main_v40 (idx_main_v41 (ix3 n s e)) = ix1 e := funext fun a => Fin.ext (by
    match a with | ⟨0, _⟩ => rfl)
  simp only [hl, hr, hb]
  rfl

end Cert.Val.Lin

end
-- ==== Proof.IdealValueOut.lean ====
import proofs.«145827_j85126251807436_2_alg».proof.Proof.IdealRun
import proofs.«145827_j85126251807436_2_alg».proof.Proof.IdealFinal2
import proofs.«145827_j85126251807436_2_alg».proof.Proof.LinHost
import proofs.«145827_j85126251807436_2_alg».proof.Proof.LinRef
import proofs.«145827_j85126251807436_2_alg».proof.Proof.Gen.ReferenceIdeal.Read

/-!
  The two results at the extended reals, given what the attention region leaves. The weights result is the region's weights
  array with its leading axis split into batch and head. The output result at (n, s, e) is row n·2048 + s of the output
  projection: the sum over the 1024 merged head features k = h·64 + d of the attention output at (n·16 + h, s, d) against the
  output weight's row e, plus the output bias — the reference's last contraction, whose left operand is its attention output
  with the heads merged the same way.
-/

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Cert.Val.Lin
open scoped BigOperators

variable (m : (ℓ : Loc nD τ sig) → Buf (Elt Ideal) ℓ)

theorem W4_arg7 (c : Dev nD) : W4 m c main_arg7 = m ((c : Thread nD τ).loc main_arg7) := by
  rw [← V4_eq]
  exact (Gen.V4_of m (outs m) c main_arg7 (by decide)).trans ((Gen.V3_of m (outs m) c main_arg7 (by decide)).trans
    ((Gen.V2_of m (outs m) c main_arg7 (by decide)).trans ((Gen.V1_of m c main_arg7 (by decide)).trans rfl)))

theorem W4_arg8 (c : Dev nD) : W4 m c main_arg8 = m ((c : Thread nD τ).loc main_arg8) := by
  rw [← V4_eq]
  exact (Gen.V4_of m (outs m) c main_arg8 (by decide)).trans ((Gen.V3_of m (outs m) c main_arg8 (by decide)).trans
    ((Gen.V2_of m (outs m) c main_arg8 (by decide)).trans ((Gen.V1_of m c main_arg8 (by decide)).trans rfl)))

/-- The weights result, from the attention region's weights array. -/
theorem weights_of (c : Dev nD)
    (hW : ∀ (n : Fin 2) (h : Fin 16) (i j : Fin 2048), (o4a m c : S32x2048x2048.Idx → EReal) (ix3 (bhNH n h) i j)
      = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 n h i j)) :
    W7 m c main_v21 = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e1 : W7 m c main_v21 = W5 m c main_v21 := by
    rw [← V7_eq, Gen.V7_of m (outs m) c main_v21 (by decide), Gen.V6_of m (outs m) c main_v21 (by decide), V5_eq]
  rw [e1]
  funext i
  obtain ⟨n, h, a, b, rfl⟩ : ∃ (n : Fin 2) (h : Fin 16) (a b : Fin 2048), i = ix4 n h a b := ⟨i 0, i 1, i 2, i 3, eq_ix4 i⟩
  unfold W5
  refine (hostOps2_v21_apply (W4 m c) n h a b).trans ?_
  rw [W4_self0]
  exact hW n h a b

/-- The output result, from the attention region's output array. -/
theorem out_of (c : Dev nD)
    (hO : ∀ (n : Fin 2) (h : Fin 16) (s : Fin 2048) (d : Fin 64), (o4b m c : S32x2048x64.Idx → EReal) (ix3 (bhNH n h) s d)
      = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 n h s d)) :
    W7 m c main_v28 = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨n, s, e, rfl⟩ : ∃ (n : Fin 2) (s : Fin 2048) (e : Fin 1024), i = ix3 n s e := ⟨i 0, i 1, i 2, eq_ix3 i⟩
  unfold W7
  refine (hostOps3_v28_apply (W6 m c) n s e).trans ?_
  rw [W6_self]
  unfold o6
  rw [final2 (E5 m) c, lin_ix2]
  unfold linC
  rw [ref_v42_apply]
  refine congrArg₂ (fun a b : EReal => a + b) (Finset.sum_congr rfl fun k _ => congrArg₂ (fun a b : EReal => a * b) ?_ ?_) ?_
  · obtain ⟨h, d, rfl⟩ : ∃ (h : Fin 16) (d : Fin 64), k = colHD h d :=
      ⟨⟨k.val / 64, by omega⟩, ⟨k.val % 64, by omega⟩, Fin.ext (by show k.val = k.val / 64 * 64 + k.val % 64; omega)⟩
    show (W5 m c main_v24 : S4096x1024.Idx → EReal) (ix2 (rowNS n s) (colHD h d)) = _
    unfold W5
    refine (hostOps2_v24_apply (W4 m c) n h s d).trans ?_
    rw [W4_self1, ref_v38_apply]
    exact hO n h s d
  · show (W5 m c main_v25 : S1024x1024.Idx → EReal) (ix2 k e) = _
    unfold W5
    refine (hostOps2_v25_apply (W4 m c) k e).trans ?_
    rw [W4_arg7]
  · show (W5 m c main_v26 : S1x1024.Idx → EReal) (ix2 (0 : Fin 1) e) = _
    unfold W5
    refine (hostOps2_v26_apply (W4 m c) e).trans ?_
    rw [W4_arg8]

end Cert.KernelIdeal.Run

end
-- ==== Proof.IdealFinal1.lean ====
import proofs.«145827_j85126251807436_2_alg».proof.Proof.IdealRegion1
import Idealize.ShloMosaic.Lib.Pipeline.Value
import Idealize.ShloMosaic.Lib.ValueIdx

/-!
  Region 1 read as values at the extended reals. The grid's point `t` handles head-and-batch `t / 8` and the tile of
  query rows `256 (t % 8) … 256 (t % 8) + 255`: it is handed those rows of the query array and all 2048 rows of the key and
  value arrays of that head, and writes back the same rows of the weights array [32, 2048, 2048] and of the output array
  [32, 2048, 64], each block whole. So each of the two arrays ends, entry by entry, at the body's value on the blocks of the
  point that covers the entry, and the 256 blocks cover each array.
-/

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl

theorem lt256_1 (t : Fin cfg1.N) : t.val < 256 := lt_of_lt_of_eq t.isLt N_1

/-- The head-and-batch a grid point handles, -/
def bh1 (t : Fin cfg1.N) : Fin 32 := ⟨t.val / 8, by have := lt256_1 t; omega⟩
/-- its tile of query rows, -/
def qi1 (t : Fin cfg1.N) : Fin 8 := ⟨t.val % 8, by omega⟩
/-- and the row of the arrays that row `r` of its tile is. -/
def qrow1 (t : Fin cfg1.N) (r : Fin 256) : Fin 2048 := ⟨t.val % 8 * 256 + r.val, by omega⟩
/-- The point that handles a head-and-batch and a tile. -/
def tOf (bh : Fin 32) (qi : Fin 8) : Fin cfg1.N := ⟨bh.val * 8 + qi.val, by show _ < grid1.N; rw [N_1]; omega⟩

theorem tOf_self (t : Fin cfg1.N) : tOf (bh1 t) (qi1 t) = t := Fin.ext (by show t.val / 8 * 8 + t.val % 8 = t.val; omega)

/-- The block index maps over the grid. -/
theorem idx1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0
    ∧ win1_4.index t (0 : Fin 3) = t.val / 8 ∧ win1_4.index t (1 : Fin 3) = t.val % 8 ∧ win1_4.index t (2 : Fin 3) = 0 :=
  (by decide +kernel : ∀ t : Fin grid1.N, _)

/-- The tile of 256 rows of one head of an array [32, 2048, 64] that point `t` is handed, -/
def qblk (Qa : Vec Ideal S32x2048x64 .bf16) (t : Fin cfg1.N) : Vec Ideal S1x256x64 .bf16 :=
  fun y => Qa (ix3 (bh1 t) (qrow1 t ⟨(y 1).val, (y 1).isLt⟩) ⟨(y 2).val, (y 2).isLt⟩)
/-- and all 2048 rows of that head. -/
def kblk (Ka : Vec Ideal S32x2048x64 .bf16) (t : Fin cfg1.N) : Vec Ideal S1x2048x64 .bf16 :=
  fun y => Ka (ix3 (bh1 t) ⟨(y 1).val, (y 1).isLt⟩ ⟨(y 2).val, (y 2).isLt⟩)

theorem blkeq1_0 (c : Dev nD) (t : Fin cfg1.N) : iblk1 V c 0 t = qblk (V c main_v13) t := by
  funext y
  show V c main_v13 (((cfg1.win 0).blk t).view.emb y) = V c main_v13 _
  refine congrArg (V c main_v13) ?_
  obtain ⟨e0, e1, e2, -⟩ := idx1 t
  have hy0 : (y 0).val < 1 := (y 0).isLt
  funext a; apply Fin.ext
  match a with
  | ⟨0, _⟩ => show win1_0.index t (0 : Fin 3) * 1 + 1 * (y 0).val = t.val / 8; omega
  | ⟨1, _⟩ => show win1_0.index t (1 : Fin 3) * 256 + 1 * (y 1).val = t.val % 8 * 256 + (y 1).val; omega
  | ⟨2, _⟩ => show win1_0.index t (2 : Fin 3) * 64 + 1 * (y 2).val = (y 2).val; omega

theorem blkeq1_1 (c : Dev nD) (t : Fin cfg1.N) : iblk1 V c 1 t = kblk (V c main_v16) t := by
  funext y
  show V c main_v16 (((cfg1.win 1).blk t).view.emb y) = V c main_v16 _
  refine congrArg (V c main_v16) ?_
  obtain ⟨-, -, -, e0, e1, e2, -⟩ := idx1 t
  have hy0 : (y 0).val < 1 := (y 0).isLt
  funext a; apply Fin.ext
  match a with
  | ⟨0, _⟩ => show win1_1.index t (0 : Fin 3) * 1 + 1 * (y 0).val = t.val / 8; omega
  | ⟨1, _⟩ => show win1_1.index t (1 : Fin 3) * 2048 + 1 * (y 1).val = (y 1).val; omega
  | ⟨2, _⟩ => show win1_1.index t (2 : Fin 3) * 64 + 1 * (y 2).val = (y 2).val; omega

theorem blkeq1_2 (c : Dev nD) (t : Fin cfg1.N) : iblk1 V c 2 t = kblk (V c main_v19) t := by
  funext y
  show V c main_v19 (((cfg1.win 2).blk t).view.emb y) = V c main_v19 _
  refine congrArg (V c main_v19) ?_
  obtain ⟨-, -, -, -, -, -, e0, e1, e2, -⟩ := idx1 t
  have hy0 : (y 0).val < 1 := (y 0).isLt
  funext a; apply Fin.ext
  match a with
  | ⟨0, _⟩ => show win1_2.index t (0 : Fin 3) * 1 + 1 * (y 0).val = t.val / 8; omega
  | ⟨1, _⟩ => show win1_2.index t (1 : Fin 3) * 2048 + 1 * (y 1).val = (y 1).val; omega
  | ⟨2, _⟩ => show win1_2.index t (2 : Fin 3) * 64 + 1 * (y 2).val = (y 2).val; omega

/-- The weights array, entry by entry: the body's weights value at the point that handles the entry's head and tile. -/
def attWC (Qa Ka : Vec Ideal S32x2048x64 .bf16) (bh : Fin 32) (qi : Fin 8) (r : Fin 256) (k : Fin 2048) : EReal :=
  k1_pay2 (F := Ideal) (grid1.coords (tOf bh qi)) (qblk Qa (tOf bh qi)) (kblk Ka (tOf bh qi)) (ix3 (0 : Fin 1) r k)
def attW (Qa Ka : Vec Ideal S32x2048x64 .bf16) : Vec Ideal S32x2048x2048 .f32 :=
  fun i => attWC Qa Ka ⟨(i 0).val, (i 0).isLt⟩ ⟨(i 1).val / 256, by have : (i 1).val < 2048 := (i 1).isLt; omega⟩
    ⟨(i 1).val % 256, by omega⟩ ⟨(i 2).val, (i 2).isLt⟩

/-- The attention output array, likewise. -/
def attOC (Qa Ka Va : Vec Ideal S32x2048x64 .bf16) (bh : Fin 32) (qi : Fin 8) (r : Fin 256) (d : Fin 64) : EReal :=
  k1_pay3 (F := Ideal) (grid1.coords (tOf bh qi)) (qblk Qa (tOf bh qi)) (kblk Ka (tOf bh qi)) (kblk Va (tOf bh qi)) (ix3 (0 : Fin 1) r d)
def attO (Qa Ka Va : Vec Ideal S32x2048x64 .bf16) : Vec Ideal S32x2048x64 .bf16 :=
  fun i => attOC Qa Ka Va ⟨(i 0).val, (i 0).isLt⟩ ⟨(i 1).val / 256, by have : (i 1).val < 2048 := (i 1).isLt; omega⟩
    ⟨(i 1).val % 256, by omega⟩ ⟨(i 2).val, (i 2).isLt⟩

theorem attW_at (Qa Ka : Vec Ideal S32x2048x64 .bf16) (t : Fin cfg1.N) (r : Fin 256) (k : Fin 2048) :
    attW Qa Ka (ix3 (bh1 t) (qrow1 t r) k)
      = k1_pay2 (F := Ideal) (grid1.coords t) (qblk Qa t) (kblk Ka t) (ix3 (0 : Fin 1) r k) := by
  have h1 : (⟨(qrow1 t r).val / 256, by have : (qrow1 t r).val < 2048 := (qrow1 t r).isLt; omega⟩ : Fin 8) = qi1 t :=
    Fin.ext (by show (t.val % 8 * 256 + r.val) / 256 = t.val % 8; omega)
  have h2 : (⟨(qrow1 t r).val % 256, by omega⟩ : Fin 256) = r :=
    Fin.ext (by show (t.val % 8 * 256 + r.val) % 256 = r.val; omega)
  show attWC Qa Ka (bh1 t) ⟨(qrow1 t r).val / 256, _⟩ ⟨(qrow1 t r).val % 256, _⟩ k = _
  rw [h1, h2]
  unfold attWC
  rw [tOf_self]

theorem attO_at (Qa Ka Va : Vec Ideal S32x2048x64 .bf16) (t : Fin cfg1.N) (r : Fin 256) (d : Fin 64) :
    attO Qa Ka Va (ix3 (bh1 t) (qrow1 t r) d)
      = k1_pay3 (F := Ideal) (grid1.coords t) (qblk Qa t) (kblk Ka t) (kblk Va t) (ix3 (0 : Fin 1) r d) := by
  have h1 : (⟨(qrow1 t r).val / 256, by have : (qrow1 t r).val < 2048 := (qrow1 t r).isLt; omega⟩ : Fin 8) = qi1 t :=
    Fin.ext (by show (t.val % 8 * 256 + r.val) / 256 = t.val % 8; omega)
  have h2 : (⟨(qrow1 t r).val % 256, by omega⟩ : Fin 256) = r :=
    Fin.ext (by show (t.val % 8 * 256 + r.val) % 256 = r.val; omega)
  show attOC Qa Ka Va (bh1 t) ⟨(qrow1 t r).val / 256, _⟩ ⟨(qrow1 t r).val % 256, _⟩ d = _
  rw [h1, h2]
  unfold attOC
  rw [tOf_self]

theorem emb1_3 (t : Fin cfg1.N) (z : Fin 1) (r : Fin 256) (k : Fin 2048) :
    ((cfg1.win 3).blk t).view.emb (ix3 z r k) = ix3 (bh1 t) (qrow1 t r) k := by
  obtain ⟨-, -, -, -, -, -, -, -, -, e0, e1, e2, -⟩ := idx1 t
  have hz : z.val < 1 := z.isLt
  funext a; apply Fin.ext
  match a with
  | ⟨0, _⟩ => show win1_3.index t (0 : Fin 3) * 1 + 1 * z.val = t.val / 8; omega
  | ⟨1, _⟩ => show win1_3.index t (1 : Fin 3) * 256 + 1 * r.val = t.val % 8 * 256 + r.val; omega
  | ⟨2, _⟩ => show win1_3.index t (2 : Fin 3) * 2048 + 1 * k.val = k.val; omega

theorem emb1_4 (t : Fin cfg1.N) (z : Fin 1) (r : Fin 256) (d : Fin 64) :
    ((cfg1.win 4).blk t).view.emb (ix3 z r d) = ix3 (bh1 t) (qrow1 t r) d := by
  obtain ⟨-, -, -, -, -, -, -, -, -, -, -, -, e0, e1, e2⟩ := idx1 t
  have hz : z.val < 1 := z.isLt
  funext a; apply Fin.ext
  match a with
  | ⟨0, _⟩ => show win1_4.index t (0 : Fin 3) * 1 + 1 * z.val = t.val / 8; omega
  | ⟨1, _⟩ => show win1_4.index t (1 : Fin 3) * 256 + 1 * r.val = t.val % 8 * 256 + r.val; omega
  | ⟨2, _⟩ => show win1_4.index t (2 : Fin 3) * 64 + 1 * d.val = d.val; omega

/-- What point `t` writes back into the weights array is block `t` of `attW` of the region's query and key arrays. -/
theorem flushed1_3_eq (c : Dev nD) (t : Fin cfg1.N) :
    (dat1 V c).flushed 3 t = ((cfg1.win 3).blk t).view.read (Elt Ideal) (attW (V c main_v13) (V c main_v16)) := by
  show (cfg1.win 3).cut (grid1.coords t) ((dat1 V c).after 3 t) = _
  rw [after1_3]
  unfold out1_3
  rw [View.canon_unit_zero hz3]
  simp only [View.ld_unit_zero (S := S1x256x64) hz3, View.ld_unit_zero (S := S1x2048x64) hz3]
  rw [blkeq1_0 V c t, blkeq1_1 V c t]
  funext j
  obtain ⟨z, r, k, rfl⟩ : ∃ (z : Fin 1) (r : Fin 256) (k : Fin 2048), j = ix3 z r k := ⟨j 0, j 1, j 2, eq_ix3 j⟩
  obtain rfl : z = 0 := Subsingleton.elim _ _
  show k1_pay2 (F := Ideal) (grid1.coords t) (qblk (V c main_v13) t) (kblk (V c main_v16) t) (ix3 (0 : Fin 1) r k)
    = attW (V c main_v13) (V c main_v16) (((cfg1.win 3).blk t).view.emb (ix3 (0 : Fin 1) r k))
  rw [emb1_3 t 0 r k, attW_at]

/-- What point `t` writes back into the output array is block `t` of `attO` of the region's three input arrays. -/
theorem flushed1_4_eq (c : Dev nD) (t : Fin cfg1.N) :
    (dat1 V c).flushed 4 t = ((cfg1.win 4).blk t).view.read (Elt Ideal) (attO (V c main_v13) (V c main_v16) (V c main_v19)) := by
  show (cfg1.win 4).cut (grid1.coords t) ((dat1 V c).after 4 t) = _
  rw [after1_4]
  unfold out1_4
  rw [View.canon_unit_zero hz3]
  simp only [View.ld_unit_zero (S := S1x256x64) hz3, View.ld_unit_zero (S := S1x2048x64) hz3]
  rw [blkeq1_0 V c t, blkeq1_1 V c t, blkeq1_2 V c t]
  funext j
  obtain ⟨z, r, d, rfl⟩ : ∃ (z : Fin 1) (r : Fin 256) (d : Fin 64), j = ix3 z r d := ⟨j 0, j 1, j 2, eq_ix3 j⟩
  obtain rfl : z = 0 := Subsingleton.elim _ _
  show k1_pay3 (F := Ideal) (grid1.coords t) (qblk (V c main_v13) t) (kblk (V c main_v16) t) (kblk (V c main_v19) t) (ix3 (0 : Fin 1) r d)
    = attO (V c main_v13) (V c main_v16) (V c main_v19) (((cfg1.win 4).blk t).view.emb (ix3 (0 : Fin 1) r d))
  rw [emb1_4 t 0 r d, attO_at]

theorem mem_blk1_3 (t : Fin cfg1.N) (i : S32x2048x2048.Idx) :
    i ∈ ((cfg1.win 3).blk t).view.set ↔ ∀ a : Fin 3, win1_3.index t a * S1x256x2048.size a ≤ (i a).val ∧ (i a).val < win1_3.index t a * S1x256x2048.size a + S1x256x2048.size a := by
  show i ∈ ((View.whole main_v20_0).slice (win1_3.rect t)).set ↔ _
  rw [View.set_slice_whole, Rect.mem_set_unit]
  exact Iff.rfl

theorem mem_blk1_4 (t : Fin cfg1.N) (i : S32x2048x64.Idx) :
    i ∈ ((cfg1.win 4).blk t).view.set ↔ ∀ a : Fin 3, win1_4.index t a * S1x256x64.size a ≤ (i a).val ∧ (i a).val < win1_4.index t a * S1x256x64.size a + S1x256x64.size a := by
  show i ∈ ((View.whole main_v20_1).slice (win1_4.rect t)).set ↔ _
  rw [View.set_slice_whole, Rect.mem_set_unit]
  exact Iff.rfl

theorem cover1_3' (i : S32x2048x2048.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 2048 := (i 2).isLt
  have ht : (i 0).val * 8 + (i 1).val / 256 < cfg1.N := by show _ < grid1.N; rw [N_1]; omega
  refine ⟨⟨(i 0).val * 8 + (i 1).val / 256, ht⟩, flush1_3 _, ?_⟩
  rw [mem_blk1_3]
  obtain ⟨-, -, -, -, -, -, -, -, -, e0, e1, e2, -⟩ := idx1 ⟨(i 0).val * 8 + (i 1).val / 256, ht⟩
  intro a
  match a with
  | ⟨0, _⟩ =>
    show win1_3.index ⟨(i 0).val * 8 + (i 1).val / 256, ht⟩ (0 : Fin 3) * 1 ≤ (i 0).val ∧ (i 0).val < win1_3.index ⟨(i 0).val * 8 + (i 1).val / 256, ht⟩ (0 : Fin 3) * 1 + 1
    rw [e0]; show ((i 0).val * 8 + (i 1).val / 256) / 8 * 1 ≤ (i 0).val ∧ (i 0).val < ((i 0).val * 8 + (i 1).val / 256) / 8 * 1 + 1; omega
  | ⟨1, _⟩ =>
    show win1_3.index ⟨(i 0).val * 8 + (i 1).val / 256, ht⟩ (1 : Fin 3) * 256 ≤ (i 1).val ∧ (i 1).val < win1_3.index ⟨(i 0).val * 8 + (i 1).val / 256, ht⟩ (1 : Fin 3) * 256 + 256
    rw [e1]; show ((i 0).val * 8 + (i 1).val / 256) % 8 * 256 ≤ (i 1).val ∧ (i 1).val < ((i 0).val * 8 + (i 1).val / 256) % 8 * 256 + 256; omega
  | ⟨2, _⟩ =>
    show win1_3.index ⟨(i 0).val * 8 + (i 1).val / 256, ht⟩ (2 : Fin 3) * 2048 ≤ (i 2).val ∧ (i 2).val < win1_3.index ⟨(i 0).val * 8 + (i 1).val / 256, ht⟩ (2 : Fin 3) * 2048 + 2048
    rw [e2]; omega

theorem cover1_4' (i : S32x2048x64.Idx) : ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 64 := (i 2).isLt
  have ht : (i 0).val * 8 + (i 1).val / 256 < cfg1.N := by show _ < grid1.N; rw [N_1]; omega
  refine ⟨⟨(i 0).val * 8 + (i 1).val / 256, ht⟩, flush1_4 _, ?_⟩
  rw [mem_blk1_4]
  obtain ⟨-, -, -, -, -, -, -, -, -, -, -, -, e0, e1, e2⟩ := idx1 ⟨(i 0).val * 8 + (i 1).val / 256, ht⟩
  intro a
  match a with
  | ⟨0, _⟩ =>
    show win1_4.index ⟨(i 0).val * 8 + (i 1).val / 256, ht⟩ (0 : Fin 3) * 1 ≤ (i 0).val ∧ (i 0).val < win1_4.index ⟨(i 0).val * 8 + (i 1).val / 256, ht⟩ (0 : Fin 3) * 1 + 1
    rw [e0]; show ((i 0).val * 8 + (i 1).val / 256) / 8 * 1 ≤ (i 0).val ∧ (i 0).val < ((i 0).val * 8 + (i 1).val / 256) / 8 * 1 + 1; omega
  | ⟨1, _⟩ =>
    show win1_4.index ⟨(i 0).val * 8 + (i 1).val / 256, ht⟩ (1 : Fin 3) * 256 ≤ (i 1).val ∧ (i 1).val < win1_4.index ⟨(i 0).val * 8 + (i 1).val / 256, ht⟩ (1 : Fin 3) * 256 + 256
    rw [e1]; show ((i 0).val * 8 + (i 1).val / 256) % 8 * 256 ≤ (i 1).val ∧ (i 1).val < ((i 0).val * 8 + (i 1).val / 256) % 8 * 256 + 256; omega
  | ⟨2, _⟩ =>
    show win1_4.index ⟨(i 0).val * 8 + (i 1).val / 256, ht⟩ (2 : Fin 3) * 64 ≤ (i 2).val ∧ (i 2).val < win1_4.index ⟨(i 0).val * 8 + (i 1).val / 256, ht⟩ (2 : Fin 3) * 64 + 64
    rw [e2]; omega

/-- The weights array after the region. -/
theorem final1_3 (c : Dev nD) : (dat1 V c).arrAt 3 cfg1.N = attW (V c main_v13) (V c main_v16) :=
  (dat1 V c).arrAt_eq_of_cover 3 _ (fun t _ => flushed1_3_eq V c t) (cover1_3')

/-- The attention output array after the region. -/
theorem final1_4 (c : Dev nD) : (dat1 V c).arrAt 4 cfg1.N = attO (V c main_v13) (V c main_v16) (V c main_v19) :=
  (dat1 V c).arrAt_eq_of_cover 4 _ (fun t _ => flushed1_4_eq V c t) (cover1_4')

end Cert.KernelIdeal.Run

end
-- ==== Proof.IdealValueQKV.lean ====
import proofs.«145827_j85126251807436_2_alg».proof.Proof.IdealRun
import proofs.«145827_j85126251807436_2_alg».proof.Proof.IdealFinal0
import proofs.«145827_j85126251807436_2_alg».proof.Proof.LinHost
import proofs.«145827_j85126251807436_2_alg».proof.Proof.LinRef
import proofs.«145827_j85126251807436_2_alg».proof.Proof.Gen.ReferenceIdeal.Read

/-!
  The query, key and value arrays the attention region is handed, at the extended reals, against the reference's projection
  stages. Entry (n·16 + h, s, d) of each is entry (n·2048 + s, c·1024 + h·64 + d) of the fused projection's output (c = 0, 1, 2),
  which is row (n, s) of the input against row h·64 + d of that projection's weight matrix plus its bias there — the same sum
  the reference's projection, split into heads, has at (n, h, s, d).
-/

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Cert.Val.Lin
open scoped BigOperators

variable (m : (ℓ : Loc nD τ sig) → Buf (Elt Ideal) ℓ)

/-- The fused projection's output at row (n, s) and column c·1024 + e, from the program's arguments. -/
theorem proj_entry (c : Dev nD) (n : Fin 2) (s : Fin 2048) (cc : Fin 3) (e : Fin 1024) :
    (o2 m c : S4096x3072.Idx → EReal) (ix2 (rowNS n s) (colCE cc e))
      = linC (E1 m c main_v0) (E1 m c main_v4) (E1 m c main_v6) (rowNS n s) (colCE cc e) := by
  unfold o2
  rw [final0 (E1 m) c]
  rfl

theorem q_stage (c : Dev nD) (n : Fin 2) (h : Fin 16) (s : Fin 2048) (d : Fin 64) :
    (W3 m c main_v13 : S32x2048x64.Idx → EReal) (ix3 (bhNH n h) s d)
      = Cert.ReferenceIdeal.Read.val_main_v5 (F := Ideal) (m ((c : Thread nD τ).loc main_arg0)) (m ((c : Thread nD τ).loc main_arg1)) (m ((c : Thread nD τ).loc main_arg2)) (ix4 n h s d) := by
  unfold W3
  refine (hostOps1_v13_apply (W2 m c) n h s d).trans ?_
  rw [W2_self, proj_entry, ref_v5_apply, ref_v3_apply]
  unfold linC
  refine congrArg₂ (fun a b : EReal => a + b) (Finset.sum_congr rfl fun k _ => congrArg₂ (fun a b : EReal => a * b) ?_ ?_) ?_
  · exact hostOps0_v0_apply (Gen.V0 m c) n s k
  · exact hostOps0_v4_q_apply (Gen.V0 m c) k (colHD h d)
  · exact hostOps0_v6_q_apply (Gen.V0 m c) (colHD h d)

theorem k_stage (c : Dev nD) (n : Fin 2) (h : Fin 16) (s : Fin 2048) (d : Fin 64) :
    (W3 m c main_v16 : S32x2048x64.Idx → EReal) (ix3 (bhNH n h) s d)
      = Cert.ReferenceIdeal.Read.val_main_v11 (F := Ideal) (m ((c : Thread nD τ).loc main_arg0)) (m ((c : Thread nD τ).loc main_arg3)) (m ((c : Thread nD τ).loc main_arg4)) (ix4 n h s d) := by
  unfold W3
  refine (hostOps1_v16_apply (W2 m c) n h s d).trans ?_
  rw [W2_self, proj_entry, ref_v11_apply, ref_v9_apply]
  unfold linC
  refine congrArg₂ (fun a b : EReal => a + b) (Finset.sum_congr rfl fun k _ => congrArg₂ (fun a b : EReal => a * b) ?_ ?_) ?_
  · exact hostOps0_v0_apply (Gen.V0 m c) n s k
  · exact hostOps0_v4_k_apply (Gen.V0 m c) k (colHD h d)
  · exact hostOps0_v6_k_apply (Gen.V0 m c) (colHD h d)

theorem v_stage (c : Dev nD) (n : Fin 2) (h : Fin 16) (s : Fin 2048) (d : Fin 64) :
    (W3 m c main_v19 : S32x2048x64.Idx → EReal) (ix3 (bhNH n h) s d)
      = Cert.ReferenceIdeal.Read.val_main_v17 (F := Ideal) (m ((c : Thread nD τ).loc main_arg0)) (m ((c : Thread nD τ).loc main_arg5)) (m ((c : Thread nD τ).loc main_arg6)) (ix4 n h s d) := by
  unfold W3
  refine (hostOps1_v19_apply (W2 m c) n h s d).trans ?_
  rw [W2_self, proj_entry, ref_v17_apply, ref_v15_apply]
  unfold linC
  refine congrArg₂ (fun a b : EReal => a + b) (Finset.sum_congr rfl fun k _ => congrArg₂ (fun a b : EReal => a * b) ?_ ?_) ?_
  · exact hostOps0_v0_apply (Gen.V0 m c) n s k
  · exact hostOps0_v4_v_apply (Gen.V0 m c) k (colHD h d)
  · exact hostOps0_v6_v_apply (Gen.V0 m c) (colHD h d)

end Cert.KernelIdeal.Run

end
-- ==== Proof.AttnDefs.lean ====
/-
  The attention region's values as plain functions of one query row: the scaled, causally masked scores of the
  row against every key, the row's maximum, the exponentials of the differences, their sum, the normalised
  weights, and the weighted sum of the value rows. Both programs compute exactly these (no sum is re-associated,
  both take softmax as exp (s - max) / sum), so the kernel's payloads and the reference's stages are stated
  against the same definitions.
-/
import Idealize.ShloMosaic.PureOps.Ideal
import Idealize.ShloMosaic.Lib.ValueIdx
import Idealize.ShloMosaic.Lib.Affine

noncomputable section

namespace Cert.Val.Attn

open Idealize.ShloMosaic Idealize.ShloMosaic.ValueIdx

/-- The score of the query row `q` (its 64 head coordinates), sitting at sequence position `pos`, against key
    `k` of the head's key rows `K`: the dot product over the head dimension times the scale word `0x3E000000`
    (the f32 pattern of 1/8), kept where the key is not after the query (`k ≤ pos`) and `⊥` elsewhere. -/
def score (q : Fin 64 → EReal) (K : Fin 2048 → Fin 64 → EReal) (pos : ℕ) (k : Fin 2048) : EReal :=
  if k.val ≤ pos then (∑ d : Fin 64, q d * K k d) * Ideal.ofBits .f32 0x3E000000#32 else ⊥

/-- A row's maximum over the 2048 keys, as the fold of `max` from `⊥`. -/
def rowMax (f : Fin 2048 → EReal) : EReal := (Finset.univ : Finset (Fin 2048)).fold max ⊥ f

/-- The exponential of a score's distance below the row's maximum. -/
def pexp (f : Fin 2048 → EReal) (k : Fin 2048) : EReal := Ideal.exp (f k - rowMax f)

/-- The row's normaliser: the sum of those exponentials over the keys. -/
def lsum (f : Fin 2048 → EReal) : EReal := ∑ k : Fin 2048, pexp f k

/-- The attention weight of key `k` in the row: its exponential over the normaliser. -/
def weight (f : Fin 2048 → EReal) (k : Fin 2048) : EReal := Ideal.div (pexp f k) (lsum f)

/-- The row's output at one head coordinate: the weights against that coordinate of the value rows. -/
def attnOut (f : Fin 2048 → EReal) (V : Fin 2048 → EReal) : EReal := ∑ k : Fin 2048, weight f k * V k

/-! ## Words the mask is made of -/

/-- A natural below 2³¹, as a 32-bit word read signed, is itself. -/
theorem toInt_ofNat_small (a : ℕ) (ha : a < 2 ^ 31) : (BitVec.ofNat 32 a).toInt = (a : Int) := by
  rw [BitVec.toInt_ofNat']
  exact Int.bmod_eq_of_le (by omega) (by omega)

/-- The signed comparison `≥` of the words of two naturals below 2³¹ is the order of the naturals. -/
theorem sge_words (a b : ℕ) (ha : a < 2 ^ 31) (hb : b < 2 ^ 31) :
    IntOp.cmpi .sge (BitVec.ofNat 32 a) (BitVec.ofNat 32 b) = if b ≤ a then 1#1 else 0#1 := by
  by_cases h : b ≤ a
  · rw [if_pos h]
    exact IntOp.cmpi_sge.mpr (by rw [toInt_ofNat_small a ha, toInt_ofNat_small b hb]; exact_mod_cast h)
  · rw [if_neg h]
    refine eq_zero_of_ne_one fun h1 => h ?_
    have := IntOp.cmpi_sge.mp h1
    rw [toInt_ofNat_small a ha, toInt_ofNat_small b hb] at this
    exact_mod_cast this

/-- The f32 pattern of `-∞` denotes `⊥`. -/
theorem negInf : Ideal.ofBits .f32 0xFF800000#32 = (⊥ : EReal) := by simp [Ideal.ofBits, Ideal.ieee]

end Cert.Val.Attn

end
-- ==== Proof.AttnPay.lean ====
/-
  The attention kernel's two stored values read at an index, at the ideal values. For the grid point `i` (its second
  coordinate the query tile), the loaded query block `v0` [1,256,64] and key and value blocks `v2`, `v4` [1,2048,64]:
  the weights block at (0, r, k) is the softmax weight (`Attn.weight`) of key `k` in the row of masked scores of query
  row `r`, whose sequence position is 256 · (i 1) + r (`k1_pay2_apply`), and the output block at (0, r, d) is that row's
  weights against coordinate `d` of the value rows (`k1_pay3_apply`). Every contraction is taken whole over its axis,
  so each is the `Fin`-indexed sum; the mask's integer words never wrap (256 · 7 + 255 < 2³¹).
-/
import proofs.«145827_j85126251807436_2_alg».proof.Proof.Gen.KernelIdeal.Skeleton
import proofs.«145827_j85126251807436_2_alg».proof.Proof.AttnDefs
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section
namespace Cert.Val.Attn
open Idealize.ShloMosaic Idealize.ShloMosaic.ValueIdx Cert.KernelIdeal Cert.KernelIdeal.Gen

/-! ## A per-row vector spread over the row, and the two lane reductions -/

/-- A [256] vector viewed [256,1] and broadcast along the 2048 lanes reads, at (r, k), its entry at r. -/
theorem colBroadcast_apply {α : Type} (x : S256.Idx → α) (h1 : S256.ShapeCasts S256x1) (h2 : S256x1.Broadcasts S256x2048)
    (r : Fin 256) (k : Fin 2048) :
    broadcastTo S256x2048 (shapeCast S256x1 x h1) h2 (ix2 r k) = x (ix1 r) := by
  refine (broadcastTo_apply _ h2 (ix2 r k) (ix2 r (0 : Fin 1)) fun a => ?_).trans ?_
  · match a with
    | ⟨0, _⟩ => show r.val = if (256 : ℕ) = 1 then 0 else r.val; rw [if_neg (by decide)]
    | ⟨1, _⟩ => show 0 = if (1 : ℕ) = 1 then 0 else k.val; rw [if_pos rfl]
  · refine shapeCast_apply x h1 (ix2 r (0 : Fin 1)) (ix1 r) ?_
    rw [Shape.rowMajor_val_one, Shape.rowMajor_val_two]
    show r.val = r.val * 1 + 0
    omega

/-- The lane maximum of a [256,2048] block from the `-∞` word, at row r: the row's maximum over its 2048 entries.
    (The accumulator's side condition is typed as the program's term carries it.) -/
theorem laneMax_apply (S : FVec Ideal S256x2048 .f32) (h : S256x2048.Reduces [1] S256) (hφ : FKind.Formats .f32)
    (hacc : (0xFF800000#32 : BitVec 32) = 0xFF800000#32) (r : Fin 256) :
    multiReduction .maximumf [1] S256 S 0xFF800000#32 h hφ hacc (ix1 r) = rowMax (fun k => S (ix2 r k)) := by
  refine (Ideal.multiReduction_maximumf_single S _ h hφ hacc (ix1 r)).trans ?_
  unfold rowMax
  have e : (S ∘ h.lift (ix1 r)) = fun k : Fin 2048 => S (ix2 r k) :=
    funext fun k => congrArg S (funext fun a => Fin.ext (by match a with | ⟨0, _⟩ => rfl | ⟨1, _⟩ => rfl))
  show (Finset.univ : Finset (Fin 2048)).fold max (Ideal.ofBits .f32 0xFF800000#32) (S ∘ h.lift (ix1 r)) = _
  rw [e, negInf]
  rfl

/-- The lane sum of a [256,2048] block from the zero word, at row r: the sum of the row's 2048 entries. -/
theorem laneSum_apply (P : FVec Ideal S256x2048 .f32) (h : S256x2048.Reduces [1] S256) (hφ : FKind.Formats .f32)
    (hacc : (0x00000000#32 : BitVec 32) = 0x00000000#32) (r : Fin 256) :
    multiReduction .add [1] S256 P 0x00000000#32 h hφ hacc (ix1 r) = ∑ k : Fin 2048, P (ix2 r k) := by
  refine (Ideal.multiReduction_add_single P _ h hφ hacc (ix1 r)).trans ?_
  show ∑ k : Fin 2048, P (h.lift (ix1 r) k) = _
  refine Finset.sum_congr rfl fun k _ => congrArg P (funext fun a => Fin.ext (by match a with | ⟨0, _⟩ => rfl | ⟨1, _⟩ => rfl))

/-! ## The scores' contraction: query rows against key rows over the head dimension -/

/-- The dot's left operand is read at the output's row … -/

theorem qk_lhs0 (j : S256x2048.Idx) (q : dot_S256x64_S2048x64_S256x2048_1_1_0_0_n_n.contr.Idx) :
    (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
/-- … and its right operand at the output's column (both operands contract their second axis). -/
theorem qk_rhs0 (j : S256x2048.Idx) (q : dot_S256x64_S2048x64_S256x2048_1_1_0_0_n_n.contr.Idx) :
    (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl

/-- The product of a [256,64] block with the transpose of a [2048,64] block into the zero block, at (r, k): the sum over
    the 64 head coordinates of row r of the first times row k of the second. -/
theorem qk_apply (a : FVec Ideal S256x64 .bf16) (b : FVec Ideal S2048x64 .bf16) (r : Fin 256) (k : Fin 2048) :
    matmul dot_S256x64_S2048x64_S256x2048_1_1_0_0_n_n none a b (constant S256x2048 .f32 0x00000000#32) (ix2 r k)
      = ∑ d : Fin 64, a (ix2 r d) * b (ix2 k d) := by
  simp only [matmul]
  rw [Ideal.matmul_constant_zero_apply, ← Equiv.sum_comp (contrEquiv1 dot_S256x64_S2048x64_S256x2048_1_1_0_0_n_n 64 rfl rfl).symm]
  refine Finset.sum_congr rfl fun d _ => ?_
  have hk := contrEquiv1_symm_val dot_S256x64_S2048x64_S256x2048_1_1_0_0_n_n 64 rfl rfl d
  have el : dot_S256x64_S2048x64_S256x2048_1_1_0_0_n_n.lhsIdx (ix2 r k) ((contrEquiv1 dot_S256x64_S2048x64_S256x2048_1_1_0_0_n_n 64 rfl rfl).symm d) = ix2 r d := funext fun a => Fin.ext (by
    match a with
    | ⟨0, _⟩ => exact qk_lhs0 _ _
    | ⟨1, _⟩ => exact (dot_S256x64_S2048x64_S256x2048_1_1_0_0_n_n.lhsIdx_val_of_single rfl _ _).trans hk)
  have er : dot_S256x64_S2048x64_S256x2048_1_1_0_0_n_n.rhsIdx (ix2 r k) ((contrEquiv1 dot_S256x64_S2048x64_S256x2048_1_1_0_0_n_n 64 rfl rfl).symm d) = ix2 k d := funext fun a => Fin.ext (by
    match a with
    | ⟨0, _⟩ => exact qk_rhs0 _ _
    | ⟨1, _⟩ => exact (dot_S256x64_S2048x64_S256x2048_1_1_0_0_n_n.rhsIdx_val_of_single rfl _ _).trans hk)
  rw [el, er]

/-! ## The masked, scaled score block -/

/-- The kernel's masked, scaled score block, as the program writes it. -/
def kScore (i : grid1.Coords) (v0 : Vec Ideal S1x256x64 .bf16) (v2 : Vec Ideal S1x2048x64 .bf16) : FVec Ideal S256x2048 .f32 :=
  select
    (cmpi .sge
      (addi (broadcast S256x2048 (Scalar.muli (BitVec.ofNat 32 (i 1).val) 256#32)) (iota .tc S256x2048 32 [0] iota_S256x2048_d0_w32))
      (iota .tc S256x2048 32 [1] iota_S256x2048_d1_w32))
    (mulf
      (matmul dot_S256x64_S2048x64_S256x2048_1_1_0_0_n_n none (shapeCast S256x64 v0 shapeCasts_S1x256x64_S256x64 : FVec Ideal S256x64 .bf16)
        (shapeCast S2048x64 v2 shapeCasts_S1x2048x64_S2048x64 : FVec Ideal S2048x64 .bf16) (constant S256x2048 .f32 0x00000000#32))
      (broadcast S256x2048 (Scalar.ofBits .f32 0x3E000000#32)))
    (broadcast S256x2048 (Named.named κ "neg_big" 0xF149F2CA#32))

/-- The named mask constant denotes `⊥` at the ideal values, by the certificate's table. -/
theorem negBig : Named.named (F := Ideal) κ "neg_big" (φ := .f32) 0xF149F2CA#32 = (⊥ : EReal) :=
  IdealRules.named_const.ideal_named_scalar _ _ _ _ rfl

/-- The mask word at (r, k): query position 256 · (i 1) + r against key position k, compared signed; no word wraps,
    so it is the comparison of the naturals. -/
theorem kMask_apply (i : grid1.Coords) (r : Fin 256) (k : Fin 2048) :
    cmpi .sge
      (addi (broadcast S256x2048 (Scalar.muli (BitVec.ofNat 32 (i 1).val) 256#32)) (iota .tc S256x2048 32 [0] iota_S256x2048_d0_w32))
      (iota .tc S256x2048 32 [1] iota_S256x2048_d1_w32) (ix2 r k)
      = if k.val ≤ (i 1).val * 256 + r.val then 1#1 else 0#1 := by
  have h8 : (i 1).val < 8 := (i 1).isLt
  show IntOp.cmpi .sge (IntOp.addi (Scalar.muli (BitVec.ofNat 32 (i 1).val) 256#32) (iota .tc S256x2048 32 [0] iota_S256x2048_d0_w32 (ix2 r k)))
    (iota .tc S256x2048 32 [1] iota_S256x2048_d1_w32 (ix2 r k)) = _
  rw [iota_single_apply, iota_single_apply]
  show IntOp.cmpi .sge (IntOp.addi (Scalar.muli (BitVec.ofNat 32 (i 1).val) 256#32) (BitVec.ofNat 32 r.val)) (BitVec.ofNat 32 k.val) = _
  have hw : IntOp.addi (Scalar.muli (BitVec.ofNat 32 (i 1).val) 256#32) (BitVec.ofNat 32 r.val) = BitVec.ofNat 32 ((i 1).val * 256 + r.val) := by
    unfold IntOp.addi Scalar.muli IntOp.muli
    rw [BitVec.ofNat_add, BitVec.ofNat_mul]
  rw [hw]
  exact sge_words _ _ (by omega) (by omega)

/-- The score block at (r, k) is the masked, scaled score of query row r (at position 256 · (i 1) + r) against key k. -/
theorem kScore_apply (i : grid1.Coords) (v0 : Vec Ideal S1x256x64 .bf16) (v2 : Vec Ideal S1x2048x64 .bf16) (r : Fin 256) (k : Fin 2048) :
    kScore i v0 v2 (ix2 r k)
      = score (fun d => v0 (ix3 (0 : Fin 1) r d)) (fun k' d => v2 (ix3 (0 : Fin 1) k' d)) ((i 1).val * 256 + r.val) k := by
  unfold kScore score
  rw [select_apply, kMask_apply, mulf_apply, broadcast_apply, broadcast_apply, qk_apply, negBig]
  have e : (∑ d : Fin 64, (shapeCast S256x64 v0 shapeCasts_S1x256x64_S256x64 : FVec Ideal S256x64 .bf16) (ix2 r d)
        * (shapeCast S2048x64 v2 shapeCasts_S1x2048x64_S2048x64 : FVec Ideal S2048x64 .bf16) (ix2 k d))
      = ∑ d : Fin 64, v0 (ix3 (0 : Fin 1) r d) * v2 (ix3 (0 : Fin 1) k d) :=
    Finset.sum_congr rfl fun d _ => by rw [shapeCast_1ab_ab_apply, shapeCast_1ab_ab_apply]
  rw [e]
  by_cases hle : k.val ≤ (i 1).val * 256 + r.val
  · rw [if_pos hle, if_pos hle, select_one]; rfl
  · rw [if_neg hle, if_neg hle, select_zero]

/-! ## The row softmax of a score block -/

/-- The kernel's row softmax of a score block, as the program writes it: lane maximum, exponentials of the differences,
    lane sum, quotient. -/
def kSoftmax (S : FVec Ideal S256x2048 .f32) : FVec Ideal S256x2048 .f32 :=
  have v17 : FVec Ideal S256 .f32 := multiReduction .maximumf [1] S256 S 0xFF800000#32 reduces_S256x2048_S256 (.inl rfl) rfl
  have v18 : FVec Ideal S256x1 .f32 := shapeCast S256x1 v17 shapeCasts_S256_S256x1
  have v19 : FVec Ideal S256x2048 .f32 := broadcastTo S256x2048 v18 broadcasts_S256x1_S256x2048
  have v20 : FVec Ideal S256x2048 .f32 := subf S v19
  have v21 : FVec Ideal S256x2048 .f32 := exp v20
  have v22 : FVec Ideal S256 .f32 := multiReduction .add [1] S256 v21 0x00000000#32 reduces_S256x2048_S256 (.inl rfl) rfl
  have v23 : FVec Ideal S256x1 .f32 := shapeCast S256x1 v22 shapeCasts_S256_S256x1
  have v24 : FVec Ideal S256x2048 .f32 := broadcastTo S256x2048 v23 broadcasts_S256x1_S256x2048
  divf v21 v24

/-- The program's row softmax of a block `S` at (r, k) is the softmax weight of entry k in row r of `S`. -/
theorem kSoftmax_apply (S : FVec Ideal S256x2048 .f32) (r : Fin 256) (k : Fin 2048) :
    kSoftmax S (ix2 r k) = weight (fun k' => S (ix2 r k')) k := by
  unfold kSoftmax weight lsum pexp
  rw [divf_apply, colBroadcast_apply, laneSum_apply]
  have hp : ∀ k' : Fin 2048, exp (subf S (broadcastTo S256x2048 (shapeCast S256x1
        (multiReduction .maximumf [1] S256 S 0xFF800000#32 reduces_S256x2048_S256 (.inl rfl) rfl) shapeCasts_S256_S256x1)
        broadcasts_S256x1_S256x2048)) (ix2 r k') = Ideal.exp (S (ix2 r k') - rowMax fun k'' => S (ix2 r k'')) := fun k' => by
    show Ideal.exp (S (ix2 r k') - broadcastTo S256x2048 (shapeCast S256x1
        (multiReduction .maximumf [1] S256 S 0xFF800000#32 reduces_S256x2048_S256 (.inl rfl) rfl) shapeCasts_S256_S256x1)
        broadcasts_S256x1_S256x2048 (ix2 r k')) = _
    rw [colBroadcast_apply, laneMax_apply]
  rw [hp k]
  exact congrArg (Ideal.div _) (Finset.sum_congr rfl fun k' _ => hp k')

/-- The kernel's weights payload is the program's row softmax of the program's score block (the same term, named). -/
theorem k1_pay1_eq (i : grid1.Coords) (v0 : Vec Ideal S1x256x64 .bf16) (v2 : Vec Ideal S1x2048x64 .bf16) :
    k1_pay1 (F := Ideal) i v0 v2 = kSoftmax (kScore i v0 v2) := rfl

/-- The weights block of grid point `i` at row `r`, key `k`: the softmax weight of the row's masked scores. -/
theorem k1_pay1_apply (i : grid1.Coords) (v0 : Vec Ideal S1x256x64 .bf16) (v2 : Vec Ideal S1x2048x64 .bf16) (r : Fin 256) (k : Fin 2048) :
    k1_pay1 (F := Ideal) i v0 v2 (ix2 r k)
      = weight (score (fun d => v0 (ix3 (0 : Fin 1) r d)) (fun k' d => v2 (ix3 (0 : Fin 1) k' d)) ((i 1).val * 256 + r.val)) k := by
  rw [k1_pay1_eq, kSoftmax_apply]
  exact congrArg (fun f => weight f k) (funext fun k' => kScore_apply i v0 v2 r k')

/-- The same through the stored block's leading unit axis. -/
theorem k1_pay2_apply (i : grid1.Coords) (v0 : Vec Ideal S1x256x64 .bf16) (v2 : Vec Ideal S1x2048x64 .bf16) (r : Fin 256) (k : Fin 2048) :
    k1_pay2 (F := Ideal) i v0 v2 (ix3 (0 : Fin 1) r k)
      = weight (score (fun d => v0 (ix3 (0 : Fin 1) r d)) (fun k' d => v2 (ix3 (0 : Fin 1) k' d)) ((i 1).val * 256 + r.val)) k := by
  unfold k1_pay2
  rw [shapeCast_ab_1ab_apply, k1_pay1_apply]

/-! ## The weights against the value rows -/

/-- The dot's left operand is read at the output's row … -/

theorem pv_lhs0 (j : S256x64.Idx) (q : dot_S256x2048_S2048x64_S256x64_1_0_0_1_n_n.contr.Idx) :
    (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
/-- … and its right operand at the output's column. -/
theorem pv_rhs1 (j : S256x64.Idx) (q : dot_S256x2048_S2048x64_S256x64_1_0_0_1_n_n.contr.Idx) :
    (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The product of a [256,2048] block with a [2048,64] block into the zero block, at (r, d): the sum over the 2048 keys. -/
theorem pv_apply (a : FVec Ideal S256x2048 .bf16) (b : FVec Ideal S2048x64 .bf16) (r : Fin 256) (d : Fin 64) :
    matmul dot_S256x2048_S2048x64_S256x64_1_0_0_1_n_n none a b (constant S256x64 .f32 0x00000000#32) (ix2 r d)
      = ∑ k : Fin 2048, a (ix2 r k) * b (ix2 k d) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k := funext fun a => Fin.ext (by
    match a with
    | ⟨0, _⟩ => exact pv_lhs0 _ _
    | ⟨1, _⟩ => exact (dot_S256x2048_S2048x64_S256x64_1_0_0_1_n_n.lhsIdx_val_of_single rfl _ _).trans hk)
  have er : dot_S256x2048_S2048x64_S256x64_1_0_0_1_n_n.rhsIdx (ix2 r d) ((contrEquiv1 dot_S256x2048_S2048x64_S256x64_1_0_0_1_n_n 2048 rfl rfl).symm k) = ix2 k d := funext fun a => Fin.ext (by
    match a with
    | ⟨0, _⟩ => exact (dot_S256x2048_S2048x64_S256x64_1_0_0_1_n_n.rhsIdx_val_of_single rfl _ _).trans hk
    | ⟨1, _⟩ => exact pv_rhs1 _ _)
  rw [el, er]

/-- The output block of grid point `i` at row `r`, head coordinate `d`: the row's weights against the value rows. -/
theorem k1_pay3_apply (i : grid1.Coords) (v0 : Vec Ideal S1x256x64 .bf16) (v2 v4 : Vec Ideal S1x2048x64 .bf16) (r : Fin 256) (d : Fin 64) :
    k1_pay3 (F := Ideal) i v0 v2 v4 (ix3 (0 : Fin 1) r d)
      = attnOut (score (fun d' => v0 (ix3 (0 : Fin 1) r d')) (fun k' d' => v2 (ix3 (0 : Fin 1) k' d')) ((i 1).val * 256 + r.val))
          (fun k' => v4 (ix3 (0 : Fin 1) k' d)) := by
  unfold k1_pay3 attnOut
  rw [shapeCast_ab_1ab_apply, truncf_apply, pv_apply]
  refine Finset.sum_congr rfl fun k _ => ?_
  rw [truncf_apply, shapeCast_1ab_ab_apply, k1_pay1_apply]

end Cert.Val.Attn
end
-- ==== Proof.AttnRef.lean ====
/-
  The reference's attention stages read at an index, at the ideal values, against the definitions of AttnDefs. The mask
  word at (n, h, i, j) is the comparison j ≤ i of the two sequence positions (the lower triangle, spread over batch and
  head); the masked, scaled score there is `Attn.score` of the query stage's row (n, h, i) against the key stage's rows
  (n, h, ·), with `⊥` (the `-∞` word) above the diagonal; the row maximum is the fold of `max` from `⊥` over the row (the
  further maximum with the `-∞` splat changes nothing: max ⊥ x = x); the exponentials, their sum from the zero word and
  the quotient are `pexp`, `lsum`, `weight`; and the output is the weights against the value stage's rows, `attnOut`.
-/
import proofs.«145827_j85126251807436_2_alg».proof.Proof.Gen.ReferenceIdeal.Read
import proofs.«145827_j85126251807436_2_alg».proof.Proof.AttnDefs
import Idealize.ShloMosaic.Lib.Pipeline.Value
import Idealize.ShloMosaic.Lib.ValueIdx
import Idealize.ShloMosaic.Lib.Affine
import Idealize.ShloMosaic.PureOps.Ideal.Laws

noncomputable section
namespace Cert.Val.Attn
open Idealize.ShloMosaic Idealize.ShloMosaic.ValueIdx Cert.ReferenceIdeal Cert.ReferenceIdeal.Gen Cert.ReferenceIdeal.Read

/-! ## the causal mask -/

/-- The mask at (n, h, i, j): row position i against column position j, compared signed; neither word wraps. -/
theorem refMask_apply (n : Fin 2) (h : Fin 16) (i j : Fin 2048) :
    val_main_call1_v1 (F := Ideal) (ix4 n h i j) = if j.val ≤ i.val then 1#1 else 0#1 := by
  rw [val_main_call1_v1_apply, val_main_v23_apply, val_main_v22_apply, val_main_call0_v4_apply, val_main_call0_v2_apply,
    val_main_call0_v0_apply, val_main_call0_v1_apply, val_main_call0_c_apply, val_main_call0_v3_apply, val_main_v21_apply,
    val_main_c_apply, val_main_call0_v5_apply, val_main_call0_c_0_apply]
  show Scalar.select (IntOp.cmpi .sge (IntOp.addi (BitVec.ofNat 32 i.val) 0#32) (BitVec.ofNat 32 j.val)) 1#1 0#1 = _
  have hw : IntOp.addi (BitVec.ofNat 32 i.val) 0#32 = BitVec.ofNat 32 i.val := by
    unfold IntOp.addi; exact BitVec.add_zero _
  rw [hw, sge_words _ _ (by omega) (by omega)]
  by_cases hle : j.val ≤ i.val
  · rw [if_pos hle, select_one]
  · rw [if_neg hle, select_zero]

/-! ## the masked scores -/

/-- The masked score at (n, h, i, j) is the score of the query stage's row (n, h, i) against the key stage's rows (n, h, ·). -/
theorem refScore_apply (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 2) (h : Fin 16) (i j : Fin 2048) :
    val_main_v24 (F := Ideal) x0 x1 x2 x3 x4 (ix4 n h i j)
      = score (fun d => val_main_v5 (F := Ideal) x0 x1 x2 (ix4 n h i d)) (fun k d => val_main_v11 (F := Ideal) x0 x3 x4 (ix4 n h k d)) i.val j := by
  rw [val_main_v24_apply, refMask_apply, val_main_v20_apply, val_main_v18_apply, val_main_v19_apply, val_main_cst_apply,
    val_main_call1_v2_apply, val_main_call1_v0_apply, val_main_cst_0_apply]
  generalize val_main_v5 (F := Ideal) x0 x1 x2 = Q
  generalize val_main_v11 (F := Ideal) x0 x3 x4 = K
  unfold score
  have hl : ∀ d : Fin 64, lidx_main_v18 (ix4 n h i j) d = ix4 n h i d := fun d => funext fun a => Fin.ext (by
    match a with | ⟨0, _⟩ => rfl | ⟨1, _⟩ => rfl | ⟨2, _⟩ => rfl | ⟨3, _⟩ => rfl)
  have hr : ∀ d : Fin 64, ridx_main_v18 (ix4 n h i j) d = ix4 n h j d := fun d => funext fun a => Fin.ext (by
    match a with | ⟨0, _⟩ => rfl | ⟨1, _⟩ => rfl | ⟨2, _⟩ => rfl | ⟨3, _⟩ => rfl)
  simp only [hl, hr, Ideal.mulf_def, Ideal.ofBits_def, negInf]
  by_cases hle : j.val ≤ i.val
  · rw [if_pos hle, if_pos hle, select_one]
  · rw [if_neg hle, if_neg hle, select_zero]

/-! ## the row maximum -/

/-- The host's reduce with a maximum body over the last axis of a [2,16,2048,2048] array, from an initial value that
    denotes `⊥`, at (n, h, i): the row's maximum over its 2048 entries. -/
theorem hostRowMax_apply (Y : FVec Ideal S2x16x2048x2048 .f32) (init : FVec Ideal S_ .f32)
    (hinit : init (Shape.Idx.first h_S_) = (⊥ : EReal)) (n : Fin 2) (h : Fin 16) (i : Fin 2048) :
    Host.reduce FloatOps.maximumf Y init reducesTo_S2x16x2048x2048_S2x16x2048_d3 h_S_ (ix3 n h i)
      = rowMax (fun j => Y (ix4 n h i j)) := by
  have hred : S2x16x2048x2048.Reduces [3] S2x16x2048 := by decide
  rw [Host.reduce_eq_fold_single FloatOps.maximumf Y _ reducesTo_S2x16x2048x2048_S2x16x2048_d3 hred h_S_]
  unfold rowMax
  have e : (Y ∘ hred.lift (ix3 n h i)) = fun j : Fin 2048 => Y (ix4 n h i j) :=
    funext fun j => congrArg Y (funext fun a => Fin.ext (by
      match a with | ⟨0, _⟩ => rfl | ⟨1, _⟩ => rfl | ⟨2, _⟩ => rfl | ⟨3, _⟩ => rfl))
  show (Finset.univ : Finset (Fin 2048)).fold max (init (Shape.Idx.first h_S_)) (Y ∘ hred.lift (ix3 n h i)) = _
  rw [e, hinit]
  rfl

/-- The row maximum stage at (n, h, i): the maximum of the row's masked scores. -/
theorem refRowMax_apply (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 2) (h : Fin 16) (i : Fin 2048) :
    val_main_v27 (F := Ideal) x0 x1 x2 x3 x4 (ix3 n h i)
      = rowMax (fun j => val_main_v24 (F := Ideal) x0 x1 x2 x3 x4 (ix4 n h i j)) := by
  rw [val_main_v27_apply, val_main_v26_apply, val_main_cst_2_apply]
  unfold val_main_v25
  generalize val_main_v24 (F := Ideal) x0 x1 x2 x3 x4 = Y
  rw [hostRowMax_apply Y _ (by rw [val_main_cst_1_apply]; exact negInf)]
  show max (Ideal.ofBits .f32 0xFF800000#32) _ = _
  rw [negInf]
  exact max_eq_right bot_le

/-! ## the exponentials, their sum, the weights -/

/-- The exponential stage at (n, h, i, j): the exponential of the score's distance below the row's maximum. -/
theorem refExp_apply (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 2) (h : Fin 16) (i j : Fin 2048) :
    val_main_v31 (F := Ideal) x0 x1 x2 x3 x4 (ix4 n h i j)
      = pexp (fun j' => val_main_v24 (F := Ideal) x0 x1 x2 x3 x4 (ix4 n h i j')) j := by
  rw [val_main_v31_apply, val_main_v30_apply, val_main_v29_apply, val_main_v28_apply]
  have hidx : idx_main_v28 (idx_main_v29 (ix4 n h i j)) = ix3 n h i := funext fun a => Fin.ext (by
    match a with | ⟨0, _⟩ => rfl | ⟨1, _⟩ => rfl | ⟨2, _⟩ => rfl)
  rw [hidx, refRowMax_apply]
  rfl

/-- The normaliser, spread back over the row, at (n, h, i, j): the sum of the row's exponentials. -/
theorem refSum_apply (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 2) (h : Fin 16) (i j : Fin 2048) :
    val_main_v34 (F := Ideal) x0 x1 x2 x3 x4 (ix4 n h i j)
      = lsum (fun j' => val_main_v24 (F := Ideal) x0 x1 x2 x3 x4 (ix4 n h i j')) := by
  rw [val_main_v34_apply, val_main_v33_apply]
  have hidx : idx_main_v33 (idx_main_v34 (ix4 n h i j)) = ix3 n h i := funext fun a => Fin.ext (by
    match a with | ⟨0, _⟩ => rfl | ⟨1, _⟩ => rfl | ⟨2, _⟩ => rfl)
  rw [hidx, val_main_v32_apply, val_main_cst_3_apply]
  unfold lsum
  show Ideal.ofBits .f32 0x00000000#32 + _ = _
  rw [Ideal.ofBits_zero_f32, zero_add]
  refine Finset.sum_congr rfl fun k _ => ?_
  have hk : idx_main_v32 (ix3 n h i) k = ix4 n h i k := funext fun a => Fin.ext (by
    match a with | ⟨0, _⟩ => rfl | ⟨1, _⟩ => rfl | ⟨2, _⟩ => rfl | ⟨3, _⟩ => rfl)
  rw [hk, refExp_apply]

/-- The reference's attention weights at (n, h, i, j): the softmax weight of key j in the row of masked scores of the
    query stage's row (n, h, i) against the key stage's rows (n, h, ·). -/
theorem refWeights_apply (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 2) (h : Fin 16) (i j : Fin 2048) :
    val_main_v35 (F := Ideal) x0 x1 x2 x3 x4 (ix4 n h i j)
      = weight (score (fun d => val_main_v5 (F := Ideal) x0 x1 x2 (ix4 n h i d)) (fun k d => val_main_v11 (F := Ideal) x0 x3 x4 (ix4 n h k d)) i.val) j := by
  rw [val_main_v35_apply, refExp_apply, refSum_apply]
  have hf : (fun j' => val_main_v24 (F := Ideal) x0 x1 x2 x3 x4 (ix4 n h i j'))
      = score (fun d => val_main_v5 (F := Ideal) x0 x1 x2 (ix4 n h i d)) (fun k d => val_main_v11 (F := Ideal) x0 x3 x4 (ix4 n h k d)) i.val :=
    funext fun j' => refScore_apply x0 x1 x2 x3 x4 n h i j'
  rw [hf]
  rfl

/-! ## the weights against the value rows -/

/-- The reference's attention output at (n, h, i, d): row (n, h, i)'s weights against coordinate d of the value stage's
    rows (n, h, ·). -/
theorem refOut_apply (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal))
    (x5 : (⟨S1024x1024, .f32⟩ : BufTy).Contents (Elt Ideal)) (x6 : (⟨S1024, .f32⟩ : BufTy).Contents (Elt Ideal)) (n : Fin 2) (h : Fin 16) (i : Fin 2048) (d : Fin 64) :
    val_main_v36 (F := Ideal) x0 x1 x2 x3 x4 x5 x6 (ix4 n h i d)
      = attnOut (score (fun d' => val_main_v5 (F := Ideal) x0 x1 x2 (ix4 n h i d')) (fun k d' => val_main_v11 (F := Ideal) x0 x3 x4 (ix4 n h k d')) i.val)
          (fun k => val_main_v17 (F := Ideal) x0 x5 x6 (ix4 n h k d)) := by
  rw [val_main_v36_apply]
  unfold attnOut
  refine Finset.sum_congr rfl fun k _ => ?_
  have hl : lidx_main_v36 (ix4 n h i d) k = ix4 n h i k := funext fun a => Fin.ext (by
    match a with | ⟨0, _⟩ => rfl | ⟨1, _⟩ => rfl | ⟨2, _⟩ => rfl | ⟨3, _⟩ => rfl)
  have hr : ridx_main_v36 (ix4 n h i d) k = ix4 n h k d := funext fun a => Fin.ext (by
    match a with | ⟨0, _⟩ => rfl | ⟨1, _⟩ => rfl | ⟨2, _⟩ => rfl | ⟨3, _⟩ => rfl)
  rw [hl, hr, refWeights_apply]

end Cert.Val.Attn
end
-- ==== Proof.IdealValueAttn.lean ====
import proofs.«145827_j85126251807436_2_alg».proof.Proof.IdealRun
import proofs.«145827_j85126251807436_2_alg».proof.Proof.IdealFinal1
import proofs.«145827_j85126251807436_2_alg».proof.Proof.IdealValueQKV
import proofs.«145827_j85126251807436_2_alg».proof.Proof.AttnPay
import proofs.«145827_j85126251807436_2_alg».proof.Proof.AttnRef
import proofs.«145827_j85126251807436_2_alg».proof.Proof.LinIdx

/-!
  The two arrays the attention region leaves, at the extended reals, against the reference's attention stages. Entry
  (n·16 + h, i, ·) of either array is written by the grid point that handles head-and-batch n·16 + h and the tile
  i / 256 of query rows, from row i mod 256 of its tile; the query row and the key and value rows it is handed are the
  reference's projection stages' rows (n, h, ·), and the sequence position it masks by, 256 · (i / 256) + i mod 256, is i.
  So the body's row of masked scores is the reference's, and with it the softmax weights and their product with the
  value rows: both sides are the same functions (score, weight, attnOut) of the same rows.
-/

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Cert.Val.Lin Cert.Val.Attn
open scoped BigOperators

variable (m : (ℓ : Loc nD τ sig) → Buf (Elt Ideal) ℓ)

/-! ## Where a row sits in the grid -/

/-- The tile of 256 query rows that row i lies in, -/
def vaTile (i : Fin 2048) : Fin 8 := ⟨i.val / 256, by have := i.isLt; omega⟩
/-- and its row inside the tile. -/
def vaRow (i : Fin 2048) : Fin 256 := ⟨i.val % 256, by omega⟩

/-- The grid point that handles head-and-batch n·16 + h and the tile of row i handles exactly that head-and-batch, -/
theorem va_bh (n : Fin 2) (h : Fin 16) (i : Fin 2048) : bh1 (tOf (bhNH n h) (vaTile i)) = bhNH n h :=
  Fin.ext (by
    have hn := n.isLt; have hh := h.isLt; have hi := i.isLt
    show ((n.val * 16 + h.val) * 8 + i.val / 256) / 8 = n.val * 16 + h.val
    omega)
/-- and the tile's row (i mod 256) is row i of the array. -/
theorem va_row (n : Fin 2) (h : Fin 16) (i : Fin 2048) : qrow1 (tOf (bhNH n h) (vaTile i)) (vaRow i) = i :=
  Fin.ext (by
    have hn := n.isLt; have hh := h.isLt; have hi := i.isLt
    show ((n.val * 16 + h.val) * 8 + i.val / 256) % 8 * 256 + i.val % 256 = i.val
    omega)

/-- The grid's second coordinate at point t is the tile t mod 8. -/
theorem coords1_tile : ∀ t : Fin cfg1.N, ((grid1.coords t) (1 : Fin 2)).val = t.val % 8 :=
  (by decide +kernel : ∀ t : Fin grid1.N, _)

/-- The sequence position the body computes for that row of that point's tile is i. -/
theorem va_pos (n : Fin 2) (h : Fin 16) (i : Fin 2048) :
    ((grid1.coords (tOf (bhNH n h) (vaTile i))) (1 : Fin 2)).val * 256 + (vaRow i).val = i.val := by
  rw [coords1_tile]
  have hn := n.isLt; have hh := h.isLt; have hi := i.isLt
  show ((n.val * 16 + h.val) * 8 + i.val / 256) % 8 * 256 + i.val % 256 = i.val
  omega

/-! ## The rows the body is handed are the reference's stages' rows -/

/-- The query row handed to the point for row i is the reference's query stage's row (n, h, i). -/
theorem va_qrow (c : Dev nD) (n : Fin 2) (h : Fin 16) (i : Fin 2048) :
    (fun d : Fin 64 => qblk (E3 m c main_v13) (tOf (bhNH n h) (vaTile i)) (ix3 (0 : Fin 1) (vaRow i) d))
      = fun d => Cert.ReferenceIdeal.Read.val_main_v5 (F := Ideal) (m ((c : Thread nD τ).loc main_arg0)) (m ((c : Thread nD τ).loc main_arg1)) (m ((c : Thread nD τ).loc main_arg2)) (ix4 n h i d) := by
  funext d
  show (E3 m c main_v13 : S32x2048x64.Idx → EReal) (ix3 (bh1 (tOf (bhNH n h) (vaTile i))) (qrow1 (tOf (bhNH n h) (vaTile i)) (vaRow i)) d) = _
  rw [va_bh, va_row]
  exact q_stage m c n h i d

/-- The key rows handed to the point are the reference's key stage's rows (n, h, ·). -/
theorem va_krows (c : Dev nD) (n : Fin 2) (h : Fin 16) (i : Fin 2048) :
    (fun (k : Fin 2048) (d : Fin 64) => kblk (E3 m c main_v16) (tOf (bhNH n h) (vaTile i)) (ix3 (0 : Fin 1) k d))
      = fun k d => Cert.ReferenceIdeal.Read.val_main_v11 (F := Ideal) (m ((c : Thread nD τ).loc main_arg0)) (m ((c : Thread nD τ).loc main_arg3)) (m ((c : Thread nD τ).loc main_arg4)) (ix4 n h k d) := by
  funext k d
  show (E3 m c main_v16 : S32x2048x64.Idx → EReal) (ix3 (bh1 (tOf (bhNH n h) (vaTile i))) k d) = _
  rw [va_bh]
  exact k_stage m c n h k d

/-- Coordinate d of the value rows handed to the point is the reference's value stage's column (n, h, ·, d). -/
theorem va_vcol (c : Dev nD) (n : Fin 2) (h : Fin 16) (i : Fin 2048) (d : Fin 64) :
    (fun k : Fin 2048 => kblk (E3 m c main_v19) (tOf (bhNH n h) (vaTile i)) (ix3 (0 : Fin 1) k d))
      = fun k => Cert.ReferenceIdeal.Read.val_main_v17 (F := Ideal) (m ((c : Thread nD τ).loc main_arg0)) (m ((c : Thread nD τ).loc main_arg5)) (m ((c : Thread nD τ).loc main_arg6)) (ix4 n h k d) := by
  funext k
  show (E3 m c main_v19 : S32x2048x64.Idx → EReal) (ix3 (bh1 (tOf (bhNH n h) (vaTile i))) k d) = _
  rw [va_bh]
  exact v_stage m c n h k d

/-- The row of masked scores the body forms for row i is the reference's. -/
theorem va_score (c : Dev nD) (n : Fin 2) (h : Fin 16) (i : Fin 2048) :
    score (fun d : Fin 64 => qblk (E3 m c main_v13) (tOf (bhNH n h) (vaTile i)) (ix3 (0 : Fin 1) (vaRow i) d))
        (fun (k : Fin 2048) (d : Fin 64) => kblk (E3 m c main_v16) (tOf (bhNH n h) (vaTile i)) (ix3 (0 : Fin 1) k d))
        (((grid1.coords (tOf (bhNH n h) (vaTile i))) (1 : Fin 2)).val * 256 + (vaRow i).val)
      = score (fun d => Cert.ReferenceIdeal.Read.val_main_v5 (F := Ideal) (m ((c : Thread nD τ).loc main_arg0)) (m ((c : Thread nD τ).loc main_arg1)) (m ((c : Thread nD τ).loc main_arg2)) (ix4 n h i d))
          (fun k d => Cert.ReferenceIdeal.Read.val_main_v11 (F := Ideal) (m ((c : Thread nD τ).loc main_arg0)) (m ((c : Thread nD τ).loc main_arg3)) (m ((c : Thread nD τ).loc main_arg4)) (ix4 n h k d))
          i.val :=
  congr (congr (congrArg score (va_qrow m c n h i)) (va_krows m c n h i)) (va_pos n h i)

/-! ## The two arrays the attention region leaves, entry by entry, are the reference's stages -/

/-- The weights array at (n·16 + h, i, j) is the reference's attention weight at (n, h, i, j). -/
theorem weights_entry (c : Dev nD) (n : Fin 2) (h : Fin 16) (i j : Fin 2048) :
    (o4a m c : S32x2048x2048.Idx → EReal) (ix3 (bhNH n h) i j)
      = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 n h i j) := by
  unfold o4a
  rw [final1_3 (E3 m) c]
  have hat := attW_at (E3 m c main_v13) (E3 m c main_v16) (tOf (bhNH n h) (vaTile i)) (vaRow i) j
  rw [va_bh, va_row] at hat
  refine hat.trans ?_
  refine (k1_pay2_apply _ _ _ (vaRow i) j).trans ?_
  rw [refWeights_apply]
  exact congrArg (fun f => weight f j) (va_score m c n h i)

/-- The attention output array at (n·16 + h, s, d) is the reference's per-head output at (n, h, s, d). -/
theorem out_entry (c : Dev nD) (n : Fin 2) (h : Fin 16) (s : Fin 2048) (d : Fin 64) :
    (o4b m c : S32x2048x64.Idx → EReal) (ix3 (bhNH n h) s d)
      = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 n h s d) := by
  unfold o4b
  rw [final1_4 (E3 m) c]
  have hat := attO_at (E3 m c main_v13) (E3 m c main_v16) (E3 m c main_v19) (tOf (bhNH n h) (vaTile s)) (vaRow s) d
  rw [va_bh, va_row] at hat
  refine hat.trans ?_
  refine (k1_pay3_apply _ _ _ _ (vaRow s) d).trans ?_
  rw [refOut_apply]
  exact congr (congrArg attnOut (va_score m c n h s)) (va_vcol m c n h s d)

end Cert.KernelIdeal.Run

end
-- ==== Proof.IdealValue.lean ====
import proofs.«145827_j85126251807436_2_alg».proof.Proof.IdealValueOut
import proofs.«145827_j85126251807436_2_alg».proof.Proof.IdealValueAttn

/-!
  The two results of the idealized kernel program as the reference's stages of the same arguments: the attention region's
  arrays, entry by entry, are the reference's attention weights and attention output, and the rest is the output projection.
-/

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Cert.Val.Lin
open scoped BigOperators

variable (m : (ℓ : Loc nD τ sig) → Buf (Elt Ideal) ℓ)

/-- The output result is the reference's output stage of the program's arguments. -/
theorem out_eq (c : Dev nD) :
    W7 m c main_v28 = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  out_of m c (out_entry m c)

/-- The weights result is the reference's weights stage of the program's arguments. -/
theorem weights_eq (c : Dev nD) :
    W7 m c main_v21 = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  weights_of m c (weights_entry m c)

end Cert.KernelIdeal.Run

end
-- ==== Proof.lean ====
/-
  Causal multi-head attention in three kernel regions — a fused query/key/value projection over row blocks, the attention
  of one head and one tile of query rows at a time (scaled scores, causal mask, softmax as the exponentials of the distances
  below the row maximum over their sum, and the weighted sum of the value rows), and the output projection over row
  blocks — against the same computation written with whole-array contractions.
  The frames of the two kernel programs come from their runs (every host stretch and every region followed from the launch
  memory to the end); the reference's from its run. The masking constant of the kernel is named, and at the extended reals
  it is the bottom element, which is what the one idealization rewrite states. At the extended reals the two programs end
  with equal results: no sum is re-associated (every block contracts its whole axis at once), both sides take the softmax
  the same way, and the rest is the bookkeeping of reshapes, transposes, slices and row blocks.
-/
import proofs.«145827_j85126251807436_2_alg».proof.Defs
import proofs.«145827_j85126251807436_2_alg».proof.Proof.BitsRun
import proofs.«145827_j85126251807436_2_alg».proof.Proof.IdealRun
import proofs.«145827_j85126251807436_2_alg».proof.Proof.IdealValue
import proofs.«145827_j85126251807436_2_alg».proof.Proof.Gen.Kernel
import proofs.«145827_j85126251807436_2_alg».proof.Proof.Gen.KernelIdeal
import proofs.«145827_j85126251807436_2_alg».proof.Proof.Gen.ReferenceIdeal
import proofs.«145827_j85126251807436_2_alg».proof.Proof.Gen.ReferenceIdeal.Run
import proofs.«145827_j85126251807436_2_alg».proof.Proof.Gen.ReferenceIdeal.Read
import proofs.«145827_j85126251807436_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its arguments unchanged. -/
theorem frame_k : Cert.frame_Kernel := fun m ρ _ => Cert.Kernel.Run.frame (F := Bits) m ρ

/-- So does its idealization. -/
theorem frame_ki : Cert.frame_KernelIdeal := fun m ρ _ => Cert.KernelIdeal.Run.frame (F := Ideal) m ρ

/-- And the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the finite stand-in the kernel masks with is named, and the name denotes `⊥`. -/
theorem preserves : Cert.preserves_Kernel_KernelIdeal :=
  IdealRules.named_const.statement Cert.KernelIdeal.κ "neg_big" .f32 0xF149F2CA#32 ⊥ rfl

/-- At the extended reals the two programs, run from memories agreeing on the arguments, end with equal results. -/
theorem algebraic : Cert.algebraic_KernelIdeal_ReferenceIdeal := by
  intro m ρ m' ρ' _ hagree
  refine ⟨fun c => Cert.KernelIdeal.Run.W7 m c Cert.KernelIdeal.main_v28, fun c => Cert.KernelIdeal.Run.W7 m c Cert.KernelIdeal.main_v21, ?_, ?_⟩
  · refine (θ_run Cert.KernelIdeal.defs _ _).mono (fun r h c => ?_) (Cert.KernelIdeal.Run.run_main (F := Ideal) m ρ)
    obtain ⟨h0, h1, h2, h3, h4, h5, h6, h7, h8⟩ := Cert.KernelIdeal.Run.W7_arg m c
    exact ⟨h c _ (Cert.KernelIdeal.Run.mem_uc Cert.KernelIdeal.main_v28 (by decide)),
      h c _ (Cert.KernelIdeal.Run.mem_uc Cert.KernelIdeal.main_v21 (by decide)),
      (h c _ (Cert.KernelIdeal.Run.mem_uc Cert.KernelIdeal.main_arg0 (by decide))).trans h0,
      (h c _ (Cert.KernelIdeal.Run.mem_uc Cert.KernelIdeal.main_arg1 (by decide))).trans h1,
      (h c _ (Cert.KernelIdeal.Run.mem_uc Cert.KernelIdeal.main_arg2 (by decide))).trans h2,
      (h c _ (Cert.KernelIdeal.Run.mem_uc Cert.KernelIdeal.main_arg3 (by decide))).trans h3,
      (h c _ (Cert.KernelIdeal.Run.mem_uc Cert.KernelIdeal.main_arg4 (by decide))).trans h4,
      (h c _ (Cert.KernelIdeal.Run.mem_uc Cert.KernelIdeal.main_arg5 (by decide))).trans h5,
      (h c _ (Cert.KernelIdeal.Run.mem_uc Cert.KernelIdeal.main_arg6 (by decide))).trans h6,
      (h c _ (Cert.KernelIdeal.Run.mem_uc Cert.KernelIdeal.main_arg7 (by decide))).trans h7,
      (h c _ (Cert.KernelIdeal.Run.mem_uc Cert.KernelIdeal.main_arg8 (by decide))).trans h8⟩
  · refine (θ_run Cert.ReferenceIdeal.defs _ _).mono (fun r h c => ?_) (Cert.ReferenceIdeal.Value.run (F := Ideal) m' ρ')
    obtain ⟨a0, a1, a2, a3, a4, a5, a6, a7, a8⟩ := hagree c
    obtain ⟨r42, r35, rest⟩ := h c
    refine ⟨r42.trans ?_, r35.trans ?_, rest⟩
    · rw [Cert.ReferenceIdeal.Read.val_main_v42_eq, a0, a1, a2, a3, a4, a5, a6, a7, a8]
      exact (Cert.KernelIdeal.Run.out_eq m c).symm
    · rw [Cert.ReferenceIdeal.Read.val_main_v35_eq, a0, a1, a2, a3, a4]
      exact (Cert.KernelIdeal.Run.weights_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
